-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x3 : Shape := ⟨2, ![50000, 3]⟩
abbrev S50000 : Shape := ⟨1, ![50000]⟩
abbrev S2x600000 : Shape := ⟨2, ![2, 600000]⟩
abbrev S600000x16 : Shape := ⟨2, ![600000, 16]⟩
abbrev S13x128 : Shape := ⟨2, ![13, 128]⟩
abbrev S128 : Shape := ⟨1, ![128]⟩
abbrev S16x128 : Shape := ⟨2, ![16, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x3 : S_.BroadcastsInDim S50000x3 (![] : Fin 0 → Fin S50000x3.rank)
  reducesTo_S50000x3_S_d0_1 : S50000x3.ReducesTo [0, 1] S_
  h_S_ : 0 < S_.numel
  bcast_S_S600000x16 : S_.BroadcastsInDim S600000x16 (![] : Fin 0 → Fin S600000x16.rank)
  reducesTo_S600000x16_S_d0_1 : S600000x16.ReducesTo [0, 1] S_
  bcast_S_S13x128 : S_.BroadcastsInDim S13x128 (![] : Fin 0 → Fin S13x128.rank)
  reducesTo_S13x128_S_d0_1 : S13x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg21 : FVec F S128x1 .f32) (main_arg22 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg21
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg22
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg17 : FVec F S128x128 .f32) (main_arg18 : FVec F S128 .f32) (main_arg19 : FVec F S128x128 .f32) (main_arg20 : FVec F S128 .f32) (main_arg21 : FVec F S128x1 .f32) (main_arg22 : FVec F S1 .f32) (main_v63 : IVec S_ 1) (main_v67 : IVec S_ 1) : IVec S_ 1 :=
  let main_v68 : IVec S_ 1 := andi main_v63 main_v67
  let main_v69 : FVec F S128x128 .f32 := Host.absf main_arg17
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg18
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg19
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg20
  let main_cst_32 : FVec F S_ .f32 := constant S_ .f32 0x7F800000#32
  fn_part5 (F := F) main_arg21 main_arg22 main_v83 main_v84 main_cst_32

def fn_part3 {F : FTy → Type} [FloatOps F] (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg14
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S16x128 .f32 := Host.absf main_arg15
  let main_cst_22 : FVec F S_ .f32 := constant S_ .f32 0x7F800000#32
  let main_v60 : FVec F S16x128 .f32 := broadcastInDim S16x128 ![] bcast_S_S16x128 main_cst_22
  let main_v61 : IVec S16x128 1 := cmpf .olt main_v59 main_v60
  let main_c_23 : IVec S_ 1 := constantI S_ 1 1#1
  let main_v62 : IVec S_ 1 := (fun x v => Host.reduce IntOp.andi x v reducesTo_S16x128_S_d0_1 h_S_) main_v61 main_c_23
  let main_v63 : IVec S_ 1 := andi main_v58 main_v62
  let main_v64 : FVec F S128 .f32 := Host.absf main_arg16
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg17 main_arg18 main_arg19 main_arg20 main_arg21 main_arg22 main_v63 main_v67

def fn_part2 {F : FTy → Type} [FloatOps F] (main_arg10 : FVec F S128 .f32) (main_arg11 : FVec F S128x128 .f32) (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v33 : IVec S_ 1) : IVec S_ 1 :=
  let main_v34 : FVec F S128 .f32 := Host.absf main_arg10
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg11
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg12
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg13
  let main_cst_18 : FVec F S_ .f32 := constant S_ .f32 0x7F800000#32
  let main_v50 : FVec F S128x128 .f32 := broadcastInDim S128x128 ![] bcast_S_S128x128 main_cst_18
  fn_part3 (F := F) main_arg14 main_arg15 main_arg16 main_arg17 main_arg18 main_arg19 main_arg20 main_arg21 main_arg22 main_v48 main_v49 main_v50

def fn_part1 {F : FTy → Type} [FloatOps F] (main_arg7 : FVec F S16x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S16x128 .f32 := Host.absf main_arg7
  let main_cst_6 : FVec F S_ .f32 := constant S_ .f32 0x7F800000#32
  let main_v20 : FVec F S16x128 .f32 := broadcastInDim S16x128 ![] bcast_S_S16x128 main_cst_6
  let main_v21 : IVec S16x128 1 := cmpf .olt main_v19 main_v20
  let main_c_7 : IVec S_ 1 := constantI S_ 1 1#1
  let main_v22 : IVec S_ 1 := (fun x v => Host.reduce IntOp.andi x v reducesTo_S16x128_S_d0_1 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg9
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg10 main_arg11 main_arg12 main_arg13 main_arg14 main_arg15 main_arg16 main_arg17 main_arg18 main_arg19 main_arg20 main_arg21 main_arg22 main_v33

def fn {F : FTy → Type} [FloatOps F] (main_arg0 : FVec F S50000x3 .f32) (main_arg1 : IVec S50000 32) (main_arg2 : IVec S2x600000 32) (main_arg3 : FVec F S600000x16 .f32) (main_arg4 : IVec S50000 32) (main_arg5 : FVec F S13x128 .f32) (main_arg6 : FVec F S128 .f32) (main_arg7 : FVec F S16x128 .f32) (main_arg8 : FVec F S128 .f32) (main_arg9 : FVec F S128x128 .f32) (main_arg10 : FVec F S128 .f32) (main_arg11 : FVec F S128x128 .f32) (main_arg12 : FVec F S128 .f32) (main_arg13 : FVec F S128x128 .f32) (main_arg14 : FVec F S128 .f32) (main_arg15 : FVec F S16x128 .f32) (main_arg16 : FVec F S128 .f32) (main_arg17 : FVec F S128x128 .f32) (main_arg18 : FVec F S128 .f32) (main_arg19 : FVec F S128x128 .f32) (main_arg20 : FVec F S128 .f32) (main_arg21 : FVec F S128x1 .f32) (main_arg22 : FVec F S1 .f32) : IVec S_ 1 :=
  let main_v0 : FVec F S50000x3 .f32 := Host.absf main_arg0
  let main_cst : FVec F S_ .f32 := constant S_ .f32 0x7F800000#32
  let main_v1 : FVec F S50000x3 .f32 := broadcastInDim S50000x3 ![] bcast_S_S50000x3 main_cst
  let main_v2 : IVec S50000x3 1 := cmpf .olt main_v0 main_v1
  let main_c : IVec S_ 1 := constantI S_ 1 1#1
  let main_v3 : IVec S_ 1 := (fun x v => Host.reduce IntOp.andi x v reducesTo_S50000x3_S_d0_1 h_S_) main_v2 main_c
  let main_v4 : FVec F S600000x16 .f32 := Host.absf main_arg3
  let main_cst_0 : FVec F S_ .f32 := constant S_ .f32 0x7F800000#32
  let main_v5 : FVec F S600000x16 .f32 := broadcastInDim S600000x16 ![] bcast_S_S600000x16 main_cst_0
  let main_v6 : IVec S600000x16 1 := cmpf .olt main_v4 main_v5
  let main_c_1 : IVec S_ 1 := constantI S_ 1 1#1
  let main_v7 : IVec S_ 1 := (fun x v => Host.reduce IntOp.andi x v reducesTo_S600000x16_S_d0_1 h_S_) main_v6 main_c_1
  let main_v8 : IVec S_ 1 := andi main_v3 main_v7
  let main_v9 : FVec F S13x128 .f32 := Host.absf main_arg5
  let main_cst_2 : FVec F S_ .f32 := constant S_ .f32 0x7F800000#32
  let main_v10 : FVec F S13x128 .f32 := broadcastInDim S13x128 ![] bcast_S_S13x128 main_cst_2
  let main_v11 : IVec S13x128 1 := cmpf .olt main_v9 main_v10
  let main_c_3 : IVec S_ 1 := constantI S_ 1 1#1
  let main_v12 : IVec S_ 1 := (fun x v => Host.reduce IntOp.andi x v reducesTo_S13x128_S_d0_1 h_S_) main_v11 main_c_3
  let main_v13 : IVec S_ 1 := andi main_v8 main_v12
  let main_v14 : FVec F S128 .f32 := Host.absf main_arg6
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x3 : Shape := ⟨2, ![50000, 3]⟩
abbrev S50000 : Shape := ⟨1, ![50000]⟩
abbrev S2x600000 : Shape := ⟨2, ![2, 600000]⟩
abbrev S600000x16 : Shape := ⟨2, ![600000, 16]⟩
abbrev S13x128 : Shape := ⟨2, ![13, 128]⟩
abbrev S128 : Shape := ⟨1, ![128]⟩
abbrev S16x128 : Shape := ⟨2, ![16, 128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S50000x1 : Shape := ⟨2, ![50000, 1]⟩
abbrev S1x10 : Shape := ⟨2, ![1, 10]⟩
abbrev S50000x10 : Shape := ⟨2, ![50000, 10]⟩
abbrev S50000x13 : Shape := ⟨2, ![50000, 13]⟩
abbrev S1x128 : Shape := ⟨2, ![1, 128]⟩
abbrev S50000x128 : Shape := ⟨2, ![50000, 128]⟩
abbrev S5000x13 : Shape := ⟨2, ![5000, 13]⟩
abbrev S5000x128 : Shape := ⟨2, ![5000, 128]⟩
abbrev S_ : Shape := ⟨0, ![]⟩
abbrev S600000x1 : Shape := ⟨2, ![600000, 1]⟩
abbrev S600000x128 : Shape := ⟨2, ![600000, 128]⟩
abbrev S10000x16 : Shape := ⟨2, ![10000, 16]⟩
abbrev S10000x128 : Shape := ⟨2, ![10000, 128]⟩
abbrev S512x128 : Shape := ⟨2, ![512, 128]⟩
abbrev S1x1 : Shape := ⟨2, ![1, 1]⟩
abbrev S512x1 : Shape := ⟨2, ![512, 1]⟩

abbrev nBuf : Space → Nat
  | .hbm => 80
  | .vmem => 52
  | .smem => 0
  | _ => 0

abbrev bufTy : (tb : Table) → Fin (tcTables nBuf tb) → BufTy
  | .hbm, ⟨0, _⟩ => ⟨S50000x3, .f32⟩
  | .hbm, ⟨1, _⟩ => ⟨S50000, .i32⟩
  | .hbm, ⟨2, _⟩ => ⟨S2x600000, .i32⟩
  | .hbm, ⟨3, _⟩ => ⟨S600000x16, .f32⟩
  | .hbm, ⟨4, _⟩ => ⟨S50000, .i32⟩
  | .hbm, ⟨5, _⟩ => ⟨S13x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S16x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S1x600000, .i32⟩
  | .hbm, ⟨24, _⟩ => ⟨S600000, .i32⟩
  | .hbm, ⟨25, _⟩ => ⟨S1x600000, .i32⟩
  | .hbm, ⟨26, _⟩ => ⟨S600000, .i32⟩
  | .hbm, ⟨27, _⟩ => ⟨S50000x1, .i32⟩
  | .hbm, ⟨28, _⟩ => ⟨S1x10, .i32⟩
  | .hbm, ⟨29, _⟩ => ⟨S50000x10, .i32⟩
  | .hbm, ⟨30, _⟩ => ⟨S50000x10, .i32⟩
  | .hbm, ⟨31, _⟩ => ⟨S50000x10, .i1⟩
  | .hbm, ⟨32, _⟩ => ⟨S50000x10, .f32⟩
  | .hbm, ⟨33, _⟩ => ⟨S50000x13, .f32⟩
  | .hbm, ⟨34, _⟩ => ⟨S1x128, .f32⟩
  | .hbm, ⟨35, _⟩ => ⟨S50000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S1x128, .f32⟩
  | .hbm, ⟨46, _⟩ => ⟨S600000x128, .f32⟩
  | .hbm, ⟨47, _⟩ => ⟨S_, .f32⟩
  | .hbm, ⟨48, _⟩ => ⟨S50000x128, .f32⟩
  | .hbm, ⟨49, _⟩ => ⟨S600000x1, .i32⟩
  | .hbm, ⟨50, _⟩ => ⟨S50000x128, .f32⟩
  | .hbm, ⟨51, _⟩ => ⟨S1x128, .f32⟩
  | .hbm, ⟨52, _⟩ => ⟨S1x128, .f32⟩
  | .hbm, ⟨53, _⟩ => ⟨S50000x128, .f32⟩
  | .hbm, ⟨54, _⟩ => ⟨S1x128, .f32⟩
  | .hbm, ⟨55, _⟩ => ⟨S50000x128, .f32⟩
  | .hbm, ⟨56, _⟩ => ⟨S_, .i32⟩
  | .hbm, ⟨57, _⟩ => ⟨S600000, .i32⟩
  | .hbm, ⟨58, _⟩ => ⟨S600000, .i1⟩
  | .hbm, ⟨59, _⟩ => ⟨S_, .i32⟩
  | .hbm, ⟨60, _⟩ => ⟨S600000, .i32⟩
  | .hbm, ⟨61, _⟩ => ⟨S600000, .i32⟩
  | .hbm, ⟨62, _⟩ => ⟨S600000, .i32⟩
  | .hbm, ⟨63, _⟩ => ⟨S600000x1, .i32⟩
  | .hbm, ⟨64, _⟩ => ⟨S600000x128, .f32⟩
  | .hbm, ⟨65, _⟩ => ⟨S1x128, .f32⟩
  | .hbm, ⟨66, _⟩ => ⟨S600000x128, .f32⟩
  | .hbm, ⟨67, _⟩ => ⟨S_, .f32⟩
  | .hbm, ⟨68, _⟩ => ⟨S50000x128, .f32⟩
  | .hbm, ⟨69, _⟩ => ⟨S600000x1, .i32⟩
  | .hbm, ⟨70, _⟩ => ⟨S50000x128, .f32⟩
  | .hbm, ⟨71, _⟩ => ⟨S1x128, .f32⟩
  | .hbm, ⟨72, _⟩ => ⟨S1x128, .f32⟩
  | .hbm, ⟨73, _⟩ => ⟨S50000x128, .f32⟩
  | .hbm, ⟨74, _⟩ => ⟨S_, .f32⟩
  | .hbm, ⟨75, _⟩ => ⟨S512x128, .f32⟩
  | .hbm, ⟨76, _⟩ => ⟨S50000x1, .i32⟩
  | .hbm, ⟨77, _⟩ => ⟨S512x128, .f32⟩
  | .hbm, ⟨78, _⟩ => ⟨S1x1, .f32⟩
  | .hbm, ⟨79, _⟩ => ⟨S512x1, .f32⟩
  | .local _ .vmem, ⟨0, _⟩ => ⟨S5000x13, .f32⟩
  | .local _ .vmem, ⟨1, _⟩ => ⟨S5000x13, .f32⟩
  | .local _ .vmem, ⟨2, _⟩ => ⟨S13x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S10000x16, .f32⟩
  | .local _ .vmem, ⟨7, _⟩ => ⟨S10000x16, .f32⟩
  | .local _ .vmem, ⟨8, _⟩ => ⟨S16x128, .f32⟩
  | .local _ .vmem, ⟨9, _⟩ => ⟨S1x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S10000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S10000x16, .f32⟩
  | .local _ .vmem, ⟨31, _⟩ => ⟨S10000x16, .f32⟩
  | .local _ .vmem, ⟨32, _⟩ => ⟨S16x128, .f32⟩
  | .local _ .vmem, ⟨33, _⟩ => ⟨S1x128, .f32⟩
  | .local _ .vmem, ⟨34, _⟩ => ⟨S10000x128, .f32⟩
  | .local _ .vmem, ⟨35, _⟩ => ⟨S10000x128, .f32⟩
  | .local _ .vmem, ⟨36, _⟩ => ⟨S10000x128, .f32⟩
  | .local _ .vmem, ⟨37, _⟩ => ⟨S10000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S128x128, .f32⟩
  | .local _ .vmem, ⟨43, _⟩ => ⟨S1x128, .f32⟩
  | .local _ .vmem, ⟨44, _⟩ => ⟨S128x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S512x128, .f32⟩
  | .local _ .vmem, ⟨49, _⟩ => ⟨S128x1, .f32⟩
  | .local _ .vmem, ⟨50, _⟩ => ⟨S1x1, .f32⟩
  | .local _ .vmem, ⟨51, _⟩ => ⟨S512x1, .f32⟩
  | _, _ => ⟨S50000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_c : Ref sig .tc := ⟨.hbm, 36, rfl⟩
abbrev main_v8 : Ref sig .tc := ⟨.hbm, 37, rfl⟩
abbrev main_v9 : Ref sig .tc := ⟨.hbm, 38, rfl⟩
abbrev main_c_0 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_cst : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_c_1 : Ref sig .tc := ⟨.hbm, 56, rfl⟩
abbrev main_v25 : Ref sig .tc := ⟨.hbm, 57, rfl⟩
abbrev main_v26 : Ref sig .tc := ⟨.hbm, 58, rfl⟩
abbrev main_c_2 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_3 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_4 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg6_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg3_0 : Ref sig .tc := ⟨.vmem, 34, rfl⟩
abbrev cc4_stg3_1 : Ref sig .tc := ⟨.vmem, 35, rfl⟩
abbrev cc4_stg4_0 : Ref sig .tc := ⟨.vmem, 36, rfl⟩
abbrev cc4_stg4_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg1_0 : Ref sig .tc := ⟨.vmem, 49, rfl⟩
abbrev cc6_stg2_0 : Ref sig .tc := ⟨.vmem, 50, rfl⟩
abbrev cc6_stg3_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem6_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem3_0 : DmaSem sig := 34
abbrev cc4_sem3_1 : DmaSem sig := 35
abbrev cc4_sem4_0 : DmaSem sig := 36
abbrev cc4_sem4_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem1_0 : DmaSem sig := 49
abbrev cc6_sem2_0 : DmaSem sig := 50
abbrev cc6_sem3_0 : DmaSem sig := 51

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x13 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S13x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S10000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![60], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S10000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S128x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S128x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x1 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S1x10_S50000x10_0_1 : S1x10.BroadcastsInDim S50000x10 (![0, 1] : Fin 2 → Fin S50000x10.rank)
  concatenates_S50000x3_S50000x10_S50000x13_d1 : Shape.Concatenates [S50000x3, S50000x10] S50000x13 1
  shapeCasts_S128_S1x128 : S128.ShapeCasts S1x128
  inb_S5000x13_S5000x13_0_0 : ∀ a, (![0, 0] : Fin 2 → Nat) a + S5000x13.size a ≤ S5000x13.size a
  h_S5000x13 : 0 < S5000x13.numel
  shapeCasts_S5000x13_S5000x13 : S5000x13.ShapeCasts S5000x13
  bitsLt_bf16_f32 : FTy.bits .bf16 < FTy.bits .f32
  inb_S13x128_S13x128_0_0 : ∀ a, (![0, 0] : Fin 2 → Nat) a + S13x128.size a ≤ S13x128.size a
  h_S13x128 : 0 < S13x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S600000 : S_.BroadcastsInDim S600000 (![] : Fin 0 → Fin S600000.rank)
  bcast_S600000_S600000x1_0 : S600000.BroadcastsInDim S600000x1 (![0] : Fin 1 → Fin S600000x1.rank)
  inb_S10000x16_S10000x16_0_0 : ∀ a, (![0, 0] : Fin 2 → Nat) a + S10000x16.size a ≤ S10000x16.size a
  h_S10000x16 : 0 < S10000x16.numel
  inb_S16x128_S16x128_0_0 : ∀ a, (![0, 0] : Fin 2 → Nat) a + S16x128.size a ≤ S16x128.size a
  h_S16x128 : 0 < S16x128.numel
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bcast_S_S50000x128 : S_.BroadcastsInDim S50000x128 (![] : Fin 0 → Fin S50000x128.rank)
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  bcast_S_S512x128 : S_.BroadcastsInDim S512x128 (![] : Fin 0 → Fin S512x128.rank)
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S5000x13_S13x128_S5000x128_1_0_0_1_n_n_wf : DotDims.WF S5000x13 S13x128 S5000x128 [1] [0] [0] [1] [] []
  gather_S50000x128_S600000x1_S600000x128_1_0_n_n_0_1_1128_wf : GatherDims.WF S50000x128 S600000x1 S600000x128 [1] [0] [] [0] [] 1 ![1, 128]
  dot_S10000x16_S16x128_S10000x128_1_0_0_1_n_n_wf : DotDims.WF S10000x16 S16x128 S10000x128 [1] [0] [0] [1] [] []
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x13.size a ≤ S50000x13.size a
  hwx0_0 : ∀ i : grid0.Coords, EltTy.bits .f32 = 32 ∨ (Rect.block (s := S50000x13) S5000x13.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S13x128.size a ≤ S13x128.size a
  hwx0_1 : ∀ i : grid0.Coords, EltTy.bits .f32 = 32 ∨ (Rect.block (s := S13x128) S13x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S600000x16.size a
  hwx1_0 : ∀ i : grid1.Coords, EltTy.bits .f32 = 32 ∨ (Rect.block (s := S600000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x128.size a ≤ S16x128.size a
  hwx1_1 : ∀ i : grid1.Coords, EltTy.bits .f32 = 32 ∨ (Rect.block (s := S16x128) S16x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S600000x128.size a
  hwx1_3 : ∀ i : grid1.Coords, EltTy.bits .f32 = 32 ∨ (Rect.block (s := S600000x128) S10000x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x128.size a ≤ S600000x128.size a
  hwx1_4 : ∀ i : grid1.Coords, EltTy.bits .f32 = 32 ∨ (Rect.block (s := S600000x128) S10000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x16.size a ≤ S600000x16.size a
  hwx4_0 : ∀ i : grid4.Coords, EltTy.bits .f32 = 32 ∨ (Rect.block (s := S600000x16) S10000x16.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S16x128.size a ≤ S16x128.size a
  hwx4_1 : ∀ i : grid4.Coords, EltTy.bits .f32 = 32 ∨ (Rect.block (s := S16x128) S16x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S10000x128.size a ≤ S600000x128.size a
  hwx4_3 : ∀ i : grid4.Coords, EltTy.bits .f32 = 32 ∨ (Rect.block (s := S600000x128) S10000x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S600000x128.size a
  hwx4_4 : ∀ i : grid4.Coords, EltTy.bits .f32 = 32 ∨ (Rect.block (s := S600000x128) S10000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x128.size a ≤ S128x128.size a
  hwx5_4 : ∀ i : grid5.Coords, EltTy.bits .f32 = 32 ∨ (Rect.block (s := S128x128) S128x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x1.size a ≤ S128x1.size a
  hwx6_1 : ∀ i : grid6.Coords, EltTy.bits .f32 = 32 ∨ (Rect.block (s := S128x1) S128x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x1.size a ≤ S1x1.size a
  hwx6_2 : ∀ i : grid6.Coords, EltTy.bits .f32 = 32 ∨ (Rect.block (s := S1x1) S1x1.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S512x1.size a ≤ S512x1.size a
  hwx6_3 : ∀ i : grid6.Coords, EltTy.bits .f32 = 32 ∨ (Rect.block (s := S512x1) S512x1.size (cc6_transform_3 i) (hinb6_3 i)).WholeWords (EltTy.packing .f32)

variable [Facts₀]

def dot_S5000x13_S13x128_S5000x128_1_0_0_1_n_n : DotDims S5000x13 S13x128 S5000x128 where
  lhsContracting := [1]
  rhsContracting := [0]
  lhsNonContracting := [0]
  rhsNonContracting := [1]
  lhsBatch := []
  rhsBatch := []
  wf := dot_S5000x13_S13x128_S5000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

abbrev win0_0 : Pipeline.Window sig grid0 :=
  Pipeline.Window.ofSpec (Memref.whole main_v5) S5000x13.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S13x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg3) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S16x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S10000x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v16) S10000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v19) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v21) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v22) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v22) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg13) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v23) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v24) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg3) S10000x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg15) S16x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v31) S10000x128.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v33) S10000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v36) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v24) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg17) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v37) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg19) S128x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v38) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v39) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v42) S512x128.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg21) S128x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v43) S1x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v44) S512x1.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x3 : Shape := ⟨2, ![50000, 3]⟩
abbrev S50000 : Shape := ⟨1, ![50000]⟩
abbrev S2x600000 : Shape := ⟨2, ![2, 600000]⟩
abbrev S600000x16 : Shape := ⟨2, ![600000, 16]⟩
abbrev S13x128 : Shape := ⟨2, ![13, 128]⟩
abbrev S128 : Shape := ⟨1, ![128]⟩
abbrev S16x128 : Shape := ⟨2, ![16, 128]⟩
abbrev S128x128 : Shape := ⟨2, ![128, 128]⟩
abbrev S128x1 : Shape := ⟨2, ![128, 1]⟩
abbrev S1 : Shape := ⟨1, ![1]⟩
abbrev S1x600000 : Shape := ⟨2, ![1, 600000]⟩
abbrev S600000 : Shape := ⟨1, ![600000]⟩
abbrev S50000x1 : Shape := ⟨2, ![50000, 1]⟩
abbrev S1x10 : Shape := ⟨2, ![1, 10]⟩
abbrev S50000x10 : Shape := ⟨2, ![50000, 10]⟩
abbrev S50000x13 : Shape := ⟨2, ![50000, 13]⟩
abbrev S50000x128 : Shape := ⟨2, ![50000, 128]⟩
abbrev S1x128 : Shape := ⟨2, ![1, 128]⟩
abbrev S600000x128 : Shape := ⟨2, ![600000, 128]⟩
abbrev S_ : Shape := ⟨0, ![]⟩
abbrev S600000x1 : Shape := ⟨2, ![600000, 1]⟩
abbrev S512x128 : Shape := ⟨2, ![512, 128]⟩
abbrev S512x1 : Shape := ⟨2, ![512, 1]⟩
abbrev S1x1 : Shape := ⟨2, ![1, 1]⟩

abbrev nBuf : Space → Nat
  | .hbm => 128
  | .vmem => 0
  | .smem => 0
  | _ => 0

abbrev bufTy : (tb : Table) → Fin (tcTables nBuf tb) → BufTy
  | .hbm, ⟨0, _⟩ => ⟨S50000x3, .f32⟩
  | .hbm, ⟨1, _⟩ => ⟨S50000, .i32⟩
  | .hbm, ⟨2, _⟩ => ⟨S2x600000, .i32⟩
  | .hbm, ⟨3, _⟩ => ⟨S600000x16, .f32⟩
  | .hbm, ⟨4, _⟩ => ⟨S50000, .i32⟩
  | .hbm, ⟨5, _⟩ => ⟨S13x128, .f32⟩
  | .hbm, ⟨6, _⟩ => ⟨S128, .f32⟩
  | .hbm, ⟨7, _⟩ => ⟨S16x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S128x128, .f32⟩
  | .hbm, ⟨14, _⟩ => ⟨S128, .f32⟩
  | .hbm, ⟨15, _⟩ => ⟨S16x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S128x1, .f32⟩
  | .hbm, ⟨22, _⟩ => ⟨S1, .f32⟩
  | .hbm, ⟨23, _⟩ => ⟨S1x600000, .i32⟩
  | .hbm, ⟨24, _⟩ => ⟨S600000, .i32⟩
  | .hbm, ⟨25, _⟩ => ⟨S1x600000, .i32⟩
  | .hbm, ⟨26, _⟩ => ⟨S600000, .i32⟩
  | .hbm, ⟨27, _⟩ => ⟨S50000x1, .i32⟩
  | .hbm, ⟨28, _⟩ => ⟨S1x10, .i32⟩
  | .hbm, ⟨29, _⟩ => ⟨S50000x10, .i32⟩
  | .hbm, ⟨30, _⟩ => ⟨S50000x10, .i32⟩
  | .hbm, ⟨31, _⟩ => ⟨S50000x10, .i1⟩
  | .hbm, ⟨32, _⟩ => ⟨S50000x10, .f32⟩
  | .hbm, ⟨33, _⟩ => ⟨S50000x13, .f32⟩
  | .hbm, ⟨34, _⟩ => ⟨S50000x128, .f32⟩
  | .hbm, ⟨35, _⟩ => ⟨S1x128, .f32⟩
  | .hbm, ⟨36, _⟩ => ⟨S50000x128, .f32⟩
  | .hbm, ⟨37, _⟩ => ⟨S50000x128, .f32⟩
  | .hbm, ⟨38, _⟩ => ⟨S600000x128, .f32⟩
  | .hbm, ⟨39, _⟩ => ⟨S1x128, .f32⟩
  | .hbm, ⟨40, _⟩ => ⟨S600000x128, .f32⟩
  | .hbm, ⟨41, _⟩ => ⟨S600000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S600000x128, .f32⟩
  | .hbm, ⟨52, _⟩ => ⟨S_, .f32⟩
  | .hbm, ⟨53, _⟩ => ⟨S600000x128, .f32⟩
  | .hbm, ⟨54, _⟩ => ⟨S600000x128, .f32⟩
  | .hbm, ⟨55, _⟩ => ⟨S_, .f32⟩
  | .hbm, ⟨56, _⟩ => ⟨S50000x128, .f32⟩
  | .hbm, ⟨57, _⟩ => ⟨S600000x1, .i32⟩
  | .hbm, ⟨58, _⟩ => ⟨S50000x128, .f32⟩
  | .hbm, ⟨59, _⟩ => ⟨S_, .f32⟩
  | .hbm, ⟨60, _⟩ => ⟨S50000x128, .f32⟩
  | .hbm, ⟨61, _⟩ => ⟨S50000x128, .f32⟩
  | .hbm, ⟨62, _⟩ => ⟨S50000x128, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | .hbm, ⟨67, _⟩ => ⟨S_, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S600000x128, .f32⟩
  | .hbm, ⟨82, _⟩ => ⟨S1x128, .f32⟩
  | .hbm, ⟨83, _⟩ => ⟨S600000x128, .f32⟩
  | .hbm, ⟨84, _⟩ => ⟨S600000x128, .f32⟩
  | .hbm, ⟨85, _⟩ => ⟨S_, .i32⟩
  | .hbm, ⟨86, _⟩ => ⟨S600000, .i32⟩
  | .hbm, ⟨87, _⟩ => ⟨S600000, .i1⟩
  | .hbm, ⟨88, _⟩ => ⟨S_, .i32⟩
  | .hbm, ⟨89, _⟩ => ⟨S600000, .i32⟩
  | .hbm, ⟨90, _⟩ => ⟨S600000, .i32⟩
  | .hbm, ⟨91, _⟩ => ⟨S600000, .i32⟩
  | .hbm, ⟨92, _⟩ => ⟨S600000x1, .i32⟩
  | .hbm, ⟨93, _⟩ => ⟨S600000x128, .f32⟩
  | .hbm, ⟨94, _⟩ => ⟨S600000x128, .f32⟩
  | .hbm, ⟨95, _⟩ => ⟨S_, .f32⟩
  | .hbm, ⟨96, _⟩ => ⟨S600000x128, .f32⟩
  | .hbm, ⟨97, _⟩ => ⟨S600000x128, .f32⟩
  | .hbm, ⟨98, _⟩ => ⟨S_, .f32⟩
  | .hbm, ⟨99, _⟩ => ⟨S50000x128, .f32⟩
  | .hbm, ⟨100, _⟩ => ⟨S600000x1, .i32⟩
  | .hbm, ⟨101, _⟩ => ⟨S50000x128, .f32⟩
  | .hbm, ⟨102, _⟩ => ⟨S_, .f32⟩
  | .hbm, ⟨103, _⟩ => ⟨S50000x128, .f32⟩
  | .hbm, ⟨104, _⟩ => ⟨S50000x128, .f32⟩
  | .hbm, ⟨105, _⟩ => ⟨S50000x128, .f32⟩
  | .hbm, ⟨106, _⟩ => ⟨S50000x128, .f32⟩
  | .hbm, ⟨107, _⟩ => ⟨S1x128, .f32⟩
  | .hbm, ⟨108, _⟩ => ⟨S50000x128, .f32⟩
  | .hbm, ⟨109, _⟩ => ⟨S50000x128, .f32⟩
  | .hbm, ⟨110, _⟩ => ⟨S_, .f32⟩
  | .hbm, ⟨111, _⟩ => ⟨S50000x128, .f32⟩
  | .hbm, ⟨112, _⟩ => ⟨S50000x128, .f32⟩
  | .hbm, ⟨113, _⟩ => ⟨S50000x128, .f32⟩
  | .hbm, ⟨114, _⟩ => ⟨S1x128, .f32⟩
  | .hbm, ⟨115, _⟩ => ⟨S50000x128, .f32⟩
  | .hbm, ⟨116, _⟩ => ⟨S50000x128, .f32⟩
  | .hbm, ⟨117, _⟩ => ⟨S_, .f32⟩
  | .hbm, ⟨118, _⟩ => ⟨S50000x128, .f32⟩
  | .hbm, ⟨119, _⟩ => ⟨S50000x128, .f32⟩
  | .hbm, ⟨120, _⟩ => ⟨S_, .f32⟩
  | .hbm, ⟨121, _⟩ => ⟨S512x128, .f32⟩
  | .hbm, ⟨122, _⟩ => ⟨S50000x1, .i32⟩
  | .hbm, ⟨123, _⟩ => ⟨S512x128, .f32⟩
  | .hbm, ⟨124, _⟩ => ⟨S512x1, .f32⟩
  | .hbm, ⟨125, _⟩ => ⟨S1x1, .f32⟩
  | .hbm, ⟨126, _⟩ => ⟨S512x1, .f32⟩
  | .hbm, ⟨127, _⟩ => ⟨S512x1, .f32⟩
  | _, _ => ⟨S50000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_v14 : Ref sig .tc := ⟨.hbm, 43, rfl⟩
abbrev main_v15 : Ref sig .tc := ⟨.hbm, 44, rfl⟩
abbrev main_c_0 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_call1_cst : Ref sig .tc := ⟨.hbm, 52, rfl⟩
abbrev main_call1_v0 : Ref sig .tc := ⟨.hbm, 53, rfl⟩
abbrev main_v22 : Ref sig .tc := ⟨.hbm, 54, rfl⟩
abbrev main_cst : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_call2_cst : Ref sig .tc := ⟨.hbm, 59, rfl⟩
abbrev main_call2_v0 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_call3_cst : Ref sig .tc := ⟨.hbm, 67, rfl⟩
abbrev main_call3_v0 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_call4_cst : Ref sig .tc := ⟨.hbm, 74, rfl⟩
abbrev main_call4_v0 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_c_1 : Ref sig .tc := ⟨.hbm, 85, rfl⟩
abbrev main_v46 : Ref sig .tc := ⟨.hbm, 86, rfl⟩
abbrev main_v47 : Ref sig .tc := ⟨.hbm, 87, rfl⟩
abbrev main_c_2 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_call5_cst : Ref sig .tc := ⟨.hbm, 95, rfl⟩
abbrev main_call5_v0 : Ref sig .tc := ⟨.hbm, 96, rfl⟩
abbrev main_v54 : Ref sig .tc := ⟨.hbm, 97, rfl⟩
abbrev main_cst_3 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_call6_cst : Ref sig .tc := ⟨.hbm, 102, rfl⟩
abbrev main_call6_v0 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_call7_cst : Ref sig .tc := ⟨.hbm, 110, rfl⟩
abbrev main_call7_v0 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_call8_cst : Ref sig .tc := ⟨.hbm, 117, rfl⟩
abbrev main_call8_v0 : Ref sig .tc := ⟨.hbm, 118, rfl⟩
abbrev main_v69 : Ref sig .tc := ⟨.hbm, 119, rfl⟩
abbrev main_cst_4 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S50000_S50000x1_0 : S50000.BroadcastsInDim S50000x1 (![0] : Fin 1 → Fin S50000x1.rank)
  bcast_S50000x1_S50000x10_0_1 : S50000x1.BroadcastsInDim S50000x10 (![0, 1] : Fin 2 → Fin S50000x10.rank)
  bcast_S1x10_S50000x10_0_1 : S1x10.BroadcastsInDim S50000x10 (![0, 1] : Fin 2 → Fin S50000x10.rank)
  concatenates_S50000x3_S50000x10_S50000x13_d1 : Shape.Concatenates [S50000x3, S50000x10] S50000x13 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S_S512x128 : S_.BroadcastsInDim S512x128 (![] : Fin 0 → Fin S512x128.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x13_S13x128_S50000x128_1_0_0_1_n_n_wf : DotDims.WF S50000x13 S13x128 S50000x128 [1] [0] [0] [1] [] []
  dot_S600000x16_S16x128_S600000x128_1_0_0_1_n_n_wf : DotDims.WF S600000x16 S16x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  dot_S512x128_S128x1_S512x1_1_0_0_1_n_n_wf : DotDims.WF S512x128 S128x1 S512x1 [1] [0] [0] [1] [] []

variable [Facts₀]

def dot_S50000x13_S13x128_S50000x128_1_0_0_1_n_n : DotDims S50000x13 S13x128 S50000x128 where
  lhsContracting := [1]
  rhsContracting := [0]
  lhsNonContracting := [0]
  rhsNonContracting := [1]
  lhsBatch := []
  rhsBatch := []
  wf := dot_S50000x13_S13x128_S50000x128_1_0_0_1_n_n_wf
def dot_S600000x16_S16x128_S600000x128_1_0_0_1_n_n : DotDims S600000x16 S16x128 S600000x128 where
  lhsContracting := [1]
  rhsContracting := [0]
  lhsNonContracting := [0]
  rhsNonContracting := [1]
  lhsBatch := []
  rhsBatch := []
  wf := dot_S600000x16_S16x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x1_S512x1_1_0_0_1_n_n : DotDims S512x128 S128x1 S512x1 where
  lhsContracting := [1]
  rhsContracting := [0]
  lhsNonContracting := [0]
  rhsNonContracting := [1]
  lhsBatch := []
  rhsBatch := []
  wf := dot_S512x128_S128x1_S512x1_1_0_0_1_n_n_wf

class Facts : Prop extends Facts₀ where

variable [Facts]
-- ==== Proof.ResultRun.lean ====
/-
  The kernel program's run with its result named.

  The program is sixteen segments: stretches of host operations and seven pipelined regions.  Every weakly fair
  execution from a memory with zero counters terminates without a fault; at the end every buffer that outlives the
  regions holds the contents obtained by folding the segments over the launch memory.  In particular the result
  buffer holds that fold's value there, and the argument arrays hold what they were launched with.
-/
import proofs.«181900_j6141803233970_1_alg».proof.Proof.Gen.KernelIdeal.Frame

set_option maxRecDepth 16384

noncomputable section

namespace Cert.KernelIdeal.ResultRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents there, and every
    argument array as launched. -/
theorem run : θ_run defs (onTc (τ := τ) (main (F := F))) ⟨m, fun _ => 0, ρ⟩ (fun r => ∀ c : Dev nD,
      r.2.mem ((c.tc : Thread nD τ).loc main_v44) = W16 m ρ c (Proc.devRef .tc main_v44)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v44 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c),
       (h c _ (mem_uc main_arg15 (by decide))).trans (W16_main_arg15 m ρ c),
       (h c _ (mem_uc main_arg16 (by decide))).trans (W16_main_arg16 m ρ c),
       (h c _ (mem_uc main_arg17 (by decide))).trans (W16_main_arg17 m ρ c),
       (h c _ (mem_uc main_arg18 (by decide))).trans (W16_main_arg18 m ρ c),
       (h c _ (mem_uc main_arg19 (by decide))).trans (W16_main_arg19 m ρ c),
       (h c _ (mem_uc main_arg20 (by decide))).trans (W16_main_arg20 m ρ c),
       (h c _ (mem_uc main_arg21 (by decide))).trans (W16_main_arg21 m ρ c),
       (h c _ (mem_uc main_arg22 (by decide))).trans (W16_main_arg22 m ρ c)⟩)

end Cert.KernelIdeal.ResultRun

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«181900_j6141803233970_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibGraphLayers.lean ====
/-
  Layers of a message-passing network read at one index, on the extended reals.

  An edge layer adds to each gathered row its edge features times a weight and a bias, and clips at zero; a node
  layer adds two arrays, and passes the sum through two dense layers, each followed by the exponential linear
  unit; a readout passes pooled rows through a dense layer clipped at zero and a second dense layer.  Each is written
  twice below: over whole arrays in the host's spelling (`dot_general`, a one-row bias repeated over the rows, a
  comparison and a select), and over one block of rows in a kernel's spelling (a `matmul` into a zero accumulator, the
  bias row repeated by a vector broadcast, `exp` followed by a subtraction of one).  Read at row r and column c, the two
  spellings are the same expression of row r of the inputs, the weights and the bias rows.

  The exponential linear unit is x where x > 0 and exp x − 1 elsewhere.  The host computes the second branch as
  1 · expm1 of x with its positive entries replaced by zero; on the extended reals expm1 y is exp y − 1 and the
  word of 1.0 is the number one, so the two spellings agree at every x, the infinities included.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«181900_j6141803233970_1_alg».proof.Proof.LibRowOps
import proofs.«181900_j6141803233970_1_alg».proof.Proof.LibDense

noncomputable section

namespace Cert.GraphLayers

open Idealize.ShloMosaic Idealize.ShloMosaic.ValueIdx Cert.RowOps Cert.Dense

/-- The value of the f32 word of 1.0. -/
abbrev one : EReal := Ideal.ofBits .f32 0x3F800000#32

/-! ## The exponential linear unit -/

/-- x where x > 0, exp x − 1 elsewhere (the subtraction spelled with the word of 1.0). -/
def elu (a : EReal) : EReal := Scalar.select (Ideal.cmp .ogt a z) a (Ideal.exp a - one)

/-- The host's spelling: the second branch is 1 · expm1 of a with a positive a replaced by zero. -/
def eluHost (a : EReal) : EReal :=
  Scalar.select (Ideal.cmp .ogt a z) a (one * (Ideal.exp (Scalar.select (Ideal.cmp .ogt a z) z a) - 1))

theorem eluHost_eq (a : EReal) : eluHost a = elu a := by
  unfold eluHost elu
  rcases BitVec.eq_zero_or_eq_one (Ideal.cmp .ogt a z) with h | h
  · rw [h, select_zero, select_zero, select_zero]
    show Ideal.ofBits .f32 0x3F800000#32 * (Ideal.exp a - 1) = Ideal.exp a - Ideal.ofBits .f32 0x3F800000#32
    rw [Ideal.ofBits_one_f32, one_mul]
  · rw [h, select_one, select_one]

/-- The host's exponential linear unit of a whole array. -/
def eluArr {S : Shape} (h0 : (⟨0, ![]⟩ : Shape).BroadcastsInDim S ![]) (y : FVec Ideal S .f32) : FVec Ideal S .f32 :=
  select (cmpf .ogt y (broadcastInDim S ![] h0 (constant (F := Ideal) ⟨0, ![]⟩ .f32 0x00000000#32))) y
    (mulf (broadcastInDim S ![] h0 (constant (F := Ideal) ⟨0, ![]⟩ .f32 0x3F800000#32))
      (Host.expm1 (select (cmpf .ogt y (broadcastInDim S ![] h0 (constant (F := Ideal) ⟨0, ![]⟩ .f32 0x00000000#32)))
        (broadcastInDim S ![] h0 (id (constant (F := Ideal) ⟨0, ![]⟩ .f32 0x00000000#32))) y)))

theorem eluArr_apply {S : Shape} (h0 : (⟨0, ![]⟩ : Shape).BroadcastsInDim S ![]) (y : FVec Ideal S .f32) (i : S.Idx) :
    eluArr h0 y i = elu (y i) := by
  rw [← eluHost_eq]
  unfold eluArr eluHost
  rw [select_apply, cmpf_apply, mulf_apply, broadcastInDim_scalar_apply, broadcastInDim_scalar_apply]
  show Scalar.select _ (y i) (_ * FloatOps.hostUnary .expm1 (select _ _ y i)) = _
  rw [select_apply, cmpf_apply, broadcastInDim_scalar_apply, broadcastInDim_scalar_apply]
  rfl

/-- A kernel's exponential linear unit of one block: a comparison with a splat zero, `exp` minus a splat one. -/
theorem eluBlock_apply {S : Shape} (v : FVec Ideal S .f32) (i : S.Idx) :
    select (cmpf .ogt v (broadcast S (Scalar.ofBits (F := Ideal) .f32 0x00000000#32))) v
        (subf (exp v) (broadcast S (Scalar.ofBits (F := Ideal) .f32 0x3F800000#32))) i = elu (v i) := rfl

/-! ## A one-row bias repeated over the rows -/

section Row

variable {α : Type} {a b : Nat}

/-- The host's broadcast of a [1, b] array to [a, b] reads, at (p, c), the one row at c. -/
theorem hostRow_apply (v : (⟨2, ![1, b]⟩ : Shape).Idx → α)
    (h2 : (⟨2, ![1, b]⟩ : Shape).BroadcastsInDim ⟨2, ![a, b]⟩ ![0, 1]) (p : Fin a) (c : Fin b) :
    broadcastInDim ⟨2, ![a, b]⟩ ![0, 1] h2 v (ix2 p c) = v (ix2 (0 : Fin 1) c) :=
  broadcastInDim_apply ![0, 1] h2 v (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)

/-- A length-b vector viewed as one [1, b] row by the host's broadcast along the second axis reads, at (0, c), the vector at c. -/
theorem hostAsRow_apply (v : (⟨1, ![b]⟩ : Shape).Idx → α)
    (h1 : (⟨1, ![b]⟩ : Shape).BroadcastsInDim ⟨2, ![1, b]⟩ ![1]) (u : Fin 1) (c : Fin b) :
    broadcastInDim ⟨2, ![1, b]⟩ ![1] h1 v (ix2 u c) = v (ix1 c) :=
  broadcastInDim_apply ![1] h1 v (ix2 u c) (ix1 c) (fun ax => by
    match ax with
    | ⟨0, _⟩ =>
      show c.val = if b = 1 then 0 else c.val
      split
      · have := c.isLt; omega
      · rfl)

/-- The same vector reshaped to [1, b] reads, at (0, c), the vector at c. -/
theorem reshapeAsRow_apply (v : (⟨1, ![b]⟩ : Shape).Idx → α) (hs : (⟨1, ![b]⟩ : Shape).ShapeCasts ⟨2, ![1, b]⟩)
    (u : Fin 1) (c : Fin b) : shapeCast ⟨2, ![1, b]⟩ v hs (ix2 u c) = v (ix1 c) :=
  shapeCast_apply v hs _ _ (by
    have hu : u.val = 0 := by omega
    rw [Shape.rowMajor_val_one, Shape.rowMajor_val_two]
    show c.val = u.val * b + c.val
    rw [hu]; omega)

/-- So the reshape and the host's broadcast of a vector to one row are the same array. -/
theorem reshapeAsRow_eq (v : (⟨1, ![b]⟩ : Shape).Idx → α) (hs : (⟨1, ![b]⟩ : Shape).ShapeCasts ⟨2, ![1, b]⟩)
    (h1 : (⟨1, ![b]⟩ : Shape).BroadcastsInDim ⟨2, ![1, b]⟩ ![1]) :
    shapeCast ⟨2, ![1, b]⟩ v hs = broadcastInDim ⟨2, ![1, b]⟩ ![1] h1 v := by
  funext j
  obtain ⟨u, c, rfl⟩ : ∃ (u : Fin 1) (c : Fin b), j = ix2 u c := ⟨j 0, j 1, eq_ix2 j⟩
  rw [reshapeAsRow_apply, hostAsRow_apply]

end Row

/-! ## The layers over whole arrays (the host's spelling) -/

section Host

variable {M K H N : Nat}

/-- Gathered rows plus edge features times a weight plus a bias row, clipped at zero. -/
def edgeStage (d : DotDims ⟨2, ![M, K]⟩ ⟨2, ![K, N]⟩ ⟨2, ![M, N]⟩)
    (h2 : (⟨2, ![1, N]⟩ : Shape).BroadcastsInDim ⟨2, ![M, N]⟩ ![0, 1])
    (h0 : (⟨0, ![]⟩ : Shape).BroadcastsInDim ⟨2, ![M, N]⟩ ![])
    (xs : FVec Ideal ⟨2, ![M, N]⟩ .f32) (e : FVec Ideal ⟨2, ![M, K]⟩ .f32) (w : FVec Ideal ⟨2, ![K, N]⟩ .f32)
    (b : FVec Ideal ⟨2, ![1, N]⟩ .f32) : FVec Ideal ⟨2, ![M, N]⟩ .f32 :=
  maximumf (addf (addf xs (Host.dotGeneral d none e w)) (broadcastInDim ⟨2, ![M, N]⟩ ![0, 1] h2 b))
    (broadcastInDim ⟨2, ![M, N]⟩ ![] h0 (constant (F := Ideal) ⟨0, ![]⟩ .f32 0x00000000#32))

theorem edgeStage_apply {d : DotDims ⟨2, ![M, K]⟩ ⟨2, ![K, N]⟩ ⟨2, ![M, N]⟩} (hd : IsPlain d)
    (h2 : (⟨2, ![1, N]⟩ : Shape).BroadcastsInDim ⟨2, ![M, N]⟩ ![0, 1])
    (h0 : (⟨0, ![]⟩ : Shape).BroadcastsInDim ⟨2, ![M, N]⟩ ![])
    (xs : FVec Ideal ⟨2, ![M, N]⟩ .f32) (e : FVec Ideal ⟨2, ![M, K]⟩ .f32) (w : FVec Ideal ⟨2, ![K, N]⟩ .f32)
    (b : FVec Ideal ⟨2, ![1, N]⟩ .f32) (r : Fin M) (c : Fin N) :
    edgeStage d h2 h0 xs e w b (ix2 r c)
      = max ((xs (ix2 r c) + ∑ k : Fin K, e (ix2 r k) * w (ix2 k c)) + b (ix2 (0 : Fin 1) c)) z := by
  unfold edgeStage
  rw [maximumf_apply, addf_apply, addf_apply, hostRow_apply, broadcastInDim_scalar_apply, constant_apply]
  exact congrArg (fun s => max ((xs (ix2 r c) + s) + b (ix2 (0 : Fin 1) c)) z) (hostDot_apply hd none .single e w r c)

/-- The sum of two arrays through two dense layers, each followed by the exponential linear unit. -/
def nodeStage (d1 : DotDims ⟨2, ![M, K]⟩ ⟨2, ![K, H]⟩ ⟨2, ![M, H]⟩) (d2 : DotDims ⟨2, ![M, H]⟩ ⟨2, ![H, N]⟩ ⟨2, ![M, N]⟩)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (h0 : (⟨0, ![]⟩ : Shape).BroadcastsInDim ⟨2, ![M, N]⟩ ![])
    (x agg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  eluArr h0 (addf (Host.dotGeneral d2 none
      (eluArr g0 (addf (Host.dotGeneral d1 none (addf x agg) w1) (broadcastInDim ⟨2, ![M, H]⟩ ![0, 1] g2 b1))) w2)
    (broadcastInDim ⟨2, ![M, N]⟩ ![0, 1] h2 b2))

theorem nodeStage_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (h0 : (⟨0, ![]⟩ : Shape).BroadcastsInDim ⟨2, ![M, N]⟩ ![])
    (x agg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) :
    nodeStage d1 d2 g2 g0 h2 h0 x agg w1 b1 w2 b2 (ix2 r c)
      = elu ((∑ j : Fin H, elu ((∑ k : Fin K, (x (ix2 r k) + agg (ix2 r k)) * w1 (ix2 k j)) + b1 (ix2 (0 : Fin 1) j))
          * w2 (ix2 j c)) + b2 (ix2 (0 : Fin 1) c)) := by
  unfold nodeStage
  rw [eluArr_apply, addf_apply, hostRow_apply]
  refine congrArg (fun s => elu (s + b2 (ix2 (0 : Fin 1) c))) ?_
  refine (hostDot_apply hd2 none .single _ w2 r c).trans (Finset.sum_congr rfl fun j _ => ?_)
  rw [eluArr_apply, addf_apply, hostRow_apply]
  refine congrArg (fun s => elu (s + b1 (ix2 (0 : Fin 1) j)) * w2 (ix2 j c)) ?_
  exact (hostDot_apply hd1 none .single _ w1 r j).trans (Finset.sum_congr rfl fun k _ => by rw [addf_apply])

/-- Pooled rows through a dense layer clipped at zero and a second dense layer. -/
def readoutStage (d1 : DotDims ⟨2, ![M, K]⟩ ⟨2, ![K, H]⟩ ⟨2, ![M, H]⟩) (d2 : DotDims ⟨2, ![M, H]⟩ ⟨2, ![H, N]⟩ ⟨2, ![M, N]⟩)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (hg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  addf (Host.dotGeneral d2 none
      (maximumf (addf (Host.dotGeneral d1 none hg w1) (broadcastInDim ⟨2, ![M, H]⟩ ![0, 1] g2 b1))
        (broadcastInDim ⟨2, ![M, H]⟩ ![] g0 (constant (F := Ideal) ⟨0, ![]⟩ .f32 0x00000000#32))) w2)
    (broadcastInDim ⟨2, ![M, N]⟩ ![0, 1] h2 b2)

theorem readoutStage_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (hg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) :
    readoutStage d1 d2 g2 g0 h2 hg w1 b1 w2 b2 (ix2 r c)
      = (∑ j : Fin H, max ((∑ k : Fin K, hg (ix2 r k) * w1 (ix2 k j)) + b1 (ix2 (0 : Fin 1) j)) z * w2 (ix2 j c))
          + b2 (ix2 (0 : Fin 1) c) := by
  unfold readoutStage
  rw [addf_apply, hostRow_apply]
  refine congrArg (fun s => s + b2 (ix2 (0 : Fin 1) c)) ?_
  refine (hostDot_apply hd2 none .single _ w2 r c).trans (Finset.sum_congr rfl fun j _ => ?_)
  rw [maximumf_apply, addf_apply, hostRow_apply, broadcastInDim_scalar_apply, constant_apply]
  exact congrArg (fun s => max (s + b1 (ix2 (0 : Fin 1) j)) z * w2 (ix2 j c)) (hostDot_apply hd1 none .single hg w1 r j)

end Host

/-! ## The same layers over one block of rows (a kernel's spelling) -/

section Block

variable {M K H N : Nat}

/-- A [1, b] bias block repeated over the block's rows reads, at (p, c), the one row at c. -/
theorem blockRow_apply {α : Type} {a b : Nat} (v : (⟨2, ![1, b]⟩ : Shape).Idx → α)
    (hs : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hs) hb (ix2 p c) = v (ix2 (0 : Fin 1) c) := by
  rw [broadcastTo_1b_ab_apply, shapeCast_self]

/-- A matrix product of two blocks rounded to a narrower format on the way in, into a zero accumulator. -/
theorem blockDot_apply {d : DotDims ⟨2, ![M, K]⟩ ⟨2, ![K, N]⟩ ⟨2, ![M, N]⟩} (hd : IsPlain d)
    (x : FVec Ideal ⟨2, ![M, K]⟩ .f32) (w : FVec Ideal ⟨2, ![K, N]⟩ .f32) (lt : FTy.bf16.bits < FTy.f32.bits)
    (r : Fin M) (c : Fin N) :
    matmul d none (truncf .bf16 x lt) (truncf .bf16 w lt) (constant ⟨2, ![M, N]⟩ .f32 0x00000000#32) (ix2 r c)
      = ∑ k : Fin K, x (ix2 r k) * w (ix2 k c) :=
  matmul_zero_apply hd none (truncf .bf16 x lt) (truncf .bf16 w lt) r c

/-- The edge layer of one block. -/
theorem blockEdge_apply {d : DotDims ⟨2, ![M, K]⟩ ⟨2, ![K, N]⟩ ⟨2, ![M, N]⟩} (hd : IsPlain d)
    (x0 : FVec Ideal ⟨2, ![M, N]⟩ .f32) (x1 : FVec Ideal ⟨2, ![M, K]⟩ .f32) (x2 : FVec Ideal ⟨2, ![K, N]⟩ .f32)
    (x3 : FVec Ideal ⟨2, ![1, N]⟩ .f32)
    (c0 : (⟨2, ![M, N]⟩ : Shape).ShapeCasts ⟨2, ![M, N]⟩) (c1 : (⟨2, ![M, K]⟩ : Shape).ShapeCasts ⟨2, ![M, K]⟩)
    (c3 : (⟨2, ![1, N]⟩ : Shape).ShapeCasts ⟨2, ![1, N]⟩) (hb : (⟨2, ![1, N]⟩ : Shape).Broadcasts ⟨2, ![M, N]⟩)
    (lt : FTy.bf16.bits < FTy.f32.bits) (r : Fin M) (c : Fin N) :
    maximumf (addf (addf (shapeCast ⟨2, ![M, N]⟩ x0 c0)
          (matmul d none (truncf .bf16 (shapeCast ⟨2, ![M, K]⟩ x1 c1) lt) (truncf .bf16 x2 lt)
            (constant ⟨2, ![M, N]⟩ .f32 0x00000000#32)))
        (broadcastTo ⟨2, ![M, N]⟩ (shapeCast ⟨2, ![1, N]⟩ x3 c3) hb))
      (broadcast ⟨2, ![M, N]⟩ (Scalar.ofBits (F := Ideal) .f32 0x00000000#32)) (ix2 r c)
      = max ((x0 (ix2 r c) + ∑ k : Fin K, x1 (ix2 r k) * x2 (ix2 k c)) + x3 (ix2 (0 : Fin 1) c)) z := by
  rw [maximumf_apply, addf_apply, addf_apply, blockRow_apply, broadcast_apply, shapeCast_self, shapeCast_self]
  exact congrArg (fun s => max ((x0 (ix2 r c) + s) + x3 (ix2 (0 : Fin 1) c)) z) (blockDot_apply hd x1 x2 lt r c)

/-- The node layer of one block. -/
theorem blockNode_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (x0 x1 : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (c0 : (⟨2, ![M, K]⟩ : Shape).ShapeCasts ⟨2, ![M, K]⟩)
    (cb1 : (⟨2, ![1, H]⟩ : Shape).ShapeCasts ⟨2, ![1, H]⟩) (hb1 : (⟨2, ![1, H]⟩ : Shape).Broadcasts ⟨2, ![M, H]⟩)
    (cb2 : (⟨2, ![1, N]⟩ : Shape).ShapeCasts ⟨2, ![1, N]⟩) (hb2 : (⟨2, ![1, N]⟩ : Shape).Broadcasts ⟨2, ![M, N]⟩)
    (lt : FTy.bf16.bits < FTy.f32.bits) (r : Fin M) (c : Fin N) :
    (let v12 := addf (matmul d1 none (truncf .bf16 (addf (shapeCast ⟨2, ![M, K]⟩ x0 c0) (shapeCast ⟨2, ![M, K]⟩ x1 c0)) lt)
          (truncf .bf16 w1 lt) (constant ⟨2, ![M, H]⟩ .f32 0x00000000#32))
        (broadcastTo ⟨2, ![M, H]⟩ (shapeCast ⟨2, ![1, H]⟩ b1 cb1) hb1)
     let v18 := select (cmpf .ogt v12 (broadcast ⟨2, ![M, H]⟩ (Scalar.ofBits (F := Ideal) .f32 0x00000000#32))) v12
        (subf (exp v12) (broadcast ⟨2, ![M, H]⟩ (Scalar.ofBits (F := Ideal) .f32 0x3F800000#32)))
     let v26 := addf (matmul d2 none (truncf .bf16 v18 lt) (truncf .bf16 w2 lt) (constant ⟨2, ![M, N]⟩ .f32 0x00000000#32))
        (broadcastTo ⟨2, ![M, N]⟩ (shapeCast ⟨2, ![1, N]⟩ b2 cb2) hb2)
     select (cmpf .ogt v26 (broadcast ⟨2, ![M, N]⟩ (Scalar.ofBits (F := Ideal) .f32 0x00000000#32))) v26
        (subf (exp v26) (broadcast ⟨2, ![M, N]⟩ (Scalar.ofBits (F := Ideal) .f32 0x3F800000#32)))) (ix2 r c)
      = elu ((∑ j : Fin H, elu ((∑ k : Fin K, (x0 (ix2 r k) + x1 (ix2 r k)) * w1 (ix2 k j)) + b1 (ix2 (0 : Fin 1) j))
          * w2 (ix2 j c)) + b2 (ix2 (0 : Fin 1) c)) := by
  dsimp only
  rw [eluBlock_apply, addf_apply, blockRow_apply]
  refine congrArg (fun s => elu (s + b2 (ix2 (0 : Fin 1) c))) ?_
  refine (blockDot_apply hd2 _ w2 lt r c).trans (Finset.sum_congr rfl fun j _ => ?_)
  rw [eluBlock_apply, addf_apply, blockRow_apply]
  refine congrArg (fun s => elu (s + b1 (ix2 (0 : Fin 1) j)) * w2 (ix2 j c)) ?_
  refine (blockDot_apply hd1 _ w1 lt r j).trans (Finset.sum_congr rfl fun k _ => ?_)
  rw [addf_apply, shapeCast_self, shapeCast_self]

/-- The readout of one block. -/
theorem blockReadout_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (x0 : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (c0 : (⟨2, ![M, K]⟩ : Shape).ShapeCasts ⟨2, ![M, K]⟩)
    (cb1 : (⟨2, ![1, H]⟩ : Shape).ShapeCasts ⟨2, ![1, H]⟩) (hb1 : (⟨2, ![1, H]⟩ : Shape).Broadcasts ⟨2, ![M, H]⟩)
    (cb2 : (⟨2, ![1, N]⟩ : Shape).ShapeCasts ⟨2, ![1, N]⟩) (hb2 : (⟨2, ![1, N]⟩ : Shape).Broadcasts ⟨2, ![M, N]⟩)
    (lt : FTy.bf16.bits < FTy.f32.bits) (r : Fin M) (c : Fin N) :
    addf (matmul d2 none (truncf .bf16
          (maximumf (addf (matmul d1 none (truncf .bf16 (shapeCast ⟨2, ![M, K]⟩ x0 c0) lt) (truncf .bf16 w1 lt)
              (constant ⟨2, ![M, H]⟩ .f32 0x00000000#32))
            (broadcastTo ⟨2, ![M, H]⟩ (shapeCast ⟨2, ![1, H]⟩ b1 cb1) hb1))
          (broadcast ⟨2, ![M, H]⟩ (Scalar.ofBits (F := Ideal) .f32 0x00000000#32))) lt) (truncf .bf16 w2 lt)
        (constant ⟨2, ![M, N]⟩ .f32 0x00000000#32))
      (broadcastTo ⟨2, ![M, N]⟩ (shapeCast ⟨2, ![1, N]⟩ b2 cb2) hb2) (ix2 r c)
      = (∑ j : Fin H, max ((∑ k : Fin K, x0 (ix2 r k) * w1 (ix2 k j)) + b1 (ix2 (0 : Fin 1) j)) z * w2 (ix2 j c))
          + b2 (ix2 (0 : Fin 1) c) := by
  rw [addf_apply, blockRow_apply]
  refine congrArg (fun s => s + b2 (ix2 (0 : Fin 1) c)) ?_
  refine (blockDot_apply hd2 _ w2 lt r c).trans (Finset.sum_congr rfl fun j _ => ?_)
  rw [maximumf_apply, addf_apply, blockRow_apply, broadcast_apply]
  refine congrArg (fun s => max (s + b1 (ix2 (0 : Fin 1) j)) z * w2 (ix2 j c)) ?_
  refine (blockDot_apply hd1 _ w1 lt r j).trans (Finset.sum_congr rfl fun k _ => ?_)
  rw [shapeCast_self]

end Block

end Cert.GraphLayers

end
-- ==== Proof.Layers.lean ====
/-
  Three layers of a message-passing network, each read at one row and one column, on the extended reals.

  A row-affine map sends an [M, K] array of rows X, a [K, N] weight W and a one-row bias B to X·W + B, the bias
  repeated over the rows.  An edge message adds to each gathered row the row-affine image of its edge features
  and clips the sum at zero: max(xj + (e·W + B), 0).  A node update adds to the aggregated messages the node's
  own row clipped at zero, and passes the sum through two row-affine maps, each clipped at zero.

  Each layer is defined once over whole arrays, in the spelling of a host program (a general contraction, a
  one-row array repeated over the rows, a maximum with a repeated scalar zero), and its entry at row r and column c
  is computed.  The same entry is then computed for ONE BLOCK OF ROWS in the spelling of a kernel body (a product
  into a zero accumulator of operands rounded to a narrower format on the way in — the identity on extended
  reals —, the bias row repeated by a vector broadcast, a maximum with a splat zero).  The two entries are the
  same expression of row r of the inputs, column c of the weights and entry c of the bias rows: a block of the
  whole-array layer is the block's layer of the corresponding blocks of rows.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«181900_j6141803233970_1_alg».proof.Proof.LibRowOps
import proofs.«181900_j6141803233970_1_alg».proof.Proof.LibDense
import proofs.«181900_j6141803233970_1_alg».proof.Proof.LibGraphLayers

noncomputable section

namespace Cert.Layers

open Idealize.ShloMosaic Idealize.ShloMosaic.ValueIdx Cert.RowOps Cert.Dense Cert.GraphLayers

variable {M K H N : Nat}

/-! ## The entries, as expressions of rows, columns and bias entries -/

/-- Entry (r, c) of X·W + B. -/
def affineAt (x : Fin K → EReal) (w : Fin K → EReal) (b : EReal) : EReal := (∑ k : Fin K, x k * w k) + b

/-! ## Whole arrays: the host's spelling -/

/-- X·W + B over whole arrays, B one row repeated over the rows. -/
def affineRows (d : DotDims ⟨2, ![M, K]⟩ ⟨2, ![K, N]⟩ ⟨2, ![M, N]⟩)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32) :
    FVec Ideal ⟨2, ![M, N]⟩ .f32 :=
  addf (Host.dotGeneral d none X W) (broadcastInDim ⟨2, ![M, N]⟩ ![0, 1] h2 B)

theorem affineRows_apply {d : DotDims ⟨2, ![M, K]⟩ ⟨2, ![K, N]⟩ ⟨2, ![M, N]⟩} (hd : IsPlain d)
    (h2 : (⟨2, ![1, N]⟩ : Shape).BroadcastsInDim ⟨2, ![M, N]⟩ ![0, 1])
    (X : FVec Ideal ⟨2, ![M, K]⟩ .f32) (W : FVec Ideal ⟨2, ![K, N]⟩ .f32) (B : FVec Ideal ⟨2, ![1, N]⟩ .f32)
    (r : Fin M) (c : Fin N) :
    affineRows d h2 X W B (ix2 r c) = affineAt (fun k => X (ix2 r k)) (fun k => W (ix2 k c)) (B (ix2 (0 : Fin 1) c)) := by
  unfold affineRows affineAt
  rw [addf_apply, hostRow_apply]
  exact congrArg (fun s => s + B (ix2 (0 : Fin 1) c)) (hostDot_apply hd none .single X W r c)

/-- An array clipped at zero, the zero a scalar repeated over the array. -/
def clip {S : Shape} (h0 : (⟨0, ![]⟩ : Shape).BroadcastsInDim S ![]) (Y : FVec Ideal S .f32) : FVec Ideal S .f32 :=
  maximumf Y (broadcastInDim S ![] h0 (constant (F := Ideal) ⟨0, ![]⟩ .f32 0x00000000#32))

theorem clip_apply {S : Shape} (h0 : (⟨0, ![]⟩ : Shape).BroadcastsInDim S ![]) (Y : FVec Ideal S .f32) (i : S.Idx) :
    clip h0 Y i = max (Y i) z := by
  unfold clip
  rw [maximumf_apply, broadcastInDim_scalar_apply, constant_apply]

/-- The edge messages: gathered rows plus the row-affine image of the edge features, clipped at zero. -/
def edgeMessages (d : DotDims ⟨2, ![M, K]⟩ ⟨2, ![K, N]⟩ ⟨2, ![M, N]⟩)
    (h2 : (⟨2, ![1, N]⟩ : Shape).BroadcastsInDim ⟨2, ![M, N]⟩ ![0, 1])
    (h0 : (⟨0, ![]⟩ : Shape).BroadcastsInDim ⟨2, ![M, N]⟩ ![])
    (E : FVec Ideal ⟨2, ![M, K]⟩ .f32) (W : FVec Ideal ⟨2, ![K, N]⟩ .f32) (B : FVec Ideal ⟨2, ![1, N]⟩ .f32)
    (XJ : FVec Ideal ⟨2, ![M, N]⟩ .f32) : FVec Ideal ⟨2, ![M, N]⟩ .f32 :=
  clip h0 (addf XJ (affineRows d h2 E W B))

theorem edgeMessages_apply {d : DotDims ⟨2, ![M, K]⟩ ⟨2, ![K, N]⟩ ⟨2, ![M, N]⟩} (hd : IsPlain d)
    (h2 : (⟨2, ![1, N]⟩ : Shape).BroadcastsInDim ⟨2, ![M, N]⟩ ![0, 1])
    (h0 : (⟨0, ![]⟩ : Shape).BroadcastsInDim ⟨2, ![M, N]⟩ ![])
    (E : FVec Ideal ⟨2, ![M, K]⟩ .f32) (W : FVec Ideal ⟨2, ![K, N]⟩ .f32) (B : FVec Ideal ⟨2, ![1, N]⟩ .f32)
    (XJ : FVec Ideal ⟨2, ![M, N]⟩ .f32) (r : Fin M) (c : Fin N) :
    edgeMessages d h2 h0 E W B XJ (ix2 r c)
      = max (XJ (ix2 r c) + affineAt (fun k => E (ix2 r k)) (fun k => W (ix2 k c)) (B (ix2 (0 : Fin 1) c))) z := by
  unfold edgeMessages
  rw [clip_apply, addf_apply, affineRows_apply hd]

/-- The node update: aggregated messages plus the node's own row clipped at zero, through two row-affine maps,
    each clipped at zero. -/
def nodeUpdate (d1 : DotDims ⟨2, ![M, K]⟩ ⟨2, ![K, H]⟩ ⟨2, ![M, H]⟩) (d2 : DotDims ⟨2, ![M, H]⟩ ⟨2, ![H, N]⟩ ⟨2, ![M, N]⟩)
    (g1 : (⟨2, ![1, H]⟩ : Shape).BroadcastsInDim ⟨2, ![M, H]⟩ ![0, 1])
    (g2 : (⟨2, ![1, N]⟩ : Shape).BroadcastsInDim ⟨2, ![M, N]⟩ ![0, 1])
    (k0 : (⟨0, ![]⟩ : Shape).BroadcastsInDim ⟨2, ![M, K]⟩ ![])
    (k1 : (⟨0, ![]⟩ : Shape).BroadcastsInDim ⟨2, ![M, H]⟩ ![])
    (k2 : (⟨0, ![]⟩ : Shape).BroadcastsInDim ⟨2, ![M, N]⟩ ![])
    (A : FVec Ideal ⟨2, ![M, K]⟩ .f32) (X : FVec Ideal ⟨2, ![M, K]⟩ .f32)
    (Wa : FVec Ideal ⟨2, ![K, H]⟩ .f32) (Ba : FVec Ideal ⟨2, ![1, H]⟩ .f32)
    (Wb : FVec Ideal ⟨2, ![H, N]⟩ .f32) (Bb : FVec Ideal ⟨2, ![1, N]⟩ .f32) : FVec Ideal ⟨2, ![M, N]⟩ .f32 :=
  clip k2 (affineRows d2 g2 (clip k1 (affineRows d1 g1 (addf A (clip k0 X)) Wa Ba)) Wb Bb)

/-- Entry (r, c) of the node update, from row r of the two inputs. -/
def updateAt (a x : Fin K → EReal) (wa : Fin K → Fin H → EReal) (ba : Fin H → EReal) (wb : Fin H → EReal) (bb : EReal) : EReal :=
  max (affineAt (fun j => max (affineAt (fun k => a k + max (x k) z) (fun k => wa k j) (ba j)) z) wb bb) z

theorem nodeUpdate_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g1 : (⟨2, ![1, H]⟩ : Shape).BroadcastsInDim ⟨2, ![M, H]⟩ ![0, 1])
    (g2 : (⟨2, ![1, N]⟩ : Shape).BroadcastsInDim ⟨2, ![M, N]⟩ ![0, 1])
    (k0 : (⟨0, ![]⟩ : Shape).BroadcastsInDim ⟨2, ![M, K]⟩ ![])
    (k1 : (⟨0, ![]⟩ : Shape).BroadcastsInDim ⟨2, ![M, H]⟩ ![])
    (k2 : (⟨0, ![]⟩ : Shape).BroadcastsInDim ⟨2, ![M, N]⟩ ![])
    (A : FVec Ideal ⟨2, ![M, K]⟩ .f32) (X : FVec Ideal ⟨2, ![M, K]⟩ .f32)
    (Wa : FVec Ideal ⟨2, ![K, H]⟩ .f32) (Ba : FVec Ideal ⟨2, ![1, H]⟩ .f32)
    (Wb : FVec Ideal ⟨2, ![H, N]⟩ .f32) (Bb : FVec Ideal ⟨2, ![1, N]⟩ .f32) (r : Fin M) (c : Fin N) :
    nodeUpdate d1 d2 g1 g2 k0 k1 k2 A X Wa Ba Wb Bb (ix2 r c)
      = updateAt (fun k => A (ix2 r k)) (fun k => X (ix2 r k)) (fun k j => Wa (ix2 k j)) (fun j => Ba (ix2 (0 : Fin 1) j))
          (fun j => Wb (ix2 j c)) (Bb (ix2 (0 : Fin 1) c)) := by
  unfold nodeUpdate updateAt
  rw [clip_apply, affineRows_apply hd2]
  refine congrArg (fun f => max (affineAt f (fun j => Wb (ix2 j c)) (Bb (ix2 (0 : Fin 1) c))) z) (funext fun j => ?_)
  rw [clip_apply, affineRows_apply hd1]
  refine congrArg (fun f => max (affineAt f (fun k => Wa (ix2 k j)) (Ba (ix2 (0 : Fin 1) j))) z) (funext fun k => ?_)
  rw [addf_apply, clip_apply]

/-! ## One block of rows: the kernel's spelling -/

/-- x·w + b for one block: the product into a zero accumulator, the bias row repeated by a vector broadcast. -/
theorem blockAffine_apply {d : DotDims ⟨2, ![M, K]⟩ ⟨2, ![K, N]⟩ ⟨2, ![M, N]⟩} (hd : IsPlain d)
    (x : FVec Ideal ⟨2, ![M, K]⟩ .f32) (w : FVec Ideal ⟨2, ![K, N]⟩ .f32) (b : FVec Ideal ⟨2, ![1, N]⟩ .f32)
    (cb : (⟨2, ![1, N]⟩ : Shape).ShapeCasts ⟨2, ![1, N]⟩) (hb : (⟨2, ![1, N]⟩ : Shape).Broadcasts ⟨2, ![M, N]⟩)
    (lt : FTy.bf16.bits < FTy.f32.bits) (r : Fin M) (c : Fin N) :
    addf (matmul d none (truncf .bf16 x lt) (truncf .bf16 w lt) (constant ⟨2, ![M, N]⟩ .f32 0x00000000#32))
        (broadcastTo ⟨2, ![M, N]⟩ (shapeCast ⟨2, ![1, N]⟩ b cb) hb) (ix2 r c)
      = affineAt (fun k => x (ix2 r k)) (fun k => w (ix2 k c)) (b (ix2 (0 : Fin 1) c)) := by
  unfold affineAt
  rw [addf_apply, blockRow_apply]
  exact congrArg (fun s => s + b (ix2 (0 : Fin 1) c)) (blockDot_apply hd x w lt r c)

/-- The edge messages of one block. -/
theorem blockEdge_apply {d : DotDims ⟨2, ![M, K]⟩ ⟨2, ![K, N]⟩ ⟨2, ![M, N]⟩} (hd : IsPlain d)
    (e : FVec Ideal ⟨2, ![M, K]⟩ .f32) (w : FVec Ideal ⟨2, ![K, N]⟩ .f32) (b : FVec Ideal ⟨2, ![1, N]⟩ .f32)
    (xj : FVec Ideal ⟨2, ![M, N]⟩ .f32)
    (cb : (⟨2, ![1, N]⟩ : Shape).ShapeCasts ⟨2, ![1, N]⟩) (hb : (⟨2, ![1, N]⟩ : Shape).Broadcasts ⟨2, ![M, N]⟩)
    (cj : (⟨2, ![M, N]⟩ : Shape).ShapeCasts ⟨2, ![M, N]⟩)
    (lt : FTy.bf16.bits < FTy.f32.bits) (r : Fin M) (c : Fin N) :
    maximumf (addf (shapeCast ⟨2, ![M, N]⟩ xj cj)
          (addf (matmul d none (truncf .bf16 e lt) (truncf .bf16 w lt) (constant ⟨2, ![M, N]⟩ .f32 0x00000000#32))
            (broadcastTo ⟨2, ![M, N]⟩ (shapeCast ⟨2, ![1, N]⟩ b cb) hb)))
        (broadcast ⟨2, ![M, N]⟩ (Scalar.ofBits (F := Ideal) .f32 0x00000000#32)) (ix2 r c)
      = max (xj (ix2 r c) + affineAt (fun k => e (ix2 r k)) (fun k => w (ix2 k c)) (b (ix2 (0 : Fin 1) c))) z := by
  rw [maximumf_apply, addf_apply, broadcast_apply, shapeCast_self, blockAffine_apply hd]
  rfl

/-- The node update of one block. -/
theorem blockUpdate_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (a : FVec Ideal ⟨2, ![M, K]⟩ .f32) (x : FVec Ideal ⟨2, ![M, K]⟩ .f32)
    (wa : FVec Ideal ⟨2, ![K, H]⟩ .f32) (ba : FVec Ideal ⟨2, ![1, H]⟩ .f32)
    (wb : FVec Ideal ⟨2, ![H, N]⟩ .f32) (bb : FVec Ideal ⟨2, ![1, N]⟩ .f32)
    (ca : (⟨2, ![M, K]⟩ : Shape).ShapeCasts ⟨2, ![M, K]⟩) (cx : (⟨2, ![M, K]⟩ : Shape).ShapeCasts ⟨2, ![M, K]⟩)
    (cba : (⟨2, ![1, H]⟩ : Shape).ShapeCasts ⟨2, ![1, H]⟩) (hba : (⟨2, ![1, H]⟩ : Shape).Broadcasts ⟨2, ![M, H]⟩)
    (cbb : (⟨2, ![1, N]⟩ : Shape).ShapeCasts ⟨2, ![1, N]⟩) (hbb : (⟨2, ![1, N]⟩ : Shape).Broadcasts ⟨2, ![M, N]⟩)
    (lt : FTy.bf16.bits < FTy.f32.bits) (r : Fin M) (c : Fin N) :
    maximumf (addf (matmul d2 none
          (truncf .bf16 (maximumf (addf (matmul d1 none
              (truncf .bf16 (addf (shapeCast ⟨2, ![M, K]⟩ a ca)
                (maximumf (shapeCast ⟨2, ![M, K]⟩ x cx) (broadcast ⟨2, ![M, K]⟩ (Scalar.ofBits (F := Ideal) .f32 0x00000000#32)))) lt)
              (truncf .bf16 wa lt) (constant ⟨2, ![M, H]⟩ .f32 0x00000000#32))
            (broadcastTo ⟨2, ![M, H]⟩ (shapeCast ⟨2, ![1, H]⟩ ba cba) hba))
            (broadcast ⟨2, ![M, H]⟩ (Scalar.ofBits (F := Ideal) .f32 0x00000000#32))) lt)
          (truncf .bf16 wb lt) (constant ⟨2, ![M, N]⟩ .f32 0x00000000#32))
        (broadcastTo ⟨2, ![M, N]⟩ (shapeCast ⟨2, ![1, N]⟩ bb cbb) hbb))
      (broadcast ⟨2, ![M, N]⟩ (Scalar.ofBits (F := Ideal) .f32 0x00000000#32)) (ix2 r c)
      = updateAt (fun k => a (ix2 r k)) (fun k => x (ix2 r k)) (fun k j => wa (ix2 k j)) (fun j => ba (ix2 (0 : Fin 1) j))
          (fun j => wb (ix2 j c)) (bb (ix2 (0 : Fin 1) c)) := by
  unfold updateAt
  rw [maximumf_apply, broadcast_apply, blockAffine_apply hd2]
  refine congrArg (fun f => max (affineAt f (fun j => wb (ix2 j c)) (bb (ix2 (0 : Fin 1) c))) (Scalar.ofBits (F := Ideal) .f32 0x00000000#32))
    (funext fun j => ?_)
  rw [maximumf_apply, broadcast_apply, blockAffine_apply hd1]
  refine congrArg (fun f => max (affineAt f (fun k => wa (ix2 k j)) (ba (ix2 (0 : Fin 1) j))) (Scalar.ofBits (F := Ideal) .f32 0x00000000#32))
    (funext fun k => ?_)
  rw [addf_apply, maximumf_apply, broadcast_apply, shapeCast_self, shapeCast_self]
  rfl

end Cert.Layers

end
-- ==== Proof.Stages.lean ====
/-
  The five dense stages of the network as whole-array functions.

  Two node projections (13 and 128 input channels), the edge messages, the node update and the graph readout,
  each over the whole node, edge or graph axis, in the host's spelling: the contraction records, the row and the
  scalar repeats are the ones the reference program names for these shapes.  Both layers' edge messages are one
  function of their operands, and so are both layers' node updates.
-/
import proofs.«181900_j6141803233970_1_alg».proof.Proof.Gen.ReferenceIdeal
import proofs.«181900_j6141803233970_1_alg».proof.Proof.Layers

noncomputable section

namespace Cert.Stages

open Idealize.ShloMosaic Cert.ReferenceIdeal Cert.ReferenceIdeal.Gen Cert.RowOps

theorem plain13 : IsPlain dot_S50000x13_S13x128_S50000x128_1_0_0_1_n_n := ⟨rfl, rfl, rfl, rfl, rfl, rfl⟩
theorem plain128 : IsPlain dot_S50000x128_S128x128_S50000x128_1_0_0_1_n_n := ⟨rfl, rfl, rfl, rfl, rfl, rfl⟩
theorem plainEdge : IsPlain dot_S600000x16_S16x128_S600000x128_1_0_0_1_n_n := ⟨rfl, rfl, rfl, rfl, rfl, rfl⟩
theorem plainOut : IsPlain dot_S512x128_S128x1_S512x1_1_0_0_1_n_n := ⟨rfl, rfl, rfl, rfl, rfl, rfl⟩

/-- Node features [50000, 13] times a weight plus a bias row. -/
def project13 (X : FVec Ideal S50000x13 .f32) (W : FVec Ideal S13x128 .f32) (B : FVec Ideal S1x128 .f32) : FVec Ideal S50000x128 .f32 :=
  Layers.affineRows dot_S50000x13_S13x128_S50000x128_1_0_0_1_n_n bcast_S1x128_S50000x128_0_1 X W B

/-- Node rows [50000, 128] times a weight plus a bias row. -/
def project128 (X : FVec Ideal S50000x128 .f32) (W : FVec Ideal S128x128 .f32) (B : FVec Ideal S1x128 .f32) : FVec Ideal S50000x128 .f32 :=
  Layers.affineRows dot_S50000x128_S128x128_S50000x128_1_0_0_1_n_n bcast_S1x128_S50000x128_0_1 X W B

/-- The 600000 edge messages: gathered rows plus the row-affine image of the edge features, clipped at zero. -/
def messages (E : FVec Ideal S600000x16 .f32) (W : FVec Ideal S16x128 .f32) (B : FVec Ideal S1x128 .f32)
    (XJ : FVec Ideal S600000x128 .f32) : FVec Ideal S600000x128 .f32 :=
  Layers.edgeMessages dot_S600000x16_S16x128_S600000x128_1_0_0_1_n_n bcast_S1x128_S600000x128_0_1 bcast_S_S600000x128 E W B XJ

/-- The node update over the 50000 nodes. -/
def update (A X : FVec Ideal S50000x128 .f32) (Wa : FVec Ideal S128x128 .f32) (Ba : FVec Ideal S1x128 .f32)
    (Wb : FVec Ideal S128x128 .f32) (Bb : FVec Ideal S1x128 .f32) : FVec Ideal S50000x128 .f32 :=
  Layers.nodeUpdate dot_S50000x128_S128x128_S50000x128_1_0_0_1_n_n dot_S50000x128_S128x128_S50000x128_1_0_0_1_n_n
    bcast_S1x128_S50000x128_0_1 bcast_S1x128_S50000x128_0_1 bcast_S_S50000x128 bcast_S_S50000x128 bcast_S_S50000x128
    A X Wa Ba Wb Bb

/-- The readout: pooled rows [512, 128] times a [128, 1] weight plus a one-entry bias row. -/
def readout (P : FVec Ideal S512x128 .f32) (W : FVec Ideal S128x1 .f32) (B : FVec Ideal S1x1 .f32) : FVec Ideal S512x1 .f32 :=
  Layers.affineRows dot_S512x128_S128x1_S512x1_1_0_0_1_n_n bcast_S1x1_S512x1_0_1 P W B

end Cert.Stages

end
-- ==== Proof.Project1.lean ====
/-
  The first node projection: what the pipelined region leaves in its output array.

  The region walks the 50000 node rows in ten blocks of 5000.  At block t it fetches rows 5000·t … 5000·t + 4999 of
  the node features, the whole weight and the whole bias row, and writes back the block's row-affine image.  Entry
  (p, q) of that block depends only on row p of the fetched rows, column q of the weight and entry q of the bias row,
  which are row 5000·t + p, column q and entry q of the whole arrays: the block written back is block t of the
  row-affine map of the whole arrays.  The ten blocks tile the output array, so it ends at that map.
-/
import proofs.«181900_j6141803233970_1_alg».proof.Proof.Gen.KernelIdeal.Frame
import proofs.«181900_j6141803233970_1_alg».proof.Proof.Stages

set_option maxRecDepth 16384

noncomputable section

namespace Cert.KernelIdeal.Project1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S5000x13_S13x128_S5000x128_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S5000x13 .f32) (x1 : Vec Ideal S13x128 .f32) (x2 : Vec Ideal S1x128 .f32)
    (p : Fin 5000) (q : Fin 128) :
    k0_pay1 x0 x1 x2 (ix2 p q)
      = Layers.affineAt (fun k => x0 (ix2 p k)) (fun k => x1 (ix2 k q)) (x2 (ix2 (0 : Fin 1) q)) := by
  unfold k0_pay1
  refine (Layers.blockAffine_apply plainBlock (shapeCast S5000x13 x0 shapeCasts_S5000x13_S5000x13) x1 x2
    shapeCasts_S1x128_S1x128 broadcasts_S1x128_S5000x128 bitsLt_bf16_f32 p q).trans ?_
  rw [shapeCast_self]

/-- Where each window's block sits at point t: the row blocks move with the point, the weight and the bias row stay. -/
theorem blockIndices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array image. -/
theorem flushed_eq (c : Dev nD) (t : Fin cfg0.N) :
    (dat0 (F := Ideal) V c).flushed 3 t
      = ((cfg0.win 3).blk t).view.read (Elt Ideal) (Stages.project13 (V c main_v5) (V c main_arg5) (V c main_v6)) := by
  show (cfg0.win 3).cut (grid0.coords t) ((dat0 V c).after 3 t) = _
  rw [after0_3]
  unfold out0_3
  rw [View.canon_unit_zero zeroOffsets]
  simp only [View.ld_unit_zero (S := S5000x13) zeroOffsets, View.ld_unit_zero (S := S13x128) zeroOffsets,
    View.ld_unit_zero (S := S1x128) zeroOffsets]
  obtain ⟨e0, e1, e2, e3, e4, e5, e6, e7⟩ := blockIndices t
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
      = Stages.project13 (V c main_v5) (V c main_arg5) (V c main_v6) (((cfg0.win 3).blk t).view.emb (ix2 p q))
  refine (stored_apply _ _ _ p q).trans ?_
  have ht : t.val < 10 := t.isLt
  have hp : p.val < 5000 := p.isLt
  have hrow : t.val * 5000 + p.val < 50000 := by omega
  -- the block's entry (p, q) is entry (5000·t + p, q) of the array
  have hout : ((cfg0.win 3).blk t).view.emb (ix2 p q) = ix2 (⟨t.val * 5000 + p.val, hrow⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 128 + 1 * q.val = q.val; omega
  rw [hout]
  unfold Stages.project13
  rw [Layers.affineRows_apply Stages.plain13]
  -- the fetched blocks, read at the coordinates the entry depends on
  have h0 : ∀ k : Fin 13, iblk0 V c 0 t (ix2 p k) = V c main_v5 (ix2 (⟨t.val * 5000 + p.val, hrow⟩ : Fin 50000) k) := fun k => by
    show V c main_v5 (((cfg0.win 0).blk t).view.emb (ix2 p k)) = _
    refine congrArg (V c main_v5) (funext fun a => Fin.ext ?_)
    match a with
    | ⟨0, _⟩ => show win0_0.index t (0 : Fin 2) * 5000 + 1 * p.val = t.val * 5000 + p.val; omega
    | ⟨1, _⟩ => show win0_0.index t (1 : Fin 2) * 13 + 1 * k.val = k.val; omega
  have h1 : ∀ k : Fin 13, iblk0 V c 1 t (ix2 k q) = V c main_arg5 (ix2 k q) := fun k => by
    show V c main_arg5 (((cfg0.win 1).blk t).view.emb (ix2 k q)) = _
    refine congrArg (V c main_arg5) (funext fun a => Fin.ext ?_)
    match a with
    | ⟨0, _⟩ => show win0_1.index t (0 : Fin 2) * 13 + 1 * k.val = k.val; omega
    | ⟨1, _⟩ => show win0_1.index t (1 : Fin 2) * 128 + 1 * q.val = q.val; omega
  have h2 : iblk0 V c 2 t (ix2 (0 : Fin 1) q) = V c main_v6 (ix2 (0 : Fin 1) q) := by
    show V c main_v6 (((cfg0.win 2).blk t).view.emb (ix2 (0 : Fin 1) q)) = _
    refine congrArg (V c main_v6) (funext fun a => Fin.ext ?_)
    match a with
    | ⟨0, _⟩ => show win0_2.index t (0 : Fin 2) * 1 + 1 * 0 = 0; omega
    | ⟨1, _⟩ => show win0_2.index t (1 : Fin 2) * 128 + 1 * q.val = q.val; omega
  rw [funext h0, funext h1, h2]

/-- An index of the output array is in point t's block iff each coordinate is in the block's range on its axis. -/
theorem mem_block (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v7).slice (win0_3.rect t)).set ↔ _
  rw [View.set_slice_whole, Rect.mem_set_unit]
  exact Iff.rfl

/-- Row r of the output array is in the block of point r / 5000: the ten blocks tile the array. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hq : (i 0).val / 5000 < 10 := by omega
  obtain ⟨-, -, -, -, -, -, e6, e7⟩ := blockIndices ⟨(i 0).val / 5000, hq⟩
  refine ⟨⟨(i 0).val / 5000, hq⟩, flush0_3 _, ?_⟩
  rw [mem_block]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win0_3.index ⟨(i 0).val / 5000, hq⟩ (1 : Fin 2) * 128 ≤ (i 1).val
      ∧ (i 1).val < win0_3.index ⟨(i 0).val / 5000, hq⟩ (1 : Fin 2) * 128 + 128
    rw [e7]
    omega

/-- The output array after the region: the row-affine image of the arrays the region finds. -/
theorem array_eq (c : Dev nD) :
    (dat0 (F := Ideal) V c).arrAt 3 cfg0.N = Stages.project13 (V c main_v5) (V c main_arg5) (V c main_v6) :=
  (dat0 (F := Ideal) V c).arrAt_eq_of_cover 3 _ (fun t _ => flushed_eq V c t) covered

end Cert.KernelIdeal.Project1

end
-- ==== Proof.Message1.lean ====
/-
  The edge messages of one layer: what the pipelined region leaves in its output array.

  The region walks the 600000 edges in sixty blocks of 10000.  At block t it fetches rows 10000·t … 10000·t + 9999 of
  the edge features and of the gathered node rows, the whole weight and the whole bias row, and writes back, entry by
  entry, the gathered entry plus the row-affine image of the edge features, clipped at zero.  Entry (p, q) of the block
  depends only on row p of the two fetched row blocks, column q of the weight and entry q of the bias row — row
  10000·t + p, column q, entry q of the whole arrays —, so the block written back is block t of the whole-array edge
  messages.  The sixty blocks tile the output array.
-/
import proofs.«181900_j6141803233970_1_alg».proof.Proof.Gen.KernelIdeal.Frame
import proofs.«181900_j6141803233970_1_alg».proof.Proof.Stages

set_option maxRecDepth 16384

noncomputable section

namespace Cert.KernelIdeal.Message1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S10000x16_S16x128_S10000x128_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S10000x16 .f32) (x1 : Vec Ideal S16x128 .f32) (x2 : Vec Ideal S1x128 .f32) (x3 : Vec Ideal S10000x128 .f32)
    (p : Fin 10000) (q : Fin 128) :
    k1_pay1 x0 x1 x2 x3 (ix2 p q)
      = max (x3 (ix2 p q) + Layers.affineAt (fun k => x0 (ix2 p k)) (fun k => x1 (ix2 k q)) (x2 (ix2 (0 : Fin 1) q))) Dense.z := by
  unfold k1_pay1
  exact Layers.blockEdge_apply plainBlock x0 x1 x2 x3 shapeCasts_S1x128_S1x128 broadcasts_S1x128_S10000x128
    shapeCasts_S10000x128_S10000x128 bitsLt_bf16_f32 p q

/-- Where each window's block sits at point t: the row blocks move with the point, the weights and the bias rows stay. -/
theorem blockIndices : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- What point t writes back is block t of the whole-array stage. -/
theorem flushed_eq (c : Dev nD) (t : Fin cfg1.N) :
    (dat1 (F := Ideal) V c).flushed 4 t
      = ((cfg1.win 4).blk t).view.read (Elt Ideal) (Stages.messages (V c main_arg3) (V c main_arg7) (V c main_v15) (V c main_v14)) := by
  show (cfg1.win 4).cut (grid1.coords t) ((dat1 V c).after 4 t) = _
  rw [after1_4]
  unfold out1_4
  rw [View.canon_unit_zero zeroOffsets]
  simp only [View.ld_unit_zero (S := S10000x16) zeroOffsets, View.ld_unit_zero (S := S16x128) zeroOffsets, View.ld_unit_zero (S := S1x128) zeroOffsets, View.ld_unit_zero (S := S10000x128) zeroOffsets]
  obtain ⟨e0, e1, e2, e3, e4, e5, e6, e7, e8, e9⟩ := blockIndices t
  funext j
  obtain ⟨p, q, rfl⟩ : ∃ (p : Fin 10000) (q : Fin 128), j = ix2 p q := ⟨j 0, j 1, eq_ix2 j⟩
  show k1_pay1 (iblk1 V c 0 t) (iblk1 V c 1 t) (iblk1 V c 2 t) (iblk1 V c 3 t) (ix2 p q)
      = Stages.messages (V c main_arg3) (V c main_arg7) (V c main_v15) (V c main_v14) (((cfg1.win 4).blk t).view.emb (ix2 p q))
  refine (stored_apply _ _ _ _ p q).trans ?_
  have ht : t.val < 60 := t.isLt
  have hp : p.val < 10000 := p.isLt
  have hrow : t.val * 10000 + p.val < 600000 := by omega
  -- the block's entry (p, q) is entry (10000·t + p, q) of the array
  have hout : ((cfg1.win 4).blk t).view.emb (ix2 p q) = ix2 (⟨t.val * 10000 + p.val, hrow⟩ : Fin 600000) q := by
    funext a; apply Fin.ext
    match a with
    | ⟨0, _⟩ => show win1_4.index t (0 : Fin 2) * 10000 + 1 * p.val = t.val * 10000 + p.val; omega
    | ⟨1, _⟩ => show win1_4.index t (1 : Fin 2) * 128 + 1 * q.val = q.val; omega
  rw [hout]
  unfold Stages.messages
  rw [Layers.edgeMessages_apply Stages.plainEdge]
  -- the fetched blocks, read at the coordinates the entry depends on
  have h0 : ∀ (k : Fin 16), iblk1 V c 0 t (ix2 p k) = V c main_arg3 (ix2 (⟨t.val * 10000 + p.val, hrow⟩ : Fin 600000) k) := fun k => by
    show V c main_arg3 (((cfg1.win 0).blk t).view.emb (ix2 p k)) = _
    refine congrArg (V c main_arg3) (funext fun a => Fin.ext ?_)
    match a with
    | ⟨0, _⟩ => show win1_0.index t (0 : Fin 2) * 10000 + 1 * p.val = t.val * 10000 + p.val; omega
    | ⟨1, _⟩ => show win1_0.index t (1 : Fin 2) * 16 + 1 * k.val = k.val; omega
  have h1 : ∀ (k : Fin 16), iblk1 V c 1 t (ix2 k q) = V c main_arg7 (ix2 k q) := fun k => by
    show V c main_arg7 (((cfg1.win 1).blk t).view.emb (ix2 k q)) = _
    refine congrArg (V c main_arg7) (funext fun a => Fin.ext ?_)
    match a with
    | ⟨0, _⟩ => show win1_1.index t (0 : Fin 2) * 16 + 1 * k.val = k.val; omega
    | ⟨1, _⟩ => show win1_1.index t (1 : Fin 2) * 128 + 1 * q.val = q.val; omega
  have h2 : iblk1 V c 2 t (ix2 (0 : Fin 1) q) = V c main_v15 (ix2 (0 : Fin 1) q) := by
    show V c main_v15 (((cfg1.win 2).blk t).view.emb (ix2 (0 : Fin 1) q)) = _
    refine congrArg (V c main_v15) (funext fun a => Fin.ext ?_)
    match a with
    | ⟨0, _⟩ => show win1_2.index t (0 : Fin 2) * 1 + 1 * 0 = 0; omega
    | ⟨1, _⟩ => show win1_2.index t (1 : Fin 2) * 128 + 1 * q.val = q.val; omega
  have h3 : iblk1 V c 3 t (ix2 p q) = V c main_v14 (ix2 (⟨t.val * 10000 + p.val, hrow⟩ : Fin 600000) q) := by
    show V c main_v14 (((cfg1.win 3).blk t).view.emb (ix2 p q)) = _
    refine congrArg (V c main_v14) (funext fun a => Fin.ext ?_)
    match a with
    | ⟨0, _⟩ => show win1_3.index t (0 : Fin 2) * 10000 + 1 * p.val = t.val * 10000 + p.val; omega
    | ⟨1, _⟩ => show win1_3.index t (1 : Fin 2) * 128 + 1 * q.val = q.val; omega
  rw [funext h0, funext h1, h2, h3]

/-- An index of the output array is in point t's block iff each coordinate is in the block's range on its axis. -/
theorem mem_block (t : Fin cfg1.N) (i : S600000x128.Idx) :
    i ∈ ((cfg1.win 4).blk t).view.set ↔ ∀ a : Fin 2, win1_4.index t a * S10000x128.size a ≤ (i a).val
      ∧ (i a).val < win1_4.index t a * S10000x128.size a + S10000x128.size a := by
  show i ∈ ((View.whole main_v16).slice (win1_4.rect t)).set ↔ _
  rw [View.set_slice_whole, Rect.mem_set_unit]
  exact Iff.rfl

/-- Row r of the output array is in the block of point r / 10000: the blocks tile the array. -/
theorem covered (i : S600000x128.Idx) :
    ∃ t : Fin cfg1.N, (cfg1.win 4).flush t = true ∧ i ∈ ((cfg1.win 4).blk t).view.set := by
  have hi0 : (i 0).val < 600000 := (i 0).isLt
  have hi1 : (i 1).val < 128 := (i 1).isLt
  have hq : (i 0).val / 10000 < 60 := by omega
  obtain ⟨-, -, -, -, -, -, -, -, e8, e9⟩ := blockIndices ⟨(i 0).val / 10000, hq⟩
  refine ⟨⟨(i 0).val / 10000, hq⟩, flush1_4 _, ?_⟩
  rw [mem_block]
  intro a
  match a with
  | ⟨0, _⟩ =>
    show win1_4.index ⟨(i 0).val / 10000, hq⟩ (0 : Fin 2) * 10000 ≤ (i 0).val
      ∧ (i 0).val < win1_4.index ⟨(i 0).val / 10000, hq⟩ (0 : Fin 2) * 10000 + 10000
    rw [e8]
    show (i 0).val / 10000 * 10000 ≤ (i 0).val ∧ (i 0).val < (i 0).val / 10000 * 10000 + 10000
    omega
  | ⟨1, _⟩ =>
    show win1_4.index ⟨(i 0).val / 10000, hq⟩ (1 : Fin 2) * 128 ≤ (i 1).val
      ∧ (i 1).val < win1_4.index ⟨(i 0).val / 10000, hq⟩ (1 : Fin 2) * 128 + 128
    rw [e9]
    omega

/-- The output array after the region: the stage's image of the arrays the region finds. -/
theorem array_eq (c : Dev nD) :
    (dat1 (F := Ideal) V c).arrAt 4 cfg1.N = Stages.messages (V c main_arg3) (V c main_arg7) (V c main_v15) (V c main_v14) :=
  (dat1 (F := Ideal) V c).arrAt_eq_of_cover 4 _ (fun t _ => flushed_eq V c t) covered

end Cert.KernelIdeal.Message1

end
-- ==== Proof.Update1.lean ====
/-
  The node update of one layer: what the pipelined region leaves in its output array.

  The region walks the 50000 nodes in ten blocks of 5000.  At block t it fetches rows 5000·t … 5000·t + 4999 of the
  aggregated messages and of the projected node rows, both weights and both bias rows whole, and writes back the
  block's update: the aggregate plus the node's own row clipped at zero, through two row-affine maps each clipped at
  zero.  Entry (p, q) of the block depends only on row p of the two fetched row blocks, on the first weight and bias
  row, on column q of the second weight and entry q of the second bias row — row 5000·t + p of the whole arrays —, so
  the block written back is block t of the whole-array node update.  The ten blocks tile the output array.
-/
import proofs.«181900_j6141803233970_1_alg».proof.Proof.Gen.KernelIdeal.Frame
import proofs.«181900_j6141803233970_1_alg».proof.Proof.Stages

set_option maxRecDepth 16384

noncomputable section

namespace Cert.KernelIdeal.Update1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S5000x128_S128x128_S5000x128_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S5000x128 .f32) (x1 : Vec Ideal S5000x128 .f32) (x2 : Vec Ideal S128x128 .f32) (x3 : Vec Ideal S1x128 .f32) (x4 : Vec Ideal S128x128 .f32) (x5 : Vec Ideal S1x128 .f32)
    (p : Fin 5000) (q : Fin 128) :
    k2_pay1 x0 x1 x2 x3 x4 x5 (ix2 p q)
      = Layers.updateAt (fun k => x0 (ix2 p k)) (fun k => x1 (ix2 p k)) (fun k j => x2 (ix2 k j)) (fun j => x3 (ix2 (0 : Fin 1) j))
          (fun j => x4 (ix2 j q)) (x5 (ix2 (0 : Fin 1) q)) := by
  unfold k2_pay1
  exact Layers.blockUpdate_apply plainBlock plainBlock x0 x1 x2 x3 x4 x5 shapeCasts_S5000x128_S5000x128 shapeCasts_S5000x128_S5000x128
    shapeCasts_S1x128_S1x128 broadcasts_S1x128_S5000x128 shapeCasts_S1x128_S1x128 broadcasts_S1x128_S5000x128 bitsLt_bf16_f32 p q

/-- Where each window's block sits at point t: the row blocks move with the point, the weights and the bias rows stay. -/
theorem blockIndices : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 1000000 in
/-- What point t writes back is block t of the whole-array stage. -/
theorem flushed_eq (c : Dev nD) (t : Fin cfg2.N) :
    (dat2 (F := Ideal) V c).flushed 6 t
      = ((cfg2.win 6).blk t).view.read (Elt Ideal) (Stages.update (V c main_v19) (V c main_v7) (V c main_arg9) (V c main_v20) (V c main_arg11) (V c main_v21)) := by
  show (cfg2.win 6).cut (grid2.coords t) ((dat2 V c).after 6 t) = _
  rw [after2_6]
  unfold out2_6
  rw [View.canon_unit_zero zeroOffsets]
  simp only [View.ld_unit_zero (S := S5000x128) zeroOffsets, View.ld_unit_zero (S := S128x128) zeroOffsets, View.ld_unit_zero (S := S1x128) zeroOffsets]
  obtain ⟨e0, e1, e2, e3, e4, e5, e6, e7, e8, e9, e10, e11, e12, e13⟩ := blockIndices t
  funext j
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
      = Stages.update (V c main_v19) (V c main_v7) (V c main_arg9) (V c main_v20) (V c main_arg11) (V c main_v21) (((cfg2.win 6).blk t).view.emb (ix2 p q))
  refine (stored_apply _ _ _ _ _ _ p q).trans ?_
  have ht : t.val < 10 := t.isLt
  have hp : p.val < 5000 := p.isLt
  have hrow : t.val * 5000 + p.val < 50000 := by omega
  -- the block's entry (p, q) is entry (5000·t + p, q) of the array
  have hout : ((cfg2.win 6).blk t).view.emb (ix2 p q) = ix2 (⟨t.val * 5000 + p.val, hrow⟩ : Fin 50000) q := by
    funext a; apply Fin.ext
    match a with
    | ⟨0, _⟩ => show win2_6.index t (0 : Fin 2) * 5000 + 1 * p.val = t.val * 5000 + p.val; omega
    | ⟨1, _⟩ => show win2_6.index t (1 : Fin 2) * 128 + 1 * q.val = q.val; omega
  rw [hout]
  unfold Stages.update
  rw [Layers.nodeUpdate_apply Stages.plain128 Stages.plain128]
  -- the fetched blocks, read at the coordinates the entry depends on
  have h0 : ∀ (k : Fin 128), iblk2 V c 0 t (ix2 p k) = V c main_v19 (ix2 (⟨t.val * 5000 + p.val, hrow⟩ : Fin 50000) k) := fun k => by
    show V c main_v19 (((cfg2.win 0).blk t).view.emb (ix2 p k)) = _
    refine congrArg (V c main_v19) (funext fun a => Fin.ext ?_)
    match a with
    | ⟨0, _⟩ => show win2_0.index t (0 : Fin 2) * 5000 + 1 * p.val = t.val * 5000 + p.val; omega
    | ⟨1, _⟩ => show win2_0.index t (1 : Fin 2) * 128 + 1 * k.val = k.val; omega
  have h1 : ∀ (k : Fin 128), iblk2 V c 1 t (ix2 p k) = V c main_v7 (ix2 (⟨t.val * 5000 + p.val, hrow⟩ : Fin 50000) k) := fun k => by
    show V c main_v7 (((cfg2.win 1).blk t).view.emb (ix2 p k)) = _
    refine congrArg (V c main_v7) (funext fun a => Fin.ext ?_)
    match a with
    | ⟨0, _⟩ => show win2_1.index t (0 : Fin 2) * 5000 + 1 * p.val = t.val * 5000 + p.val; omega
    | ⟨1, _⟩ => show win2_1.index t (1 : Fin 2) * 128 + 1 * k.val = k.val; omega
  have h2 : ∀ (k : Fin 128) (j : Fin 128), iblk2 V c 2 t (ix2 k j) = V c main_arg9 (ix2 k j) := fun k j => by
    show V c main_arg9 (((cfg2.win 2).blk t).view.emb (ix2 k j)) = _
    refine congrArg (V c main_arg9) (funext fun a => Fin.ext ?_)
    match a with
    | ⟨0, _⟩ => show win2_2.index t (0 : Fin 2) * 128 + 1 * k.val = k.val; omega
    | ⟨1, _⟩ => show win2_2.index t (1 : Fin 2) * 128 + 1 * j.val = j.val; omega
  have h3 : ∀ (j : Fin 128), iblk2 V c 3 t (ix2 (0 : Fin 1) j) = V c main_v20 (ix2 (0 : Fin 1) j) := fun j => by
    show V c main_v20 (((cfg2.win 3).blk t).view.emb (ix2 (0 : Fin 1) j)) = _
    refine congrArg (V c main_v20) (funext fun a => Fin.ext ?_)
    match a with
    | ⟨0, _⟩ => show win2_3.index t (0 : Fin 2) * 1 + 1 * 0 = 0; omega
    | ⟨1, _⟩ => show win2_3.index t (1 : Fin 2) * 128 + 1 * j.val = j.val; omega
  have h4 : ∀ (j : Fin 128), iblk2 V c 4 t (ix2 j q) = V c main_arg11 (ix2 j q) := fun j => by
    show V c main_arg11 (((cfg2.win 4).blk t).view.emb (ix2 j q)) = _
    refine congrArg (V c main_arg11) (funext fun a => Fin.ext ?_)
    match a with
    | ⟨0, _⟩ => show win2_4.index t (0 : Fin 2) * 128 + 1 * j.val = j.val; omega
    | ⟨1, _⟩ => show win2_4.index t (1 : Fin 2) * 128 + 1 * q.val = q.val; omega
  have h5 : iblk2 V c 5 t (ix2 (0 : Fin 1) q) = V c main_v21 (ix2 (0 : Fin 1) q) := by
    show V c main_v21 (((cfg2.win 5).blk t).view.emb (ix2 (0 : Fin 1) q)) = _
    refine congrArg (V c main_v21) (funext fun a => Fin.ext ?_)
    match a with
    | ⟨0, _⟩ => show win2_5.index t (0 : Fin 2) * 1 + 1 * 0 = 0; omega
    | ⟨1, _⟩ => show win2_5.index t (1 : Fin 2) * 128 + 1 * q.val = q.val; omega
  rw [funext h0, funext h1, funext (fun k => funext (h2 k)), funext h3, funext h4, h5]

/-- An index of the output array is in point t's block iff each coordinate is in the block's range on its axis. -/
theorem mem_block (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v22).slice (win2_6.rect t)).set ↔ _
  rw [View.set_slice_whole, Rect.mem_set_unit]
  exact Iff.rfl

/-- Row r of the output array is in the block of point r / 5000: the blocks tile the array. -/
theorem covered (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hq : (i 0).val / 5000 < 10 := by omega
  obtain ⟨-, -, -, -, -, -, -, -, -, -, -, -, e12, e13⟩ := blockIndices ⟨(i 0).val / 5000, hq⟩
  refine ⟨⟨(i 0).val / 5000, hq⟩, flush2_6 _, ?_⟩
  rw [mem_block]
  intro a
  match a with
  | ⟨0, _⟩ =>
    show win2_6.index ⟨(i 0).val / 5000, hq⟩ (0 : Fin 2) * 5000 ≤ (i 0).val
      ∧ (i 0).val < win2_6.index ⟨(i 0).val / 5000, hq⟩ (0 : Fin 2) * 5000 + 5000
    rw [e12]
    show (i 0).val / 5000 * 5000 ≤ (i 0).val ∧ (i 0).val < (i 0).val / 5000 * 5000 + 5000
    omega
  | ⟨1, _⟩ =>
    show win2_6.index ⟨(i 0).val / 5000, hq⟩ (1 : Fin 2) * 128 ≤ (i 1).val
      ∧ (i 1).val < win2_6.index ⟨(i 0).val / 5000, hq⟩ (1 : Fin 2) * 128 + 128
    rw [e13]
    omega

/-- The output array after the region: the stage's image of the arrays the region finds. -/
theorem array_eq (c : Dev nD) :
    (dat2 (F := Ideal) V c).arrAt 6 cfg2.N = Stages.update (V c main_v19) (V c main_v7) (V c main_arg9) (V c main_v20) (V c main_arg11) (V c main_v21) :=
  (dat2 (F := Ideal) V c).arrAt_eq_of_cover 6 _ (fun t _ => flushed_eq V c t) covered

end Cert.KernelIdeal.Update1

end
-- ==== Proof.Project2.lean ====
/-
  The second node projection: what the pipelined region leaves in its output array.

  The region walks the 50000 rows in 10 blocks of 5000.  At block t it fetches rows 5000·t … 5000·t + 4999 of its
  input, the whole weight and the whole bias row, and writes back the block's row-affine image.  Entry (p, q) of that
  block depends only on row p of the fetched rows, column q of the weight and entry q of the bias row, which are row
  5000·t + p, column q and entry q of the whole arrays: the block written back is block t of the row-affine map of the
  whole arrays.  The blocks tile the output array, so it ends at that map.
-/
import proofs.«181900_j6141803233970_1_alg».proof.Proof.Gen.KernelIdeal.Frame
import proofs.«181900_j6141803233970_1_alg».proof.Proof.Stages

set_option maxRecDepth 16384

noncomputable section

namespace Cert.KernelIdeal.Project2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S5000x128_S128x128_S5000x128_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S5000x128 .f32) (x1 : Vec Ideal S128x128 .f32) (x2 : Vec Ideal S1x128 .f32)
    (p : Fin 5000) (q : Fin 128) :
    k3_pay1 x0 x1 x2 (ix2 p q)
      = Layers.affineAt (fun k => x0 (ix2 p k)) (fun k => x1 (ix2 k q)) (x2 (ix2 (0 : Fin 1) q)) := by
  unfold k3_pay1
  refine (Layers.blockAffine_apply plainBlock (shapeCast S5000x128 x0 shapeCasts_S5000x128_S5000x128) x1 x2
    shapeCasts_S1x128_S1x128 broadcasts_S1x128_S5000x128 bitsLt_bf16_f32 p q).trans ?_
  rw [shapeCast_self]

/-- Where each window's block sits at point t: the row blocks move with the point, the weights and the bias rows stay. -/
theorem blockIndices : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- What point t writes back is block t of the whole-array stage. -/
theorem flushed_eq (c : Dev nD) (t : Fin cfg3.N) :
    (dat3 (F := Ideal) V c).flushed 3 t
      = ((cfg3.win 3).blk t).view.read (Elt Ideal) (Stages.project128 (V c main_v22) (V c main_arg13) (V c main_v23)) := by
  show (cfg3.win 3).cut (grid3.coords t) ((dat3 V c).after 3 t) = _
  rw [after3_3]
  unfold out3_3
  rw [View.canon_unit_zero zeroOffsets]
  simp only [View.ld_unit_zero (S := S5000x128) zeroOffsets, View.ld_unit_zero (S := S128x128) zeroOffsets, View.ld_unit_zero (S := S1x128) zeroOffsets]
  obtain ⟨e0, e1, e2, e3, e4, e5, e6, e7⟩ := blockIndices t
  funext j
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
      = Stages.project128 (V c main_v22) (V c main_arg13) (V c main_v23) (((cfg3.win 3).blk t).view.emb (ix2 p q))
  refine (stored_apply _ _ _ p q).trans ?_
  have ht : t.val < 10 := t.isLt
  have hp : p.val < 5000 := p.isLt
  have hrow : t.val * 5000 + p.val < 50000 := by omega
  -- the block's entry (p, q) is entry (5000·t + p, q) of the array
  have hout : ((cfg3.win 3).blk t).view.emb (ix2 p q) = ix2 (⟨t.val * 5000 + p.val, hrow⟩ : Fin 50000) q := by
    funext a; apply Fin.ext
    match a with
    | ⟨0, _⟩ => show win3_3.index t (0 : Fin 2) * 5000 + 1 * p.val = t.val * 5000 + p.val; omega
    | ⟨1, _⟩ => show win3_3.index t (1 : Fin 2) * 128 + 1 * q.val = q.val; omega
  rw [hout]
  unfold Stages.project128
  rw [Layers.affineRows_apply Stages.plain128]
  -- the fetched blocks, read at the coordinates the entry depends on
  have h0 : ∀ (k : Fin 128), iblk3 V c 0 t (ix2 p k) = V c main_v22 (ix2 (⟨t.val * 5000 + p.val, hrow⟩ : Fin 50000) k) := fun k => by
    show V c main_v22 (((cfg3.win 0).blk t).view.emb (ix2 p k)) = _
    refine congrArg (V c main_v22) (funext fun a => Fin.ext ?_)
    match a with
    | ⟨0, _⟩ => show win3_0.index t (0 : Fin 2) * 5000 + 1 * p.val = t.val * 5000 + p.val; omega
    | ⟨1, _⟩ => show win3_0.index t (1 : Fin 2) * 128 + 1 * k.val = k.val; omega
  have h1 : ∀ (k : Fin 128), iblk3 V c 1 t (ix2 k q) = V c main_arg13 (ix2 k q) := fun k => by
    show V c main_arg13 (((cfg3.win 1).blk t).view.emb (ix2 k q)) = _
    refine congrArg (V c main_arg13) (funext fun a => Fin.ext ?_)
    match a with
    | ⟨0, _⟩ => show win3_1.index t (0 : Fin 2) * 128 + 1 * k.val = k.val; omega
    | ⟨1, _⟩ => show win3_1.index t (1 : Fin 2) * 128 + 1 * q.val = q.val; omega
  have h2 : iblk3 V c 2 t (ix2 (0 : Fin 1) q) = V c main_v23 (ix2 (0 : Fin 1) q) := by
    show V c main_v23 (((cfg3.win 2).blk t).view.emb (ix2 (0 : Fin 1) q)) = _
    refine congrArg (V c main_v23) (funext fun a => Fin.ext ?_)
    match a with
    | ⟨0, _⟩ => show win3_2.index t (0 : Fin 2) * 1 + 1 * 0 = 0; omega
    | ⟨1, _⟩ => show win3_2.index t (1 : Fin 2) * 128 + 1 * q.val = q.val; omega
  rw [funext h0, funext h1, h2]

/-- An index of the output array is in point t's block iff each coordinate is in the block's range on its axis. -/
theorem mem_block (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v24).slice (win3_3.rect t)).set ↔ _
  rw [View.set_slice_whole, Rect.mem_set_unit]
  exact Iff.rfl

/-- Row r of the output array is in the block of point r / 5000: the blocks tile the array. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hq : (i 0).val / 5000 < 10 := by omega
  obtain ⟨-, -, -, -, -, -, e6, e7⟩ := blockIndices ⟨(i 0).val / 5000, hq⟩
  refine ⟨⟨(i 0).val / 5000, hq⟩, flush3_3 _, ?_⟩
  rw [mem_block]
  intro a
  match a with
  | ⟨0, _⟩ =>
    show win3_3.index ⟨(i 0).val / 5000, hq⟩ (0 : Fin 2) * 5000 ≤ (i 0).val
      ∧ (i 0).val < win3_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win3_3.index ⟨(i 0).val / 5000, hq⟩ (1 : Fin 2) * 128 ≤ (i 1).val
      ∧ (i 1).val < win3_3.index ⟨(i 0).val / 5000, hq⟩ (1 : Fin 2) * 128 + 128
    rw [e7]
    omega

/-- The output array after the region: the stage's image of the arrays the region finds. -/
theorem array_eq (c : Dev nD) :
    (dat3 (F := Ideal) V c).arrAt 3 cfg3.N = Stages.project128 (V c main_v22) (V c main_arg13) (V c main_v23) :=
  (dat3 (F := Ideal) V c).arrAt_eq_of_cover 3 _ (fun t _ => flushed_eq V c t) covered

end Cert.KernelIdeal.Project2

end
-- ==== Proof.Message2.lean ====
/-
  The edge messages of one layer: what the pipelined region leaves in its output array.

  The region walks the 600000 edges in sixty blocks of 10000.  At block t it fetches rows 10000·t … 10000·t + 9999 of
  the edge features and of the gathered node rows, the whole weight and the whole bias row, and writes back, entry by
  entry, the gathered entry plus the row-affine image of the edge features, clipped at zero.  Entry (p, q) of the block
  depends only on row p of the two fetched row blocks, column q of the weight and entry q of the bias row — row
  10000·t + p, column q, entry q of the whole arrays —, so the block written back is block t of the whole-array edge
  messages.  The sixty blocks tile the output array.
-/
import proofs.«181900_j6141803233970_1_alg».proof.Proof.Gen.KernelIdeal.Frame
import proofs.«181900_j6141803233970_1_alg».proof.Proof.Stages

set_option maxRecDepth 16384

noncomputable section

namespace Cert.KernelIdeal.Message2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S10000x16_S16x128_S10000x128_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S10000x16 .f32) (x1 : Vec Ideal S16x128 .f32) (x2 : Vec Ideal S1x128 .f32) (x3 : Vec Ideal S10000x128 .f32)
    (p : Fin 10000) (q : Fin 128) :
    k4_pay1 x0 x1 x2 x3 (ix2 p q)
      = max (x3 (ix2 p q) + Layers.affineAt (fun k => x0 (ix2 p k)) (fun k => x1 (ix2 k q)) (x2 (ix2 (0 : Fin 1) q))) Dense.z := by
  unfold k4_pay1
  exact Layers.blockEdge_apply plainBlock x0 x1 x2 x3 shapeCasts_S1x128_S1x128 broadcasts_S1x128_S10000x128
    shapeCasts_S10000x128_S10000x128 bitsLt_bf16_f32 p q

/-- Where each window's block sits at point t: the row blocks move with the point, the weights and the bias rows stay. -/
theorem blockIndices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- What point t writes back is block t of the whole-array stage. -/
theorem flushed_eq (c : Dev nD) (t : Fin cfg4.N) :
    (dat4 (F := Ideal) V c).flushed 4 t
      = ((cfg4.win 4).blk t).view.read (Elt Ideal) (Stages.messages (V c main_arg3) (V c main_arg15) (V c main_v32) (V c main_v31)) := by
  show (cfg4.win 4).cut (grid4.coords t) ((dat4 V c).after 4 t) = _
  rw [after4_4]
  unfold out4_4
  rw [View.canon_unit_zero zeroOffsets]
  simp only [View.ld_unit_zero (S := S10000x16) zeroOffsets, View.ld_unit_zero (S := S16x128) zeroOffsets, View.ld_unit_zero (S := S1x128) zeroOffsets, View.ld_unit_zero (S := S10000x128) zeroOffsets]
  obtain ⟨e0, e1, e2, e3, e4, e5, e6, e7, e8, e9⟩ := blockIndices t
  funext j
  obtain ⟨p, q, rfl⟩ : ∃ (p : Fin 10000) (q : Fin 128), j = ix2 p q := ⟨j 0, j 1, eq_ix2 j⟩
  show k4_pay1 (iblk4 V c 0 t) (iblk4 V c 1 t) (iblk4 V c 2 t) (iblk4 V c 3 t) (ix2 p q)
      = Stages.messages (V c main_arg3) (V c main_arg15) (V c main_v32) (V c main_v31) (((cfg4.win 4).blk t).view.emb (ix2 p q))
  refine (stored_apply _ _ _ _ p q).trans ?_
  have ht : t.val < 60 := t.isLt
  have hp : p.val < 10000 := p.isLt
  have hrow : t.val * 10000 + p.val < 600000 := by omega
  -- the block's entry (p, q) is entry (10000·t + p, q) of the array
  have hout : ((cfg4.win 4).blk t).view.emb (ix2 p q) = ix2 (⟨t.val * 10000 + p.val, hrow⟩ : Fin 600000) q := by
    funext a; apply Fin.ext
    match a with
    | ⟨0, _⟩ => show win4_4.index t (0 : Fin 2) * 10000 + 1 * p.val = t.val * 10000 + p.val; omega
    | ⟨1, _⟩ => show win4_4.index t (1 : Fin 2) * 128 + 1 * q.val = q.val; omega
  rw [hout]
  unfold Stages.messages
  rw [Layers.edgeMessages_apply Stages.plainEdge]
  -- the fetched blocks, read at the coordinates the entry depends on
  have h0 : ∀ (k : Fin 16), iblk4 V c 0 t (ix2 p k) = V c main_arg3 (ix2 (⟨t.val * 10000 + p.val, hrow⟩ : Fin 600000) k) := fun k => by
    show V c main_arg3 (((cfg4.win 0).blk t).view.emb (ix2 p k)) = _
    refine congrArg (V c main_arg3) (funext fun a => Fin.ext ?_)
    match a with
    | ⟨0, _⟩ => show win4_0.index t (0 : Fin 2) * 10000 + 1 * p.val = t.val * 10000 + p.val; omega
    | ⟨1, _⟩ => show win4_0.index t (1 : Fin 2) * 16 + 1 * k.val = k.val; omega
  have h1 : ∀ (k : Fin 16), iblk4 V c 1 t (ix2 k q) = V c main_arg15 (ix2 k q) := fun k => by
    show V c main_arg15 (((cfg4.win 1).blk t).view.emb (ix2 k q)) = _
    refine congrArg (V c main_arg15) (funext fun a => Fin.ext ?_)
    match a with
    | ⟨0, _⟩ => show win4_1.index t (0 : Fin 2) * 16 + 1 * k.val = k.val; omega
    | ⟨1, _⟩ => show win4_1.index t (1 : Fin 2) * 128 + 1 * q.val = q.val; omega
  have h2 : iblk4 V c 2 t (ix2 (0 : Fin 1) q) = V c main_v32 (ix2 (0 : Fin 1) q) := by
    show V c main_v32 (((cfg4.win 2).blk t).view.emb (ix2 (0 : Fin 1) q)) = _
    refine congrArg (V c main_v32) (funext fun a => Fin.ext ?_)
    match a with
    | ⟨0, _⟩ => show win4_2.index t (0 : Fin 2) * 1 + 1 * 0 = 0; omega
    | ⟨1, _⟩ => show win4_2.index t (1 : Fin 2) * 128 + 1 * q.val = q.val; omega
  have h3 : iblk4 V c 3 t (ix2 p q) = V c main_v31 (ix2 (⟨t.val * 10000 + p.val, hrow⟩ : Fin 600000) q) := by
    show V c main_v31 (((cfg4.win 3).blk t).view.emb (ix2 p q)) = _
    refine congrArg (V c main_v31) (funext fun a => Fin.ext ?_)
    match a with
    | ⟨0, _⟩ => show win4_3.index t (0 : Fin 2) * 10000 + 1 * p.val = t.val * 10000 + p.val; omega
    | ⟨1, _⟩ => show win4_3.index t (1 : Fin 2) * 128 + 1 * q.val = q.val; omega
  rw [funext h0, funext h1, h2, h3]

/-- An index of the output array is in point t's block iff each coordinate is in the block's range on its axis. -/
theorem mem_block (t : Fin cfg4.N) (i : S600000x128.Idx) :
    i ∈ ((cfg4.win 4).blk t).view.set ↔ ∀ a : Fin 2, win4_4.index t a * S10000x128.size a ≤ (i a).val
      ∧ (i a).val < win4_4.index t a * S10000x128.size a + S10000x128.size a := by
  show i ∈ ((View.whole main_v33).slice (win4_4.rect t)).set ↔ _
  rw [View.set_slice_whole, Rect.mem_set_unit]
  exact Iff.rfl

/-- Row r of the output array is in the block of point r / 10000: the blocks tile the array. -/
theorem covered (i : S600000x128.Idx) :
    ∃ t : Fin cfg4.N, (cfg4.win 4).flush t = true ∧ i ∈ ((cfg4.win 4).blk t).view.set := by
  have hi0 : (i 0).val < 600000 := (i 0).isLt
  have hi1 : (i 1).val < 128 := (i 1).isLt
  have hq : (i 0).val / 10000 < 60 := by omega
  obtain ⟨-, -, -, -, -, -, -, -, e8, e9⟩ := blockIndices ⟨(i 0).val / 10000, hq⟩
  refine ⟨⟨(i 0).val / 10000, hq⟩, flush4_4 _, ?_⟩
  rw [mem_block]
  intro a
  match a with
  | ⟨0, _⟩ =>
    show win4_4.index ⟨(i 0).val / 10000, hq⟩ (0 : Fin 2) * 10000 ≤ (i 0).val
      ∧ (i 0).val < win4_4.index ⟨(i 0).val / 10000, hq⟩ (0 : Fin 2) * 10000 + 10000
    rw [e8]
    show (i 0).val / 10000 * 10000 ≤ (i 0).val ∧ (i 0).val < (i 0).val / 10000 * 10000 + 10000
    omega
  | ⟨1, _⟩ =>
    show win4_4.index ⟨(i 0).val / 10000, hq⟩ (1 : Fin 2) * 128 ≤ (i 1).val
      ∧ (i 1).val < win4_4.index ⟨(i 0).val / 10000, hq⟩ (1 : Fin 2) * 128 + 128
    rw [e9]
    omega

/-- The output array after the region: the stage's image of the arrays the region finds. -/
theorem array_eq (c : Dev nD) :
    (dat4 (F := Ideal) V c).arrAt 4 cfg4.N = Stages.messages (V c main_arg3) (V c main_arg15) (V c main_v32) (V c main_v31) :=
  (dat4 (F := Ideal) V c).arrAt_eq_of_cover 4 _ (fun t _ => flushed_eq V c t) covered

end Cert.KernelIdeal.Message2

end
-- ==== Proof.Update2.lean ====
/-
  The node update of one layer: what the pipelined region leaves in its output array.

  The region walks the 50000 nodes in ten blocks of 5000.  At block t it fetches rows 5000·t … 5000·t + 4999 of the
  aggregated messages and of the projected node rows, both weights and both bias rows whole, and writes back the
  block's update: the aggregate plus the node's own row clipped at zero, through two row-affine maps each clipped at
  zero.  Entry (p, q) of the block depends only on row p of the two fetched row blocks, on the first weight and bias
  row, on column q of the second weight and entry q of the second bias row — row 5000·t + p of the whole arrays —, so
  the block written back is block t of the whole-array node update.  The ten blocks tile the output array.
-/
import proofs.«181900_j6141803233970_1_alg».proof.Proof.Gen.KernelIdeal.Frame
import proofs.«181900_j6141803233970_1_alg».proof.Proof.Stages

set_option maxRecDepth 16384

noncomputable section

namespace Cert.KernelIdeal.Update2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S5000x128_S128x128_S5000x128_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S5000x128 .f32) (x1 : Vec Ideal S5000x128 .f32) (x2 : Vec Ideal S128x128 .f32) (x3 : Vec Ideal S1x128 .f32) (x4 : Vec Ideal S128x128 .f32) (x5 : Vec Ideal S1x128 .f32)
    (p : Fin 5000) (q : Fin 128) :
    k5_pay1 x0 x1 x2 x3 x4 x5 (ix2 p q)
      = Layers.updateAt (fun k => x0 (ix2 p k)) (fun k => x1 (ix2 p k)) (fun k j => x2 (ix2 k j)) (fun j => x3 (ix2 (0 : Fin 1) j))
          (fun j => x4 (ix2 j q)) (x5 (ix2 (0 : Fin 1) q)) := by
  unfold k5_pay1
  exact Layers.blockUpdate_apply plainBlock plainBlock x0 x1 x2 x3 x4 x5 shapeCasts_S5000x128_S5000x128 shapeCasts_S5000x128_S5000x128
    shapeCasts_S1x128_S1x128 broadcasts_S1x128_S5000x128 shapeCasts_S1x128_S1x128 broadcasts_S1x128_S5000x128 bitsLt_bf16_f32 p q

/-- Where each window's block sits at point t: the row blocks move with the point, the weights and the bias rows stay. -/
theorem blockIndices : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

set_option maxHeartbeats 1000000 in
/-- What point t writes back is block t of the whole-array stage. -/
theorem flushed_eq (c : Dev nD) (t : Fin cfg5.N) :
    (dat5 (F := Ideal) V c).flushed 6 t
      = ((cfg5.win 6).blk t).view.read (Elt Ideal) (Stages.update (V c main_v36) (V c main_v24) (V c main_arg17) (V c main_v37) (V c main_arg19) (V c main_v38)) := by
  show (cfg5.win 6).cut (grid5.coords t) ((dat5 V c).after 6 t) = _
  rw [after5_6]
  unfold out5_6
  rw [View.canon_unit_zero zeroOffsets]
  simp only [View.ld_unit_zero (S := S5000x128) zeroOffsets, View.ld_unit_zero (S := S128x128) zeroOffsets, View.ld_unit_zero (S := S1x128) zeroOffsets]
  obtain ⟨e0, e1, e2, e3, e4, e5, e6, e7, e8, e9, e10, e11, e12, e13⟩ := blockIndices t
  funext j
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (iblk5 V c 3 t) (iblk5 V c 4 t) (iblk5 V c 5 t) (ix2 p q)
      = Stages.update (V c main_v36) (V c main_v24) (V c main_arg17) (V c main_v37) (V c main_arg19) (V c main_v38) (((cfg5.win 6).blk t).view.emb (ix2 p q))
  refine (stored_apply _ _ _ _ _ _ p q).trans ?_
  have ht : t.val < 10 := t.isLt
  have hp : p.val < 5000 := p.isLt
  have hrow : t.val * 5000 + p.val < 50000 := by omega
  -- the block's entry (p, q) is entry (5000·t + p, q) of the array
  have hout : ((cfg5.win 6).blk t).view.emb (ix2 p q) = ix2 (⟨t.val * 5000 + p.val, hrow⟩ : Fin 50000) q := by
    funext a; apply Fin.ext
    match a with
    | ⟨0, _⟩ => show win5_6.index t (0 : Fin 2) * 5000 + 1 * p.val = t.val * 5000 + p.val; omega
    | ⟨1, _⟩ => show win5_6.index t (1 : Fin 2) * 128 + 1 * q.val = q.val; omega
  rw [hout]
  unfold Stages.update
  rw [Layers.nodeUpdate_apply Stages.plain128 Stages.plain128]
  -- the fetched blocks, read at the coordinates the entry depends on
  have h0 : ∀ (k : Fin 128), iblk5 V c 0 t (ix2 p k) = V c main_v36 (ix2 (⟨t.val * 5000 + p.val, hrow⟩ : Fin 50000) k) := fun k => by
    show V c main_v36 (((cfg5.win 0).blk t).view.emb (ix2 p k)) = _
    refine congrArg (V c main_v36) (funext fun a => Fin.ext ?_)
    match a with
    | ⟨0, _⟩ => show win5_0.index t (0 : Fin 2) * 5000 + 1 * p.val = t.val * 5000 + p.val; omega
    | ⟨1, _⟩ => show win5_0.index t (1 : Fin 2) * 128 + 1 * k.val = k.val; omega
  have h1 : ∀ (k : Fin 128), iblk5 V c 1 t (ix2 p k) = V c main_v24 (ix2 (⟨t.val * 5000 + p.val, hrow⟩ : Fin 50000) k) := fun k => by
    show V c main_v24 (((cfg5.win 1).blk t).view.emb (ix2 p k)) = _
    refine congrArg (V c main_v24) (funext fun a => Fin.ext ?_)
    match a with
    | ⟨0, _⟩ => show win5_1.index t (0 : Fin 2) * 5000 + 1 * p.val = t.val * 5000 + p.val; omega
    | ⟨1, _⟩ => show win5_1.index t (1 : Fin 2) * 128 + 1 * k.val = k.val; omega
  have h2 : ∀ (k : Fin 128) (j : Fin 128), iblk5 V c 2 t (ix2 k j) = V c main_arg17 (ix2 k j) := fun k j => by
    show V c main_arg17 (((cfg5.win 2).blk t).view.emb (ix2 k j)) = _
    refine congrArg (V c main_arg17) (funext fun a => Fin.ext ?_)
    match a with
    | ⟨0, _⟩ => show win5_2.index t (0 : Fin 2) * 128 + 1 * k.val = k.val; omega
    | ⟨1, _⟩ => show win5_2.index t (1 : Fin 2) * 128 + 1 * j.val = j.val; omega
  have h3 : ∀ (j : Fin 128), iblk5 V c 3 t (ix2 (0 : Fin 1) j) = V c main_v37 (ix2 (0 : Fin 1) j) := fun j => by
    show V c main_v37 (((cfg5.win 3).blk t).view.emb (ix2 (0 : Fin 1) j)) = _
    refine congrArg (V c main_v37) (funext fun a => Fin.ext ?_)
    match a with
    | ⟨0, _⟩ => show win5_3.index t (0 : Fin 2) * 1 + 1 * 0 = 0; omega
    | ⟨1, _⟩ => show win5_3.index t (1 : Fin 2) * 128 + 1 * j.val = j.val; omega
  have h4 : ∀ (j : Fin 128), iblk5 V c 4 t (ix2 j q) = V c main_arg19 (ix2 j q) := fun j => by
    show V c main_arg19 (((cfg5.win 4).blk t).view.emb (ix2 j q)) = _
    refine congrArg (V c main_arg19) (funext fun a => Fin.ext ?_)
    match a with
    | ⟨0, _⟩ => show win5_4.index t (0 : Fin 2) * 128 + 1 * j.val = j.val; omega
    | ⟨1, _⟩ => show win5_4.index t (1 : Fin 2) * 128 + 1 * q.val = q.val; omega
  have h5 : iblk5 V c 5 t (ix2 (0 : Fin 1) q) = V c main_v38 (ix2 (0 : Fin 1) q) := by
    show V c main_v38 (((cfg5.win 5).blk t).view.emb (ix2 (0 : Fin 1) q)) = _
    refine congrArg (V c main_v38) (funext fun a => Fin.ext ?_)
    match a with
    | ⟨0, _⟩ => show win5_5.index t (0 : Fin 2) * 1 + 1 * 0 = 0; omega
    | ⟨1, _⟩ => show win5_5.index t (1 : Fin 2) * 128 + 1 * q.val = q.val; omega
  rw [funext h0, funext h1, funext (fun k => funext (h2 k)), funext h3, funext h4, h5]

/-- An index of the output array is in point t's block iff each coordinate is in the block's range on its axis. -/
theorem mem_block (t : Fin cfg5.N) (i : S50000x128.Idx) :
    i ∈ ((cfg5.win 6).blk t).view.set ↔ ∀ a : Fin 2, win5_6.index t a * S5000x128.size a ≤ (i a).val
      ∧ (i a).val < win5_6.index t a * S5000x128.size a + S5000x128.size a := by
  show i ∈ ((View.whole main_v39).slice (win5_6.rect t)).set ↔ _
  rw [View.set_slice_whole, Rect.mem_set_unit]
  exact Iff.rfl

/-- Row r of the output array is in the block of point r / 5000: the blocks tile the array. -/
theorem covered (i : S50000x128.Idx) :
    ∃ t : Fin cfg5.N, (cfg5.win 6).flush t = true ∧ i ∈ ((cfg5.win 6).blk t).view.set := by
  have hi0 : (i 0).val < 50000 := (i 0).isLt
  have hi1 : (i 1).val < 128 := (i 1).isLt
  have hq : (i 0).val / 5000 < 10 := by omega
  obtain ⟨-, -, -, -, -, -, -, -, -, -, -, -, e12, e13⟩ := blockIndices ⟨(i 0).val / 5000, hq⟩
  refine ⟨⟨(i 0).val / 5000, hq⟩, flush5_6 _, ?_⟩
  rw [mem_block]
  intro a
  match a with
  | ⟨0, _⟩ =>
    show win5_6.index ⟨(i 0).val / 5000, hq⟩ (0 : Fin 2) * 5000 ≤ (i 0).val
      ∧ (i 0).val < win5_6.index ⟨(i 0).val / 5000, hq⟩ (0 : Fin 2) * 5000 + 5000
    rw [e12]
    show (i 0).val / 5000 * 5000 ≤ (i 0).val ∧ (i 0).val < (i 0).val / 5000 * 5000 + 5000
    omega
  | ⟨1, _⟩ =>
    show win5_6.index ⟨(i 0).val / 5000, hq⟩ (1 : Fin 2) * 128 ≤ (i 1).val
      ∧ (i 1).val < win5_6.index ⟨(i 0).val / 5000, hq⟩ (1 : Fin 2) * 128 + 128
    rw [e13]
    omega

/-- The output array after the region: the stage's image of the arrays the region finds. -/
theorem array_eq (c : Dev nD) :
    (dat5 (F := Ideal) V c).arrAt 6 cfg5.N = Stages.update (V c main_v36) (V c main_v24) (V c main_arg17) (V c main_v37) (V c main_arg19) (V c main_v38) :=
  (dat5 (F := Ideal) V c).arrAt_eq_of_cover 6 _ (fun t _ => flushed_eq V c t) covered

end Cert.KernelIdeal.Update2

end
-- ==== Proof.Readout.lean ====
/-
  The graph readout: what the pipelined region leaves in its output array.

  The region walks the 512 rows in 1 block of 512.  At block t it fetches rows 512·t … 512·t + 511 of its
  input, the whole weight and the whole bias row, and writes back the block's row-affine image.  Entry (p, q) of that
  block depends only on row p of the fetched rows, column q of the weight and entry q of the bias row, which are row
  512·t + p, column q and entry q of the whole arrays: the block written back is block t of the row-affine map of the
  whole arrays.  The blocks tile the output array, so it ends at that map.
-/
import proofs.«181900_j6141803233970_1_alg».proof.Proof.Gen.KernelIdeal.Frame
import proofs.«181900_j6141803233970_1_alg».proof.Proof.Stages

set_option maxRecDepth 16384

noncomputable section

namespace Cert.KernelIdeal.Readout

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.RowOps

variable (V : (c : Dev nD) → (b : Ref sig .tc) → Buf (Elt Ideal) ((c : Thread nD τ).loc b))

theorem plainBlock : IsPlain dot_S512x128_S128x1_S512x1_1_0_0_1_n_n := ⟨rfl, rfl, rfl, rfl, rfl, rfl⟩

theorem zeroOffsets : (![0, 0] : Fin 2 → Nat) = fun _ => 0 := funext fun a => by fin_cases a <;> rfl

/-- Entry (p, q) of what the body stores, from the blocks it loaded. -/
theorem stored_apply (x0 : Vec Ideal S512x128 .f32) (x1 : Vec Ideal S128x1 .f32) (x2 : Vec Ideal S1x1 .f32)
    (p : Fin 512) (q : Fin 1) :
    k6_pay1 x0 x1 x2 (ix2 p q)
      = Layers.affineAt (fun k => x0 (ix2 p k)) (fun k => x1 (ix2 k q)) (x2 (ix2 (0 : Fin 1) q)) := by
  unfold k6_pay1
  refine (Layers.blockAffine_apply plainBlock (shapeCast S512x128 x0 shapeCasts_S512x128_S512x128) x1 x2
    shapeCasts_S1x1_S1x1 broadcasts_S1x1_S512x1 bitsLt_bf16_f32 p q).trans ?_
  rw [shapeCast_self]

/-- Where each window's block sits at point t: the row blocks move with the point, the weights and the bias rows stay. -/
theorem blockIndices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- What point t writes back is block t of the whole-array stage. -/
theorem flushed_eq (c : Dev nD) (t : Fin cfg6.N) :
    (dat6 (F := Ideal) V c).flushed 3 t
      = ((cfg6.win 3).blk t).view.read (Elt Ideal) (Stages.readout (V c main_v42) (V c main_arg21) (V c main_v43)) := by
  show (cfg6.win 3).cut (grid6.coords t) ((dat6 V c).after 3 t) = _
  rw [after6_3]
  unfold out6_3
  rw [View.canon_unit_zero zeroOffsets]
  simp only [View.ld_unit_zero (S := S512x128) zeroOffsets, View.ld_unit_zero (S := S128x1) zeroOffsets, View.ld_unit_zero (S := S1x1) zeroOffsets]
  obtain ⟨e0, e1, e2, e3, e4, e5, e6, e7⟩ := blockIndices t
  funext j
  obtain ⟨p, q, rfl⟩ : ∃ (p : Fin 512) (q : Fin 1), j = ix2 p q := ⟨j 0, j 1, eq_ix2 j⟩
  show k6_pay1 (iblk6 V c 0 t) (iblk6 V c 1 t) (iblk6 V c 2 t) (ix2 p q)
      = Stages.readout (V c main_v42) (V c main_arg21) (V c main_v43) (((cfg6.win 3).blk t).view.emb (ix2 p q))
  refine (stored_apply _ _ _ p q).trans ?_
  have ht : t.val < 1 := t.isLt
  have hp : p.val < 512 := p.isLt
  have hrow : t.val * 512 + p.val < 512 := by omega
  -- the block's entry (p, q) is entry (512·t + p, q) of the array
  have hout : ((cfg6.win 3).blk t).view.emb (ix2 p q) = ix2 (⟨t.val * 512 + p.val, hrow⟩ : Fin 512) q := by
    funext a; apply Fin.ext
    match a with
    | ⟨0, _⟩ => show win6_3.index t (0 : Fin 2) * 512 + 1 * p.val = t.val * 512 + p.val; omega
    | ⟨1, _⟩ => show win6_3.index t (1 : Fin 2) * 1 + 1 * q.val = q.val; omega
  rw [hout]
  unfold Stages.readout
  rw [Layers.affineRows_apply Stages.plainOut]
  -- the fetched blocks, read at the coordinates the entry depends on
  have h0 : ∀ (k : Fin 128), iblk6 V c 0 t (ix2 p k) = V c main_v42 (ix2 (⟨t.val * 512 + p.val, hrow⟩ : Fin 512) k) := fun k => by
    show V c main_v42 (((cfg6.win 0).blk t).view.emb (ix2 p k)) = _
    refine congrArg (V c main_v42) (funext fun a => Fin.ext ?_)
    match a with
    | ⟨0, _⟩ => show win6_0.index t (0 : Fin 2) * 512 + 1 * p.val = t.val * 512 + p.val; omega
    | ⟨1, _⟩ => show win6_0.index t (1 : Fin 2) * 128 + 1 * k.val = k.val; omega
  have h1 : ∀ (k : Fin 128), iblk6 V c 1 t (ix2 k q) = V c main_arg21 (ix2 k q) := fun k => by
    show V c main_arg21 (((cfg6.win 1).blk t).view.emb (ix2 k q)) = _
    refine congrArg (V c main_arg21) (funext fun a => Fin.ext ?_)
    match a with
    | ⟨0, _⟩ => show win6_1.index t (0 : Fin 2) * 128 + 1 * k.val = k.val; omega
    | ⟨1, _⟩ => show win6_1.index t (1 : Fin 2) * 1 + 1 * q.val = q.val; omega
  have h2 : iblk6 V c 2 t (ix2 (0 : Fin 1) q) = V c main_v43 (ix2 (0 : Fin 1) q) := by
    show V c main_v43 (((cfg6.win 2).blk t).view.emb (ix2 (0 : Fin 1) q)) = _
    refine congrArg (V c main_v43) (funext fun a => Fin.ext ?_)
    match a with
    | ⟨0, _⟩ => show win6_2.index t (0 : Fin 2) * 1 + 1 * 0 = 0; omega
    | ⟨1, _⟩ => show win6_2.index t (1 : Fin 2) * 1 + 1 * q.val = q.val; omega
  rw [funext h0, funext h1, h2]

/-- An index of the output array is in point t's block iff each coordinate is in the block's range on its axis. -/
theorem mem_block (t : Fin cfg6.N) (i : S512x1.Idx) :
    i ∈ ((cfg6.win 3).blk t).view.set ↔ ∀ a : Fin 2, win6_3.index t a * S512x1.size a ≤ (i a).val
      ∧ (i a).val < win6_3.index t a * S512x1.size a + S512x1.size a := by
  show i ∈ ((View.whole main_v44).slice (win6_3.rect t)).set ↔ _
  rw [View.set_slice_whole, Rect.mem_set_unit]
  exact Iff.rfl

/-- Row r of the output array is in the block of point r / 512: the blocks tile the array. -/
theorem covered (i : S512x1.Idx) :
    ∃ t : Fin cfg6.N, (cfg6.win 3).flush t = true ∧ i ∈ ((cfg6.win 3).blk t).view.set := by
  have hi0 : (i 0).val < 512 := (i 0).isLt
  have hi1 : (i 1).val < 1 := (i 1).isLt
  have hq : (i 0).val / 512 < 1 := by omega
  obtain ⟨-, -, -, -, -, -, e6, e7⟩ := blockIndices ⟨(i 0).val / 512, hq⟩
  refine ⟨⟨(i 0).val / 512, hq⟩, flush6_3 _, ?_⟩
  rw [mem_block]
  intro a
  match a with
  | ⟨0, _⟩ =>
    show win6_3.index ⟨(i 0).val / 512, hq⟩ (0 : Fin 2) * 512 ≤ (i 0).val
      ∧ (i 0).val < win6_3.index ⟨(i 0).val / 512, hq⟩ (0 : Fin 2) * 512 + 512
    rw [e6]
    show (i 0).val / 512 * 512 ≤ (i 0).val ∧ (i 0).val < (i 0).val / 512 * 512 + 512
    omega
  | ⟨1, _⟩ =>
    show win6_3.index ⟨(i 0).val / 512, hq⟩ (1 : Fin 2) * 1 ≤ (i 1).val
      ∧ (i 1).val < win6_3.index ⟨(i 0).val / 512, hq⟩ (1 : Fin 2) * 1 + 1
    rw [e7]
    omega

/-- The output array after the region: the stage's image of the arrays the region finds. -/
theorem array_eq (c : Dev nD) :
    (dat6 (F := Ideal) V c).arrAt 3 cfg6.N = Stages.readout (V c main_v42) (V c main_arg21) (V c main_v43) :=
  (dat6 (F := Ideal) V c).arrAt_eq_of_cover 3 _ (fun t _ => flushed_eq V c t) covered

end Cert.KernelIdeal.Readout

end
-- ==== Proof.Fold.lean ====
/-
  The kernel program's buffers at each region boundary, with every region read as one operation.

  A pipelined region leaves its input arrays as it found them, its output array at the stage's image of those
  inputs, and touches no other buffer that outlives it.  That is what a single host operation with that function
  would leave.  So the contents at a region's exit are that operation's result on the contents at its entry, and the
  whole program folds the launch memory through one line of operations: the host stretches with one operation in
  the place of each region.
-/
import proofs.«181900_j6141803233970_1_alg».proof.Proof.Gen.KernelIdeal.Frame
import proofs.«181900_j6141803233970_1_alg».proof.Proof.LibRegionOp
import proofs.«181900_j6141803233970_1_alg».proof.Proof.Project1
import proofs.«181900_j6141803233970_1_alg».proof.Proof.Message1
import proofs.«181900_j6141803233970_1_alg».proof.Proof.Update1
import proofs.«181900_j6141803233970_1_alg».proof.Proof.Project2
import proofs.«181900_j6141803233970_1_alg».proof.Proof.Message2
import proofs.«181900_j6141803233970_1_alg».proof.Proof.Update2
import proofs.«181900_j6141803233970_1_alg».proof.Proof.Readout

set_option maxRecDepth 16384

noncomputable section

namespace Cert.KernelIdeal.Fold

open Idealize.ShloMosaic Idealize.ShloMosaic.TcCoe Idealize.ShloMosaic.StableHlo Idealize.SL.Sem
open Cert.KernelIdeal Cert.KernelIdeal.Gen

/-! ## The regions as operations -/

/-- Region 0 as one operation: its output array takes the stage's image of its three input arrays. -/
abbrev project1 : HloOp τ sig (Elt Ideal) :=
  StableHlo.ternary main_v5 main_arg5 main_v6 main_v7
    (Stages.project13 : (⟨S50000x13, .f32⟩ : BufTy).Contents (Elt Ideal) → (⟨S13x128, .f32⟩ : BufTy).Contents (Elt Ideal) → (⟨S1x128, .f32⟩ : BufTy).Contents (Elt Ideal) → (⟨S50000x128, .f32⟩ : BufTy).Contents (Elt Ideal))

/-- Region 1 as one operation: its output array takes the stage's image of its four input arrays. -/
abbrev message1 : HloOp τ sig (Elt Ideal) :=
  StableHlo.quaternary main_arg3 main_arg7 main_v15 main_v14 main_v16
    (Stages.messages : (⟨S600000x16, .f32⟩ : BufTy).Contents (Elt Ideal) → (⟨S16x128, .f32⟩ : BufTy).Contents (Elt Ideal) → (⟨S1x128, .f32⟩ : BufTy).Contents (Elt Ideal) → (⟨S600000x128, .f32⟩ : BufTy).Contents (Elt Ideal) → (⟨S600000x128, .f32⟩ : BufTy).Contents (Elt Ideal))

/-- Region 2 as one operation: its output array takes the stage's image of its six input arrays. -/
def update1 : HloOp τ sig (Elt Ideal) :=
  StableHlo.nary ![main_v19, main_v7, main_arg9, main_v20, main_arg11, main_v21] main_v22
    (fun u => Stages.update (u 0) (u 1) (u 2) (u 3) (u 4) (u 5))

/-- What it leaves in its output buffer … -/
theorem update1_result (F : Valuation τ sig (Elt Ideal)) :
    update1.result F (Proc.devRef .tc main_v22)
      = Stages.update (F (Proc.devRef .tc main_v19)) (F (Proc.devRef .tc main_v7)) (F (Proc.devRef .tc main_arg9)) (F (Proc.devRef .tc main_v20)) (F (Proc.devRef .tc main_arg11)) (F (Proc.devRef .tc main_v21)) :=
  (nary_result _ _ _ _ _ F).trans rfl
/-- … and in any other buffer: what was there. -/
theorem update1_result_ne (F : Valuation τ sig (Elt Ideal)) {r : Ref sig .tc} (h : r ≠ main_v22) :
    update1.result F (Proc.devRef .tc r) = F (Proc.devRef .tc r) :=
  nary_result_ne _ _ _ _ _ F h
theorem update1_result' (F : Valuation τ sig (Elt Ideal)) :
    update1.result F (no_index (Proc.devRef .tc main_v22))
      = Stages.update (F (Proc.devRef .tc main_v19)) (F (Proc.devRef .tc main_v7)) (F (Proc.devRef .tc main_arg9)) (F (Proc.devRef .tc main_v20)) (F (Proc.devRef .tc main_arg11)) (F (Proc.devRef .tc main_v21)) := update1_result F
theorem update1_result_ne' (F : Valuation τ sig (Elt Ideal)) {r : Ref sig .tc} (h : r ≠ main_v22) :
    update1.result F (no_index (Proc.devRef .tc r)) = F (Proc.devRef .tc r) := update1_result_ne F h
theorem update1_writes : update1.writes = {Proc.devRef .tc main_v22} := rfl

/-- Region 3 as one operation: its output array takes the stage's image of its three input arrays. -/
abbrev project2 : HloOp τ sig (Elt Ideal) :=
  StableHlo.ternary main_v22 main_arg13 main_v23 main_v24
    (Stages.project128 : (⟨S50000x128, .f32⟩ : BufTy).Contents (Elt Ideal) → (⟨S128x128, .f32⟩ : BufTy).Contents (Elt Ideal) → (⟨S1x128, .f32⟩ : BufTy).Contents (Elt Ideal) → (⟨S50000x128, .f32⟩ : BufTy).Contents (Elt Ideal))

/-- Region 4 as one operation: its output array takes the stage's image of its four input arrays. -/
abbrev message2 : HloOp τ sig (Elt Ideal) :=
  StableHlo.quaternary main_arg3 main_arg15 main_v32 main_v31 main_v33
    (Stages.messages : (⟨S600000x16, .f32⟩ : BufTy).Contents (Elt Ideal) → (⟨S16x128, .f32⟩ : BufTy).Contents (Elt Ideal) → (⟨S1x128, .f32⟩ : BufTy).Contents (Elt Ideal) → (⟨S600000x128, .f32⟩ : BufTy).Contents (Elt Ideal) → (⟨S600000x128, .f32⟩ : BufTy).Contents (Elt Ideal))

/-- Region 5 as one operation: its output array takes the stage's image of its six input arrays. -/
def update2 : HloOp τ sig (Elt Ideal) :=
  StableHlo.nary ![main_v36, main_v24, main_arg17, main_v37, main_arg19, main_v38] main_v39
    (fun u => Stages.update (u 0) (u 1) (u 2) (u 3) (u 4) (u 5))

/-- What it leaves in its output buffer … -/
theorem update2_result (F : Valuation τ sig (Elt Ideal)) :
    update2.result F (Proc.devRef .tc main_v39)
      = Stages.update (F (Proc.devRef .tc main_v36)) (F (Proc.devRef .tc main_v24)) (F (Proc.devRef .tc main_arg17)) (F (Proc.devRef .tc main_v37)) (F (Proc.devRef .tc main_arg19)) (F (Proc.devRef .tc main_v38)) :=
  (nary_result _ _ _ _ _ F).trans rfl
/-- … and in any other buffer: what was there. -/
theorem update2_result_ne (F : Valuation τ sig (Elt Ideal)) {r : Ref sig .tc} (h : r ≠ main_v39) :
    update2.result F (Proc.devRef .tc r) = F (Proc.devRef .tc r) :=
  nary_result_ne _ _ _ _ _ F h
theorem update2_result' (F : Valuation τ sig (Elt Ideal)) :
    update2.result F (no_index (Proc.devRef .tc main_v39))
      = Stages.update (F (Proc.devRef .tc main_v36)) (F (Proc.devRef .tc main_v24)) (F (Proc.devRef .tc main_arg17)) (F (Proc.devRef .tc main_v37)) (F (Proc.devRef .tc main_arg19)) (F (Proc.devRef .tc main_v38)) := update2_result F
theorem update2_result_ne' (F : Valuation τ sig (Elt Ideal)) {r : Ref sig .tc} (h : r ≠ main_v39) :
    update2.result F (no_index (Proc.devRef .tc r)) = F (Proc.devRef .tc r) := update2_result_ne F h
theorem update2_writes : update2.writes = {Proc.devRef .tc main_v39} := rfl

/-- Region 6 as one operation: its output array takes the stage's image of its three input arrays. -/
abbrev readout : HloOp τ sig (Elt Ideal) :=
  StableHlo.ternary main_v42 main_arg21 main_v43 main_v44
    (Stages.readout : (⟨S512x128, .f32⟩ : BufTy).Contents (Elt Ideal) → (⟨S128x1, .f32⟩ : BufTy).Contents (Elt Ideal) → (⟨S1x1, .f32⟩ : BufTy).Contents (Elt Ideal) → (⟨S512x1, .f32⟩ : BufTy).Contents (Elt Ideal))

/-! ## The boundaries -/

variable (m : (ℓ : Loc nD τ sig) → Buf (Elt Ideal) ℓ) (ρ : Dev nD → PrngReg)

set_option maxHeartbeats 1000000 in
/-- At region 0's exit the buffers hold what the operation leaves from the entry contents: the output array at the
    stage's image, the input arrays and every other buffer as entered. -/
theorem W4_eq (c : Dev nD) : W4 m ρ c = project1.result (W3 m ρ c) := by
  unfold W4
  refine RegionOp.withArrays_eq_result spec0 launch0.win.arr_inj c (W3 m ρ c) _ project1 3 rfl ?_ ?_
  · exact (Project1.array_eq (V3 m ρ) c).trans (ternary_result main_v5 main_arg5 main_v6 main_v7 _ _ _ _ _ (W3 m ρ c)).symm
  · intro w hw
    match w, hw with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, _ => exact ((dat0 (V3 m ρ) c).arrAt_in 2 rfl _).trans (A_eq0 (V3 m ρ) c 2)
    | ⟨3, _⟩, h => exact absurd rfl h

set_option maxHeartbeats 1000000 in
/-- At region 1's exit the buffers hold what the operation leaves from the entry contents: the output array at the
    stage's image, the input arrays and every other buffer as entered. -/
theorem W6_eq (c : Dev nD) : W6 m ρ c = message1.result (W5 m ρ c) := by
  unfold W6
  refine RegionOp.withArrays_eq_result spec1 launch1.win.arr_inj c (W5 m ρ c) _ message1 4 rfl ?_ ?_
  · exact (Message1.array_eq (V5 m ρ) c).trans (quaternary_result main_arg3 main_arg7 main_v15 main_v14 main_v16 _ _ _ _ _ _ (W5 m ρ c)).symm
  · intro w hw
    match w, hw with
    | ⟨0, _⟩, _ => exact ((dat1 (V5 m ρ) c).arrAt_in 0 rfl _).trans (A_eq1 (V5 m ρ) c 0)
    | ⟨1, _⟩, _ => exact ((dat1 (V5 m ρ) c).arrAt_in 1 rfl _).trans (A_eq1 (V5 m ρ) c 1)
    | ⟨2, _⟩, _ => exact ((dat1 (V5 m ρ) c).arrAt_in 2 rfl _).trans (A_eq1 (V5 m ρ) c 2)
    | ⟨3, _⟩, _ => exact ((dat1 (V5 m ρ) c).arrAt_in 3 rfl _).trans (A_eq1 (V5 m ρ) c 3)
    | ⟨4, _⟩, h => exact absurd rfl h

set_option maxHeartbeats 1000000 in
/-- At region 2's exit the buffers hold what the operation leaves from the entry contents: the output array at the
    stage's image, the input arrays and every other buffer as entered. -/
theorem W8_eq (c : Dev nD) : W8 m ρ c = update1.result (W7 m ρ c) := by
  unfold W8
  refine RegionOp.withArrays_eq_result spec2 launch2.win.arr_inj c (W7 m ρ c) _ update1 6 update1_writes ?_ ?_
  · exact (Update1.array_eq (V7 m ρ) c).trans (update1_result (W7 m ρ c)).symm
  · intro w hw
    match w, hw with
    | ⟨0, _⟩, _ => exact ((dat2 (V7 m ρ) c).arrAt_in 0 rfl _).trans (A_eq2 (V7 m ρ) c 0)
    | ⟨1, _⟩, _ => exact ((dat2 (V7 m ρ) c).arrAt_in 1 rfl _).trans (A_eq2 (V7 m ρ) c 1)
    | ⟨2, _⟩, _ => exact ((dat2 (V7 m ρ) c).arrAt_in 2 rfl _).trans (A_eq2 (V7 m ρ) c 2)
    | ⟨3, _⟩, _ => exact ((dat2 (V7 m ρ) c).arrAt_in 3 rfl _).trans (A_eq2 (V7 m ρ) c 3)
    | ⟨4, _⟩, _ => exact ((dat2 (V7 m ρ) c).arrAt_in 4 rfl _).trans (A_eq2 (V7 m ρ) c 4)
    | ⟨5, _⟩, _ => exact ((dat2 (V7 m ρ) c).arrAt_in 5 rfl _).trans (A_eq2 (V7 m ρ) c 5)
    | ⟨6, _⟩, h => exact absurd rfl h

set_option maxHeartbeats 1000000 in
/-- At region 3's exit the buffers hold what the operation leaves from the entry contents: the output array at the
    stage's image, the input arrays and every other buffer as entered. -/
theorem W10_eq (c : Dev nD) : W10 m ρ c = project2.result (W9 m ρ c) := by
  unfold W10
  refine RegionOp.withArrays_eq_result spec3 launch3.win.arr_inj c (W9 m ρ c) _ project2 3 rfl ?_ ?_
  · exact (Project2.array_eq (V9 m ρ) c).trans (ternary_result main_v22 main_arg13 main_v23 main_v24 _ _ _ _ _ (W9 m ρ c)).symm
  · intro w hw
    match w, hw with
    | ⟨0, _⟩, _ => exact ((dat3 (V9 m ρ) c).arrAt_in 0 rfl _).trans (A_eq3 (V9 m ρ) c 0)
    | ⟨1, _⟩, _ => exact ((dat3 (V9 m ρ) c).arrAt_in 1 rfl _).trans (A_eq3 (V9 m ρ) c 1)
    | ⟨2, _⟩, _ => exact ((dat3 (V9 m ρ) c).arrAt_in 2 rfl _).trans (A_eq3 (V9 m ρ) c 2)
    | ⟨3, _⟩, h => exact absurd rfl h

set_option maxHeartbeats 1000000 in
/-- At region 4's exit the buffers hold what the operation leaves from the entry contents: the output array at the
    stage's image, the input arrays and every other buffer as entered. -/
theorem W12_eq (c : Dev nD) : W12 m ρ c = message2.result (W11 m ρ c) := by
  unfold W12
  refine RegionOp.withArrays_eq_result spec4 launch4.win.arr_inj c (W11 m ρ c) _ message2 4 rfl ?_ ?_
  · exact (Message2.array_eq (V11 m ρ) c).trans (quaternary_result main_arg3 main_arg15 main_v32 main_v31 main_v33 _ _ _ _ _ _ (W11 m ρ c)).symm
  · intro w hw
    match w, hw with
    | ⟨0, _⟩, _ => exact ((dat4 (V11 m ρ) c).arrAt_in 0 rfl _).trans (A_eq4 (V11 m ρ) c 0)
    | ⟨1, _⟩, _ => exact ((dat4 (V11 m ρ) c).arrAt_in 1 rfl _).trans (A_eq4 (V11 m ρ) c 1)
    | ⟨2, _⟩, _ => exact ((dat4 (V11 m ρ) c).arrAt_in 2 rfl _).trans (A_eq4 (V11 m ρ) c 2)
    | ⟨3, _⟩, _ => exact ((dat4 (V11 m ρ) c).arrAt_in 3 rfl _).trans (A_eq4 (V11 m ρ) c 3)
    | ⟨4, _⟩, h => exact absurd rfl h

set_option maxHeartbeats 1000000 in
/-- At region 5's exit the buffers hold what the operation leaves from the entry contents: the output array at the
    stage's image, the input arrays and every other buffer as entered. -/
theorem W14_eq (c : Dev nD) : W14 m ρ c = update2.result (W13 m ρ c) := by
  unfold W14
  refine RegionOp.withArrays_eq_result spec5 launch5.win.arr_inj c (W13 m ρ c) _ update2 6 update2_writes ?_ ?_
  · exact (Update2.array_eq (V13 m ρ) c).trans (update2_result (W13 m ρ c)).symm
  · intro w hw
    match w, hw with
    | ⟨0, _⟩, _ => exact ((dat5 (V13 m ρ) c).arrAt_in 0 rfl _).trans (A_eq5 (V13 m ρ) c 0)
    | ⟨1, _⟩, _ => exact ((dat5 (V13 m ρ) c).arrAt_in 1 rfl _).trans (A_eq5 (V13 m ρ) c 1)
    | ⟨2, _⟩, _ => exact ((dat5 (V13 m ρ) c).arrAt_in 2 rfl _).trans (A_eq5 (V13 m ρ) c 2)
    | ⟨3, _⟩, _ => exact ((dat5 (V13 m ρ) c).arrAt_in 3 rfl _).trans (A_eq5 (V13 m ρ) c 3)
    | ⟨4, _⟩, _ => exact ((dat5 (V13 m ρ) c).arrAt_in 4 rfl _).trans (A_eq5 (V13 m ρ) c 4)
    | ⟨5, _⟩, _ => exact ((dat5 (V13 m ρ) c).arrAt_in 5 rfl _).trans (A_eq5 (V13 m ρ) c 5)
    | ⟨6, _⟩, h => exact absurd rfl h

set_option maxHeartbeats 1000000 in
/-- At region 6's exit the buffers hold what the operation leaves from the entry contents: the output array at the
    stage's image, the input arrays and every other buffer as entered. -/
theorem W16_eq (c : Dev nD) : W16 m ρ c = readout.result (W15 m ρ c) := by
  unfold W16
  refine RegionOp.withArrays_eq_result spec6 launch6.win.arr_inj c (W15 m ρ c) _ readout 3 rfl ?_ ?_
  · exact (Readout.array_eq (V15 m ρ) c).trans (ternary_result main_v42 main_arg21 main_v43 main_v44 _ _ _ _ _ (W15 m ρ c)).symm
  · intro w hw
    match w, hw with
    | ⟨0, _⟩, _ => exact ((dat6 (V15 m ρ) c).arrAt_in 0 rfl _).trans (A_eq6 (V15 m ρ) c 0)
    | ⟨1, _⟩, _ => exact ((dat6 (V15 m ρ) c).arrAt_in 1 rfl _).trans (A_eq6 (V15 m ρ) c 1)
    | ⟨2, _⟩, _ => exact ((dat6 (V15 m ρ) c).arrAt_in 2 rfl _).trans (A_eq6 (V15 m ρ) c 2)
    | ⟨3, _⟩, h => exact absurd rfl h

end Cert.KernelIdeal.Fold

end
-- ==== Proof.Entry.lean ====
/-
  What the buffers hold when the first region is entered.

  Before the first region the program runs twelve host operations: it splits the edge list into its source and target
  rows, builds the one-hot encoding of the node types, joins it to the positions along the feature axis, and reshapes
  the first bias vector to one row.  None of them writes an argument array.  So at the first region's entry every
  argument array holds its launch contents, and the four computed buffers hold those operations' values of the
  arguments.
-/
import proofs.«181900_j6141803233970_1_alg».proof.Proof.Gen.KernelIdeal.Frame
import Idealize.ShloMosaic.PureOps.Ideal.Laws
import Idealize.ShloMosaic.Lib.ValueIdx

set_option maxRecDepth 16384

noncomputable section

namespace Cert.KernelIdeal.Entry

open Idealize.ShloMosaic Idealize.ShloMosaic.TcCoe Idealize.ShloMosaic.StableHlo Idealize.SL.Sem
open Cert.KernelIdeal Cert.KernelIdeal.Gen

variable (m : (ℓ : Loc nD τ sig) → Buf (Elt Ideal) ℓ) (ρ : Dev nD → PrngReg) (c : Dev nD)

/-- The buffer contents when the first region is entered. -/
def entry : Valuation τ sig (Elt Ideal) := W3 m ρ c

/-! ## The argument arrays the later segments read: as launched -/

theorem arg3 : entry m ρ c (Proc.devRef .tc main_arg3) = m ((c.tc : Thread nD τ).loc main_arg3) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg4 : entry m ρ c (Proc.devRef .tc main_arg4) = m ((c.tc : Thread nD τ).loc main_arg4) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg5 : entry m ρ c (Proc.devRef .tc main_arg5) = m ((c.tc : Thread nD τ).loc main_arg5) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg7 : entry m ρ c (Proc.devRef .tc main_arg7) = m ((c.tc : Thread nD τ).loc main_arg7) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg8 : entry m ρ c (Proc.devRef .tc main_arg8) = m ((c.tc : Thread nD τ).loc main_arg8) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg9 : entry m ρ c (Proc.devRef .tc main_arg9) = m ((c.tc : Thread nD τ).loc main_arg9) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg10 : entry m ρ c (Proc.devRef .tc main_arg10) = m ((c.tc : Thread nD τ).loc main_arg10) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg11 : entry m ρ c (Proc.devRef .tc main_arg11) = m ((c.tc : Thread nD τ).loc main_arg11) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg12 : entry m ρ c (Proc.devRef .tc main_arg12) = m ((c.tc : Thread nD τ).loc main_arg12) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg13 : entry m ρ c (Proc.devRef .tc main_arg13) = m ((c.tc : Thread nD τ).loc main_arg13) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg14 : entry m ρ c (Proc.devRef .tc main_arg14) = m ((c.tc : Thread nD τ).loc main_arg14) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg15 : entry m ρ c (Proc.devRef .tc main_arg15) = m ((c.tc : Thread nD τ).loc main_arg15) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg16 : entry m ρ c (Proc.devRef .tc main_arg16) = m ((c.tc : Thread nD τ).loc main_arg16) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg17 : entry m ρ c (Proc.devRef .tc main_arg17) = m ((c.tc : Thread nD τ).loc main_arg17) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg18 : entry m ρ c (Proc.devRef .tc main_arg18) = m ((c.tc : Thread nD τ).loc main_arg18) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg19 : entry m ρ c (Proc.devRef .tc main_arg19) = m ((c.tc : Thread nD τ).loc main_arg19) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg20 : entry m ρ c (Proc.devRef .tc main_arg20) = m ((c.tc : Thread nD τ).loc main_arg20) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg21 : entry m ρ c (Proc.devRef .tc main_arg21) = m ((c.tc : Thread nD τ).loc main_arg21) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

theorem arg22 : entry m ρ c (Proc.devRef .tc main_arg22) = m ((c.tc : Thread nD τ).loc main_arg22) := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

/-! ## The computed buffers -/

/-- The edges' source nodes: row 0 of the edge list. -/
theorem sources : entry m ρ c (Proc.devRef .tc main_v1)
    = shapeCast S600000 (extractStridedSlice S1x600000 ![0, 0] (m ((c.tc : Thread nD τ).loc main_arg2)) slices_S2x600000_S1x600000_0_0) shapeCasts_S1x600000_S600000 := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']
  rfl

/-- The edges' target nodes: row 1 of the edge list. -/
theorem targets : entry m ρ c (Proc.devRef .tc main_v3)
    = shapeCast S600000 (extractStridedSlice S1x600000 ![1, 0] (m ((c.tc : Thread nD τ).loc main_arg2)) slices_S2x600000_S1x600000_1_0) shapeCasts_S1x600000_S600000 := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']
  rfl

/-- The first projection's bias as one row. -/
theorem biasRow : entry m ρ c (Proc.devRef .tc main_v6)
    = shapeCast S1x128 (m ((c.tc : Thread nD τ).loc main_arg6)) shapeCasts_S128_S1x128 := by
  unfold entry
  simp (disch := decide) only [W3, W2, W1, hostOps0, hostOps0_1, hostOps0_2, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']
  rfl

/-- The one-hot encoding of the node types, one boundary earlier. -/
theorem oneHot : W2 m ρ c (Proc.devRef .tc main_v4)
    = ((uitofp .f32 (cmpi .eq (broadcastInDim S50000x10 ![0, 1] bcast_S50000x1_S50000x10_0_1 (broadcastInDim S50000x1 ![0] bcast_S50000_S50000x1_0 (m ((c.tc : Thread nD τ).loc main_arg1)))) (broadcastInDim S50000x10 ![0, 1] bcast_S1x10_S50000x10_0_1 (iotaInDim S1x10 32 1)))) : FVec Ideal S50000x10 .f32) := by
  simp (disch := decide) only [W2, W1, hostOps0, hostOps0_1, after_cons, after_nil,
    TRef.unary, TRef.binary, TRef.nullary, TRef.of, TRef.toBuf, TRef.ofBuf, cast_eq,
    nullary_result', unary_result', binary_result', reshape_result',
    nullary_result_ne', unary_result_ne', binary_result_ne', reshape_result_ne']

/-- The positions, one boundary earlier: as launched. -/
theorem positions : W2 m ρ c (Proc.devRef .tc main_arg0) = m ((c.tc : Thread nD τ).loc main_arg0) := by
  simp (disch := decide) only [W2, W1, hostOps0, hostOps0_1, after_cons, after_nil,
    TRef.unary, TRef.binary, TRef.nullary, TRef.of, TRef.toBuf, TRef.ofBuf, cast_eq,
    nullary_result_ne', unary_result_ne', binary_result_ne', reshape_result_ne']

/-- The node features: the positions joined with the one-hot encoding of the node types along the feature axis. -/
theorem features : entry m ρ c (Proc.devRef .tc main_v5)
    = concatenate S50000x13 1 [⟨S50000x3, (m ((c.tc : Thread nD τ).loc main_arg0))⟩, ⟨S50000x10, ((uitofp .f32 (cmpi .eq (broadcastInDim S50000x10 ![0, 1] bcast_S50000x1_S50000x10_0_1 (broadcastInDim S50000x1 ![0] bcast_S50000_S50000x1_0 (m ((c.tc : Thread nD τ).loc main_arg1)))) (broadcastInDim S50000x10 ![0, 1] bcast_S1x10_S50000x10_0_1 (iotaInDim S1x10 32 1)))) : FVec Ideal S50000x10 .f32)⟩] concatenates_S50000x3_S50000x10_S50000x13_d1 := by
  unfold entry
  show after hostOps0_2 (W2 m ρ c) (Proc.devRef .tc main_v5) = _
  simp (disch := decide) only [hostOps0_2, after_cons, after_nil, binary_result', reshape_result_ne']
  exact congrArg₂ (fun (a : (⟨S50000x3, .f32⟩ : BufTy).Contents (Elt Ideal)) (b : (⟨S50000x10, .f32⟩ : BufTy).Contents (Elt Ideal)) =>
      concatenate S50000x13 1 [⟨S50000x3, a⟩, ⟨S50000x10, b⟩] concatenates_S50000x3_S50000x10_S50000x13_d1)
    (positions m ρ c) (oneHot m ρ c)

end Cert.KernelIdeal.Entry

end
-- ==== Proof.Common.lean ====
/-
  The network as one function of its twenty-three argument arrays, in two spellings.

  Both spellings compose the same host operations: the node features are the positions joined with the one-hot
  node types; each layer projects the node rows, gathers the projected rows of the edges' source nodes, forms the
  edge messages, scatter-adds them into the target nodes and applies the node update; the second layer's rows are
  scatter-added into the graphs and read out.  They differ only in how each of the nine bias vectors becomes the one
  row repeated over the rows: reshaped to [1, n], or broadcast along a new first axis.  Both rows hold entry c of the
  vector at (0, c), so the two spellings are the same function.
-/
import proofs.«181900_j6141803233970_1_alg».proof.Proof.Gen.ReferenceIdeal
import proofs.«181900_j6141803233970_1_alg».proof.Proof.Gen.KernelIdeal
import proofs.«181900_j6141803233970_1_alg».proof.Proof.LibGraphLayers

set_option maxRecDepth 16384

noncomputable section

namespace Cert.Common

open Idealize.ShloMosaic Cert.ReferenceIdeal Cert.ReferenceIdeal.Gen

/-- A length-128 vector reshaped to one row is the vector broadcast to one row. -/
theorem row128 (v : FVec Ideal S128 .f32) :
    shapeCast S1x128 v Cert.KernelIdeal.Gen.shapeCasts_S128_S1x128 = broadcastInDim S1x128 ![1] bcast_S128_S1x128_1 v :=
  GraphLayers.reshapeAsRow_eq v Cert.KernelIdeal.Gen.shapeCasts_S128_S1x128 bcast_S128_S1x128_1

/-- A length-1 vector reshaped to one row is the vector broadcast to one row. -/
theorem row1 (v : FVec Ideal S1 .f32) :
    shapeCast S1x1 v Cert.KernelIdeal.Gen.shapeCasts_S1_S1x1 = broadcastInDim S1x1 ![1] bcast_S1_S1x1_1 v :=
  GraphLayers.reshapeAsRow_eq v Cert.KernelIdeal.Gen.shapeCasts_S1_S1x1 bcast_S1_S1x1_1

/-- The network with every bias vector broadcast to its row. -/
def broadcastRows (p0 : FVec Ideal S50000x3 .f32) (p1 : IVec S50000 32) (p2 : IVec S2x600000 32) (p3 : FVec Ideal S600000x16 .f32) (p4 : IVec S50000 32) (p5 : FVec Ideal S13x128 .f32) (p6 : FVec Ideal S128 .f32) (p7 : FVec Ideal S16x128 .f32) (p8 : FVec Ideal S128 .f32) (p9 : FVec Ideal S128x128 .f32) (p10 : FVec Ideal S128 .f32) (p11 : FVec Ideal S128x128 .f32) (p12 : FVec Ideal S128 .f32) (p13 : FVec Ideal S128x128 .f32) (p14 : FVec Ideal S128 .f32) (p15 : FVec Ideal S16x128 .f32) (p16 : FVec Ideal S128 .f32) (p17 : FVec Ideal S128x128 .f32) (p18 : FVec Ideal S128 .f32) (p19 : FVec Ideal S128x128 .f32) (p20 : FVec Ideal S128 .f32) (p21 : FVec Ideal S128x1 .f32) (p22 : FVec Ideal S1 .f32) :
    FVec Ideal S512x1 .f32 :=
  addf (Host.dotGeneral dot_S512x128_S128x1_S512x1_1_0_0_1_n_n none (Host.scatterAdd scatter_S512x128_S50000x1_S50000x128_1_0_0_1 (broadcastInDim S512x128 ![] bcast_S_S512x128 (constant S_ .f32 0x00000000#32)) (broadcastInDim S50000x1 ![0] bcast_S50000_S50000x1_0 p4) (maximumf (addf (Host.dotGeneral dot_S50000x128_S128x128_S50000x128_1_0_0_1_n_n none (maximumf (addf (Host.dotGeneral dot_S50000x128_S128x128_S50000x128_1_0_0_1_n_n none (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] p2 slices_S2x600000_S1x600000_1_0) shapeCasts_S1x600000_S600000)) (maximumf (addf (Host.gather gather_S50000x128_S600000x1_S600000x128_1_0_n_n_0_1_1128 (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] p2 slices_S2x600000_S1x600000_1_0) shapeCasts_S1x600000_S600000)) (maximumf (addf (Host.gather gather_S50000x128_S600000x1_S600000x128_1_0_n_n_0_1_1128 (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (broadcastInDim S1x128 ![1] bcast_S128_S1x128_1 p6))) (broadcastInDim S600000x1 ![0] bcast_S600000_S600000x1_0 (select (cmpi .slt (shapeCast _ (extractStridedSlice S1x600000 ![0, 0] p2 slices_S2x600000_S1x600000_0_0) shapeCasts_S1x600000_S600000) (broadcastInDim S600000 ![] bcast_S_S600000 (constantI S_ 32 0#32))) (addi (shapeCast _ (extractStridedSlice S1x600000 ![0, 0] p2 slices_S2x600000_S1x600000_0_0) shapeCasts_S1x600000_S600000) (broadcastInDim S600000 ![] bcast_S_S600000 (constantI S_ 32 50000#32))) (shapeCast _ (extractStridedSlice S1x600000 ![0, 0] p2 slices_S2x600000_S1x600000_0_0) shapeCasts_S1x600000_S600000)))) (addf (Host.dotGeneral dot_S600000x16_S16x128_S600000x128_1_0_0_1_n_n none p3 p7) (broadcastInDim S600000x128 ![0, 1] bcast_S1x128_S600000x128_0_1 (broadcastInDim S1x128 ![1] bcast_S128_S1x128_1 p8)))) (broadcastInDim S600000x128 ![] bcast_S_S600000x128 (constant S_ .f32 0x00000000#32)))) (maximumf (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (broadcastInDim S1x128 ![1] bcast_S128_S1x128_1 p6))) (broadcastInDim S50000x128 ![] bcast_S_S50000x128 (constant S_ .f32 0x00000000#32)))) p9) (broadcastInDim S50000x128 ![0, 1] bcast_S1x128_S50000x128_0_1 (broadcastInDim S1x128 ![1] bcast_S128_S1x128_1 p10))) (broadcastInDim S50000x128 ![] bcast_S_S50000x128 (constant S_ .f32 0x00000000#32))) p11) (broadcastInDim S50000x128 ![0, 1] bcast_S1x128_S50000x128_0_1 (broadcastInDim S1x128 ![1] bcast_S128_S1x128_1 p12))) (broadcastInDim S50000x128 ![] bcast_S_S50000x128 (constant S_ .f32 0x00000000#32))) p13) (broadcastInDim S50000x128 ![0, 1] bcast_S1x128_S50000x128_0_1 (broadcastInDim S1x128 ![1] bcast_S128_S1x128_1 p14))) (broadcastInDim S600000x1 ![0] bcast_S600000_S600000x1_0 (select (cmpi .slt (shapeCast _ (extractStridedSlice S1x600000 ![0, 0] p2 slices_S2x600000_S1x600000_0_0) shapeCasts_S1x600000_S600000) (broadcastInDim S600000 ![] bcast_S_S600000 (constantI S_ 32 0#32))) (addi (shapeCast _ (extractStridedSlice S1x600000 ![0, 0] p2 slices_S2x600000_S1x600000_0_0) shapeCasts_S1x600000_S600000) (broadcastInDim S600000 ![] bcast_S_S600000 (constantI S_ 32 50000#32))) (shapeCast _ (extractStridedSlice S1x600000 ![0, 0] p2 slices_S2x600000_S1x600000_0_0) shapeCasts_S1x600000_S600000)))) (addf (Host.dotGeneral dot_S600000x16_S16x128_S600000x128_1_0_0_1_n_n none p3 p15) (broadcastInDim S600000x128 ![0, 1] bcast_S1x128_S600000x128_0_1 (broadcastInDim S1x128 ![1] bcast_S128_S1x128_1 p16)))) (broadcastInDim S600000x128 ![] bcast_S_S600000x128 (constant S_ .f32 0x00000000#32)))) (maximumf (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] p2 slices_S2x600000_S1x600000_1_0) shapeCasts_S1x600000_S600000)) (maximumf (addf (Host.gather gather_S50000x128_S600000x1_S600000x128_1_0_n_n_0_1_1128 (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (broadcastInDim S1x128 ![1] bcast_S128_S1x128_1 p6))) (broadcastInDim S600000x1 ![0] bcast_S600000_S600000x1_0 (select (cmpi .slt (shapeCast _ (extractStridedSlice S1x600000 ![0, 0] p2 slices_S2x600000_S1x600000_0_0) shapeCasts_S1x600000_S600000) (broadcastInDim S600000 ![] bcast_S_S600000 (constantI S_ 32 0#32))) (addi (shapeCast _ (extractStridedSlice S1x600000 ![0, 0] p2 slices_S2x600000_S1x600000_0_0) shapeCasts_S1x600000_S600000) (broadcastInDim S600000 ![] bcast_S_S600000 (constantI S_ 32 50000#32))) (shapeCast _ (extractStridedSlice S1x600000 ![0, 0] p2 slices_S2x600000_S1x600000_0_0) shapeCasts_S1x600000_S600000)))) (addf (Host.dotGeneral dot_S600000x16_S16x128_S600000x128_1_0_0_1_n_n none p3 p7) (broadcastInDim S600000x128 ![0, 1] bcast_S1x128_S600000x128_0_1 (broadcastInDim S1x128 ![1] bcast_S128_S1x128_1 p8)))) (broadcastInDim S600000x128 ![] bcast_S_S600000x128 (constant S_ .f32 0x00000000#32)))) (maximumf (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (broadcastInDim S1x128 ![1] bcast_S128_S1x128_1 p6))) (broadcastInDim S50000x128 ![] bcast_S_S50000x128 (constant S_ .f32 0x00000000#32)))) p9) (broadcastInDim S50000x128 ![0, 1] bcast_S1x128_S50000x128_0_1 (broadcastInDim S1x128 ![1] bcast_S128_S1x128_1 p10))) (broadcastInDim S50000x128 ![] bcast_S_S50000x128 (constant S_ .f32 0x00000000#32))) p11) (broadcastInDim S50000x128 ![0, 1] bcast_S1x128_S50000x128_0_1 (broadcastInDim S1x128 ![1] bcast_S128_S1x128_1 p12))) (broadcastInDim S50000x128 ![] bcast_S_S50000x128 (constant S_ .f32 0x00000000#32))) p13) (broadcastInDim S50000x128 ![0, 1] bcast_S1x128_S50000x128_0_1 (broadcastInDim S1x128 ![1] bcast_S128_S1x128_1 p14))) (broadcastInDim S50000x128 ![] bcast_S_S50000x128 (constant S_ .f32 0x00000000#32)))) p17) (broadcastInDim S50000x128 ![0, 1] bcast_S1x128_S50000x128_0_1 (broadcastInDim S1x128 ![1] bcast_S128_S1x128_1 p18))) (broadcastInDim S50000x128 ![] bcast_S_S50000x128 (constant S_ .f32 0x00000000#32))) p19) (broadcastInDim S50000x128 ![0, 1] bcast_S1x128_S50000x128_0_1 (broadcastInDim S1x128 ![1] bcast_S128_S1x128_1 p20))) (broadcastInDim S50000x128 ![] bcast_S_S50000x128 (constant S_ .f32 0x00000000#32)))) p21) (broadcastInDim S512x1 ![0, 1] bcast_S1x1_S512x1_0_1 (broadcastInDim S1x1 ![1] bcast_S1_S1x1_1 p22))

/-- The network with every bias vector reshaped to its row. -/
def reshapedRows (p0 : FVec Ideal S50000x3 .f32) (p1 : IVec S50000 32) (p2 : IVec S2x600000 32) (p3 : FVec Ideal S600000x16 .f32) (p4 : IVec S50000 32) (p5 : FVec Ideal S13x128 .f32) (p6 : FVec Ideal S128 .f32) (p7 : FVec Ideal S16x128 .f32) (p8 : FVec Ideal S128 .f32) (p9 : FVec Ideal S128x128 .f32) (p10 : FVec Ideal S128 .f32) (p11 : FVec Ideal S128x128 .f32) (p12 : FVec Ideal S128 .f32) (p13 : FVec Ideal S128x128 .f32) (p14 : FVec Ideal S128 .f32) (p15 : FVec Ideal S16x128 .f32) (p16 : FVec Ideal S128 .f32) (p17 : FVec Ideal S128x128 .f32) (p18 : FVec Ideal S128 .f32) (p19 : FVec Ideal S128x128 .f32) (p20 : FVec Ideal S128 .f32) (p21 : FVec Ideal S128x1 .f32) (p22 : FVec Ideal S1 .f32) :
    FVec Ideal S512x1 .f32 :=
  addf (Host.dotGeneral dot_S512x128_S128x1_S512x1_1_0_0_1_n_n none (Host.scatterAdd scatter_S512x128_S50000x1_S50000x128_1_0_0_1 (broadcastInDim S512x128 ![] bcast_S_S512x128 (constant S_ .f32 0x00000000#32)) (broadcastInDim S50000x1 ![0] bcast_S50000_S50000x1_0 p4) (maximumf (addf (Host.dotGeneral dot_S50000x128_S128x128_S50000x128_1_0_0_1_n_n none (maximumf (addf (Host.dotGeneral dot_S50000x128_S128x128_S50000x128_1_0_0_1_n_n none (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] p2 slices_S2x600000_S1x600000_1_0) shapeCasts_S1x600000_S600000)) (maximumf (addf (Host.gather gather_S50000x128_S600000x1_S600000x128_1_0_n_n_0_1_1128 (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] p2 slices_S2x600000_S1x600000_1_0) shapeCasts_S1x600000_S600000)) (maximumf (addf (Host.gather gather_S50000x128_S600000x1_S600000x128_1_0_n_n_0_1_1128 (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (shapeCast S1x128 p6 Cert.KernelIdeal.Gen.shapeCasts_S128_S1x128))) (broadcastInDim S600000x1 ![0] bcast_S600000_S600000x1_0 (select (cmpi .slt (shapeCast _ (extractStridedSlice S1x600000 ![0, 0] p2 slices_S2x600000_S1x600000_0_0) shapeCasts_S1x600000_S600000) (broadcastInDim S600000 ![] bcast_S_S600000 (constantI S_ 32 0#32))) (addi (shapeCast _ (extractStridedSlice S1x600000 ![0, 0] p2 slices_S2x600000_S1x600000_0_0) shapeCasts_S1x600000_S600000) (broadcastInDim S600000 ![] bcast_S_S600000 (constantI S_ 32 50000#32))) (shapeCast _ (extractStridedSlice S1x600000 ![0, 0] p2 slices_S2x600000_S1x600000_0_0) shapeCasts_S1x600000_S600000)))) (addf (Host.dotGeneral dot_S600000x16_S16x128_S600000x128_1_0_0_1_n_n none p3 p7) (broadcastInDim S600000x128 ![0, 1] bcast_S1x128_S600000x128_0_1 (shapeCast S1x128 p8 Cert.KernelIdeal.Gen.shapeCasts_S128_S1x128)))) (broadcastInDim S600000x128 ![] bcast_S_S600000x128 (constant S_ .f32 0x00000000#32)))) (maximumf (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (shapeCast S1x128 p6 Cert.KernelIdeal.Gen.shapeCasts_S128_S1x128))) (broadcastInDim S50000x128 ![] bcast_S_S50000x128 (constant S_ .f32 0x00000000#32)))) p9) (broadcastInDim S50000x128 ![0, 1] bcast_S1x128_S50000x128_0_1 (shapeCast S1x128 p10 Cert.KernelIdeal.Gen.shapeCasts_S128_S1x128))) (broadcastInDim S50000x128 ![] bcast_S_S50000x128 (constant S_ .f32 0x00000000#32))) p11) (broadcastInDim S50000x128 ![0, 1] bcast_S1x128_S50000x128_0_1 (shapeCast S1x128 p12 Cert.KernelIdeal.Gen.shapeCasts_S128_S1x128))) (broadcastInDim S50000x128 ![] bcast_S_S50000x128 (constant S_ .f32 0x00000000#32))) p13) (broadcastInDim S50000x128 ![0, 1] bcast_S1x128_S50000x128_0_1 (shapeCast S1x128 p14 Cert.KernelIdeal.Gen.shapeCasts_S128_S1x128))) (broadcastInDim S600000x1 ![0] bcast_S600000_S600000x1_0 (select (cmpi .slt (shapeCast _ (extractStridedSlice S1x600000 ![0, 0] p2 slices_S2x600000_S1x600000_0_0) shapeCasts_S1x600000_S600000) (broadcastInDim S600000 ![] bcast_S_S600000 (constantI S_ 32 0#32))) (addi (shapeCast _ (extractStridedSlice S1x600000 ![0, 0] p2 slices_S2x600000_S1x600000_0_0) shapeCasts_S1x600000_S600000) (broadcastInDim S600000 ![] bcast_S_S600000 (constantI S_ 32 50000#32))) (shapeCast _ (extractStridedSlice S1x600000 ![0, 0] p2 slices_S2x600000_S1x600000_0_0) shapeCasts_S1x600000_S600000)))) (addf (Host.dotGeneral dot_S600000x16_S16x128_S600000x128_1_0_0_1_n_n none p3 p15) (broadcastInDim S600000x128 ![0, 1] bcast_S1x128_S600000x128_0_1 (shapeCast S1x128 p16 Cert.KernelIdeal.Gen.shapeCasts_S128_S1x128)))) (broadcastInDim S600000x128 ![] bcast_S_S600000x128 (constant S_ .f32 0x00000000#32)))) (maximumf (addf (Host.dotGeneral dot_S50000x128_S128x128_S50000x128_1_0_0_1_n_n none (maximumf (addf (Host.dotGeneral dot_S50000x128_S128x128_S50000x128_1_0_0_1_n_n none (maximumf (addf (Host.dotGeneral dot_S50000x128_S128x128_S50000x128_1_0_0_1_n_n none (addf (Host.scatterAdd scatter_S50000x128_S600000x1_S600000x128_1_0_0_1 (broadcastInDim S50000x128 ![] bcast_S_S50000x128 (constant S_ .f32 0x00000000#32)) (broadcastInDim S600000x1 ![0] bcast_S600000_S600000x1_0 (shapeCast _ (extractStridedSlice S1x600000 ![1, 0] p2 slices_S2x600000_S1x600000_1_0) shapeCasts_S1x600000_S600000)) (maximumf (addf (Host.gather gather_S50000x128_S600000x1_S600000x128_1_0_n_n_0_1_1128 (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (shapeCast S1x128 p6 Cert.KernelIdeal.Gen.shapeCasts_S128_S1x128))) (broadcastInDim S600000x1 ![0] bcast_S600000_S600000x1_0 (select (cmpi .slt (shapeCast _ (extractStridedSlice S1x600000 ![0, 0] p2 slices_S2x600000_S1x600000_0_0) shapeCasts_S1x600000_S600000) (broadcastInDim S600000 ![] bcast_S_S600000 (constantI S_ 32 0#32))) (addi (shapeCast _ (extractStridedSlice S1x600000 ![0, 0] p2 slices_S2x600000_S1x600000_0_0) shapeCasts_S1x600000_S600000) (broadcastInDim S600000 ![] bcast_S_S600000 (constantI S_ 32 50000#32))) (shapeCast _ (extractStridedSlice S1x600000 ![0, 0] p2 slices_S2x600000_S1x600000_0_0) shapeCasts_S1x600000_S600000)))) (addf (Host.dotGeneral dot_S600000x16_S16x128_S600000x128_1_0_0_1_n_n none p3 p7) (broadcastInDim S600000x128 ![0, 1] bcast_S1x128_S600000x128_0_1 (shapeCast S1x128 p8 Cert.KernelIdeal.Gen.shapeCasts_S128_S1x128)))) (broadcastInDim S600000x128 ![] bcast_S_S600000x128 (constant S_ .f32 0x00000000#32)))) (maximumf (addf (Host.dotGeneral dot_S50000x13_S13x128_S50000x128_1_0_0_1_n_n none (concatenate S50000x13 1 [⟨S50000x3, p0⟩, ⟨S50000x10, (uitofp .f32 (cmpi .eq (broadcastInDim S50000x10 ![0, 1] bcast_S50000x1_S50000x10_0_1 (broadcastInDim S50000x1 ![0] bcast_S50000_S50000x1_0 p1)) (broadcastInDim S50000x10 ![0, 1] bcast_S1x10_S50000x10_0_1 (iotaInDim S1x10 32 1))))⟩] concatenates_S50000x3_S50000x10_S50000x13_d1) p5) (broadcastInDim S50000x128 ![0, 1] bcast_S1x128_S50000x128_0_1 (shapeCast S1x128 p6 Cert.KernelIdeal.Gen.shapeCasts_S128_S1x128))) (broadcastInDim S50000x128 ![] bcast_S_S50000x128 (constant S_ .f32 0x00000000#32)))) p9) (broadcastInDim S50000x128 ![0, 1] bcast_S1x128_S50000x128_0_1 (shapeCast S1x128 p10 Cert.KernelIdeal.Gen.shapeCasts_S128_S1x128))) (broadcastInDim S50000x128 ![] bcast_S_S50000x128 (constant S_ .f32 0x00000000#32))) p11) (broadcastInDim S50000x128 ![0, 1] bcast_S1x128_S50000x128_0_1 (shapeCast S1x128 p12 Cert.KernelIdeal.Gen.shapeCasts_S128_S1x128))) (broadcastInDim S50000x128 ![] bcast_S_S50000x128 (constant S_ .f32 0x00000000#32))) p13) (broadcastInDim S50000x128 ![0, 1] bcast_S1x128_S50000x128_0_1 (shapeCast S1x128 p14 Cert.KernelIdeal.Gen.shapeCasts_S128_S1x128))) (broadcastInDim S50000x128 ![] bcast_S_S50000x128 (constant S_ .f32 0x00000000#32)))) p17) (broadcastInDim S50000x128 ![0, 1] bcast_S1x128_S50000x128_0_1 (shapeCast S1x128 p18 Cert.KernelIdeal.Gen.shapeCasts_S128_S1x128))) (broadcastInDim S50000x128 ![] bcast_S_S50000x128 (constant S_ .f32 0x00000000#32))) p19) (broadcastInDim S50000x128 ![0, 1] bcast_S1x128_S50000x128_0_1 (shapeCast S1x128 p20 Cert.KernelIdeal.Gen.shapeCasts_S128_S1x128))) (broadcastInDim S50000x128 ![] bcast_S_S50000x128 (constant S_ .f32 0x00000000#32)))) p21) (broadcastInDim S512x1 ![0, 1] bcast_S1x1_S512x1_0_1 (shapeCast S1x1 p22 Cert.KernelIdeal.Gen.shapeCasts_S1_S1x1))

/-- The two spellings are one function. -/
theorem reshaped_eq_broadcast (p0 : FVec Ideal S50000x3 .f32) (p1 : IVec S50000 32) (p2 : IVec S2x600000 32) (p3 : FVec Ideal S600000x16 .f32) (p4 : IVec S50000 32) (p5 : FVec Ideal S13x128 .f32) (p6 : FVec Ideal S128 .f32) (p7 : FVec Ideal S16x128 .f32) (p8 : FVec Ideal S128 .f32) (p9 : FVec Ideal S128x128 .f32) (p10 : FVec Ideal S128 .f32) (p11 : FVec Ideal S128x128 .f32) (p12 : FVec Ideal S128 .f32) (p13 : FVec Ideal S128x128 .f32) (p14 : FVec Ideal S128 .f32) (p15 : FVec Ideal S16x128 .f32) (p16 : FVec Ideal S128 .f32) (p17 : FVec Ideal S128x128 .f32) (p18 : FVec Ideal S128 .f32) (p19 : FVec Ideal S128x128 .f32) (p20 : FVec Ideal S128 .f32) (p21 : FVec Ideal S128x1 .f32) (p22 : FVec Ideal S1 .f32) :
    reshapedRows p0 p1 p2 p3 p4 p5 p6 p7 p8 p9 p10 p11 p12 p13 p14 p15 p16 p17 p18 p19 p20 p21 p22 = broadcastRows p0 p1 p2 p3 p4 p5 p6 p7 p8 p9 p10 p11 p12 p13 p14 p15 p16 p17 p18 p19 p20 p21 p22 := by
  unfold reshapedRows broadcastRows
  simp only [row128, row1]

end Cert.Common

end
-- ==== Proof.Bridge.lean ====
/-
  The two programs compute one function of the arguments.

  The kernel program's result buffer ends at the fold of its line of operations over the launch memory, each region
  one operation (its stage over whole arrays).  Read at the result buffer, that fold is the network with every bias
  vector reshaped to its row, applied to the launch contents of the argument arrays.  The reference program's result is
  the network with every bias vector broadcast to its row.  The two are one function, so from memories that agree on
  the arguments the two results are equal.
-/
import proofs.«181900_j6141803233970_1_alg».proof.Proof.Fold
import proofs.«181900_j6141803233970_1_alg».proof.Proof.Entry
import proofs.«181900_j6141803233970_1_alg».proof.Proof.Common
import proofs.«181900_j6141803233970_1_alg».proof.Proof.Gen.ReferenceIdeal.Run

set_option maxRecDepth 16384

noncomputable section

namespace Cert.Bridge

open Idealize.ShloMosaic Idealize.ShloMosaic.TcCoe Idealize.ShloMosaic.StableHlo Idealize.SL.Sem
open Cert.KernelIdeal Cert.KernelIdeal.Gen Cert.KernelIdeal.Fold

/-- The two programs name the same dimension numbers for the row gather, the scatter-add into the nodes and the
    scatter-add into the graphs. -/
theorem gatherDims_eq : gather_S50000x128_S600000x1_S600000x128_1_0_n_n_0_1_1128
    = Cert.ReferenceIdeal.gather_S50000x128_S600000x1_S600000x128_1_0_n_n_0_1_1128 := rfl
theorem scatterDims_eq : scatter_S50000x128_S600000x1_S600000x128_1_0_0_1
    = Cert.ReferenceIdeal.scatter_S50000x128_S600000x1_S600000x128_1_0_0_1 := rfl
theorem poolDims_eq : scatter_S512x128_S50000x1_S50000x128_1_0_0_1
    = Cert.ReferenceIdeal.scatter_S512x128_S50000x1_S50000x128_1_0_0_1 := rfl

variable (m : (ℓ : Loc nD τ sig) → Buf (Elt Ideal) ℓ) (ρ : Dev nD → PrngReg)
  (m' : (ℓ : Loc Cert.ReferenceIdeal.nD Cert.ReferenceIdeal.τ Cert.ReferenceIdeal.sig) → Buf (Elt Ideal) ℓ)

/-- The first region's exit contents, from its entry contents. -/
theorem firstExit (c : Dev nD) : W4 m ρ c = project1.result (Entry.entry m ρ c) := W4_eq m ρ c

set_option maxHeartbeats 4000000 in
/-- The kernel program's result: the network with reshaped bias rows, of the launch contents of the arguments. -/
theorem kernel_result (c : Dev nD) :
    W16 m ρ c (Proc.devRef .tc main_v44) = Common.reshapedRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  simp (disch := decide) only [W16_eq, W14_eq, W12_eq, W10_eq, W8_eq, W6_eq, firstExit, W15, W13, W11, W9, W7, W5,
    hostOps1, hostOps2, hostOps3, hostOps4, hostOps5, hostOps6, after_cons, after_nil,
    nullary_result', unary_result', binary_result', ternary_result', quaternary_result', reshape_result',
    nullary_result_ne', unary_result_ne', binary_result_ne', ternary_result_ne', quaternary_result_ne', reshape_result_ne',
    update1_result', update1_result_ne', update2_result', update2_result_ne',
    Entry.arg3, Entry.arg4, Entry.arg5, Entry.arg7, Entry.arg8, Entry.arg9, Entry.arg10, Entry.arg11, Entry.arg12, Entry.arg13, Entry.arg14, Entry.arg15, Entry.arg16, Entry.arg17, Entry.arg18, Entry.arg19, Entry.arg20, Entry.arg21, Entry.arg22,
    Entry.sources, Entry.targets, Entry.biasRow, Entry.features]
  simp only [Stages.readout, Stages.update, Stages.messages, Stages.project13, Stages.project128,
    Layers.affineRows, Layers.clip, Layers.edgeMessages, Layers.nodeUpdate, gatherDims_eq, scatterDims_eq, poolDims_eq]
  rfl

/-- The reference program's result: the network with broadcast bias rows, of the launch contents of the arguments. -/
theorem reference_result (c : Dev Cert.ReferenceIdeal.nD) :
    Cert.ReferenceIdeal.Value.res_main_v76 m' c = Common.broadcastRows (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) := rfl

/-- From memories that agree on the arguments, the kernel program's result is the reference program's. -/
theorem result_eq (c : Dev nD)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) :
    W16 m ρ c (Proc.devRef .tc main_v44) = Cert.ReferenceIdeal.Value.res_main_v76 m' c := by
  obtain ⟨a0, a1, a2, a3, a4, a5, a6, a7, a8, a9, a10, a11, a12, a13, a14, a15, a16, a17, a18, a19, a20, a21, a22⟩ := hag
  rw [reference_result, a0, a1, a2, a3, a4, a5, a6, a7, a8, a9, a10, a11, a12, a13, a14, a15, a16, a17, a18, a19, a20, a21, a22]
  exact (kernel_result m ρ c).trans (Common.reshaped_eq_broadcast _ _ _ _ _ _ _ _ _ _ _ _ _ _ _ _ _ _ _ _ _ _ _)

end Cert.Bridge

end
-- ==== Proof.lean ====
/-
  A two-layer message-passing network on a graph of 50000 nodes and 600000 edges, pooled over 512 graphs.

  Each layer projects the node rows (x·W + b), gathers the projected row of every edge's source node, adds the
  row-affine image of the edge's features and clips at zero (the edge messages), sums the messages into their target
  nodes, adds the node's own projected row clipped at zero, and passes the sum through two row-affine maps, each
  clipped at zero.  The node rows of the second layer are summed per graph and read out by one more row-affine map.

  The kernel program computes the seven dense stages in pipelined regions, block of rows by block of rows, and
  leaves the gathers and the scatter-adds to host operations; the reference computes everything with host
  operations.  On the extended reals a product of blocks rounded to a narrower format on the way in is the plain
  product, a block of a row-affine map depends on its own rows only, and the blocks tile the arrays: every region
  leaves in its output array exactly the host's whole-array stage of its input arrays.  The two programs are then
  the same composition of the same functions of the arguments, and they end with equal results.  No rearrangement
  of a sum or a product is involved, so the finiteness of the inputs is never used.

  The three frames are the generated ones (the reference's is its run with the result dropped); the idealization
  rewrote nothing, so there is nothing to preserve.
-/
import proofs.«181900_j6141803233970_1_alg».proof.Defs
import proofs.«181900_j6141803233970_1_alg».proof.Proof.Gen.Kernel
import proofs.«181900_j6141803233970_1_alg».proof.Proof.Gen.Kernel.Frame
import proofs.«181900_j6141803233970_1_alg».proof.Proof.Gen.KernelIdeal
import proofs.«181900_j6141803233970_1_alg».proof.Proof.Gen.KernelIdeal.Frame
import proofs.«181900_j6141803233970_1_alg».proof.Proof.Gen.ReferenceIdeal
import proofs.«181900_j6141803233970_1_alg».proof.Proof.Gen.ReferenceIdeal.Run
import proofs.«181900_j6141803233970_1_alg».proof.Proof.Gen.Pre_finite_inputs
import proofs.«181900_j6141803233970_1_alg».proof.Proof.ResultRun
import proofs.«181900_j6141803233970_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs run to the end, and the reference's result is the kernel
    program's: the fold of its line of operations at the result buffer. -/
theorem algebraic : Cert.algebraic_KernelIdeal_ReferenceIdeal := by
  intro m ρ m' ρ' _ hagree
  refine ⟨fun c => Cert.KernelIdeal.Gen.W16 m ρ c (Proc.devRef .tc Cert.KernelIdeal.main_v44),
    Cert.KernelIdeal.ResultRun.run m ρ, ?_⟩
  exact (θ_run Cert.ReferenceIdeal.defs _ _).mono
    (fun _ h c => ⟨(h c).1.trans (Cert.Bridge.result_eq m ρ m' c (hagree c)).symm, (h c).2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
